-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S4096 : Shape := ⟨1, ![4096]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : FVec F S3x128x128 .f32) (main_arg2 : FVec F S3x128 .f32) (main_arg3 : FVec F S3x128 .f32) (main_arg4 : FVec F S3x128 .f32) (main_arg5 : IVec S800000 32) (main_arg6 : IVec S800000 32) (main_arg7 : IVec S4096 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S4096 : Shape := ⟨1, ![4096]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x1 : Shape := ⟨2, ![2000, 1]⟩
abbrev S2000 : Shape := ⟨1, ![2000]⟩
abbrev S4096x1 : Shape := ⟨2, ![4096, 1]⟩
abbrev S4096x128 : Shape := ⟨2, ![4096, 128]⟩

abbrev nBuf : Space → Nat
  | .hbm => 108
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S800000, .i32⟩
  | .hbm, ⟨6, _⟩ => ⟨S800000, .i32⟩
  | .hbm, ⟨7, _⟩ => ⟨S4096, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S1x128x128, .f32⟩
  | .hbm, ⟨87, _⟩ => ⟨S128x128, .f32⟩
  | .hbm, ⟨88, _⟩ => ⟨S128x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S50000x128, .f32⟩
  | .hbm, ⟨99, _⟩ => ⟨S_, .i32⟩
  | .hbm, ⟨100, _⟩ => ⟨S4096, .i32⟩
  | .hbm, ⟨101, _⟩ => ⟨S4096, .i1⟩
  | .hbm, ⟨102, _⟩ => ⟨S_, .i32⟩
  | .hbm, ⟨103, _⟩ => ⟨S4096, .i32⟩
  | .hbm, ⟨104, _⟩ => ⟨S4096, .i32⟩
  | .hbm, ⟨105, _⟩ => ⟨S4096, .i32⟩
  | .hbm, ⟨106, _⟩ => ⟨S4096x1, .i32⟩
  | .hbm, ⟨107, _⟩ => ⟨S4096x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_11 : Ref sig .tc := ⟨.hbm, 99, rfl⟩
abbrev main_v78 : Ref sig .tc := ⟨.hbm, 100, rfl⟩
abbrev main_v79 : Ref sig .tc := ⟨.hbm, 101, rfl⟩
abbrev main_c_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S4096 : S_.BroadcastsInDim S4096 (![] : Fin 0 → Fin S4096.rank)
  bcast_S4096_S4096x1_0 : S4096.BroadcastsInDim S4096x1 (![0] : Fin 1 → Fin S4096x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  gather_S50000x128_S4096x1_S4096x128_1_0_n_n_0_1_1128_wf : GatherDims.WF S50000x128 S4096x1 S4096x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S4096 : Shape := ⟨1, ![4096]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4096x1 : Shape := ⟨2, ![4096, 1]⟩
abbrev S4096x128 : Shape := ⟨2, ![4096, 128]⟩

abbrev nBuf : Space → Nat
  | .hbm => 291
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128, .f32⟩
  | 4 => ⟨S3x128, .f32⟩
  | 5 => ⟨S800000, .i32⟩
  | 6 => ⟨S800000, .i32⟩
  | 7 => ⟨S4096, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S_, .f32⟩
  | 18 => ⟨S50000, .f32⟩
  | 19 => ⟨S50000, .f32⟩
  | 20 => ⟨S50000x1, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S_, .i32⟩
  | 56 => ⟨S_, .f32⟩
  | 57 => ⟨S50000, .f32⟩
  | 58 => ⟨S50000x1, .f32⟩
  | 59 => ⟨S_, .f32⟩
  | 60 => ⟨S50000x1, .f32⟩
  | 61 => ⟨S50000x1, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S50000, .f32⟩
  | 70 => ⟨S50000x1, .f32⟩
  | 71 => ⟨S50000x1, .f32⟩
  | 72 => ⟨S50000x1, .f32⟩
  | 73 => ⟨S_, .f32⟩
  | 74 => ⟨S_, .i1⟩
  | 75 => ⟨S_, .f32⟩
  | 76 => ⟨S_, .f32⟩
  | 77 => ⟨S50000x1, .f32⟩
  | 78 => ⟨S50000x1, .f32⟩
  | 79 => ⟨S50000x128, .f32⟩
  | 80 => ⟨S50000x128, .f32⟩
  | 81 => ⟨S_, .f32⟩
  | 82 => ⟨S50000x1, .f32⟩
  | 83 => ⟨S50000x1, .f32⟩
  | 84 => ⟨S50000x1, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .i1⟩
  | 96 => ⟨S_, .f32⟩
  | 97 => ⟨S50000x128, .f32⟩
  | 98 => ⟨S50000x128, .i1⟩
  | 99 => ⟨S_, .f32⟩
  | 100 => ⟨S_, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S128, .f32⟩
  | 8 => ⟨S_, .f32⟩
  | 9 => ⟨S50000, .f32⟩
  | 10 => ⟨S50000x1, .f32⟩
  | 11 => ⟨S_, .f32⟩
  | 12 => ⟨S50000x1, .f32⟩
  | 13 => ⟨S50000x1, .f32⟩
  | 14 => ⟨S_, .i32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S50000, .f32⟩
  | 29 => ⟨S50000x1, .f32⟩
  | 30 => ⟨S50000x1, .f32⟩
  | 31 => ⟨S50000x1, .f32⟩
  | 32 => ⟨S_, .f32⟩
  | 33 => ⟨S_, .i1⟩
  | 34 => ⟨S_, .f32⟩
  | 35 => ⟨S_, .f32⟩
  | 36 => ⟨S50000x1, .f32⟩
  | 37 => ⟨S50000x1, .f32⟩
  | 38 => ⟨S50000x128, .f32⟩
  | 39 => ⟨S50000x128, .f32⟩
  | 40 => ⟨S_, .f32⟩
  | 41 => ⟨S50000x1, .f32⟩
  | 42 => ⟨S50000x1, .f32⟩
  | 43 => ⟨S50000x1, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .i1⟩
  | 55 => ⟨S_, .f32⟩
  | 56 => ⟨S50000x128, .f32⟩
  | 57 => ⟨S50000x128, .i1⟩
  | 58 => ⟨S_, .f32⟩
  | 59 => ⟨S_, .f32⟩
  | 60 => ⟨S50000x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x128, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S128, .f32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S_, .i32⟩
  | 102 => ⟨S_, .f32⟩
  | 103 => ⟨S50000, .f32⟩
  | 104 => ⟨S50000x1, .f32⟩
  | 105 => ⟨S_, .f32⟩
  | 106 => ⟨S50000x1, .f32⟩
  | 107 => ⟨S50000x1, .f32⟩
  | 108 => ⟨S50000x128, .f32⟩
  | 109 => ⟨S50000x128, .f32⟩
  | 110 => ⟨S50000x128, .f32⟩
  | 111 => ⟨S_, .f32⟩
  | 112 => ⟨S_, .f32⟩
  | 113 => ⟨S_, .f32⟩
  | 114 => ⟨S_, .f32⟩
  | 115 => ⟨S50000, .f32⟩
  | 116 => ⟨S50000x1, .f32⟩
  | 117 => ⟨S50000x1, .f32⟩
  | 118 => ⟨S50000x1, .f32⟩
  | 119 => ⟨S_, .f32⟩
  | 120 => ⟨S_, .i1⟩
  | 121 => ⟨S_, .f32⟩
  | 122 => ⟨S_, .f32⟩
  | 123 => ⟨S50000x1, .f32⟩
  | 124 => ⟨S50000x1, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S50000x1, .f32⟩
  | 1 => ⟨S50000x1, .f32⟩
  | 2 => ⟨S50000x1, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .i1⟩
  | 14 => ⟨S_, .f32⟩
  | 15 => ⟨S50000x128, .f32⟩
  | 16 => ⟨S50000x128, .i1⟩
  | 17 => ⟨S_, .f32⟩
  | 18 => ⟨S_, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S4096x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_cst_3 : Ref sig .tc := ⟨.hbm, 73, rfl⟩
abbrev main_call0_v13 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_8 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_cst_1 : Ref sig .tc := ⟨.hbm, 99, rfl⟩
abbrev main_call1_call0_v0 : Ref sig .tc := ⟨.hbm, 100, rfl⟩
abbrev main_call1_call0_v1 : Ref sig .tc := ⟨.hbm, 101, rfl⟩
abbrev main_call1_v4 : Ref sig .tc := ⟨.hbm, 102, rfl⟩
abbrev main_call1_v5 : Ref sig .tc := ⟨.hbm, 103, rfl⟩
abbrev main_call1_cst_2 : Ref sig .tc := ⟨.hbm, 104, rfl⟩
abbrev main_call1_v6 : Ref sig .tc := ⟨.hbm, 105, rfl⟩
abbrev main_call1_v7 : Ref sig .tc := ⟨.hbm, 106, rfl⟩
abbrev main_v52 : Ref sig .tc := ⟨.hbm, 107, rfl⟩
abbrev main_c_9 : Ref sig .tc := ⟨.hbm, 108, rfl⟩
abbrev main_v53 : Ref sig .tc := ⟨.hbm, 109, rfl⟩
abbrev main_v54 : Ref sig .tc := ⟨.hbm, 110, rfl⟩
abbrev main_c_10 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_11 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_12 : Ref sig .tc := ⟨.hbm, 136, rfl⟩
abbrev main_v78 : Ref sig .tc := ⟨.hbm, 137, rfl⟩
abbrev main_v79 : Ref sig .tc := ⟨.hbm, 138, rfl⟩
abbrev main_cst_13 : Ref sig .tc := ⟨.hbm, 139, rfl⟩
abbrev main_v80 : Ref sig .tc := ⟨.hbm, 140, rfl⟩
abbrev main_v81 : Ref sig .tc := ⟨.hbm, 141, rfl⟩
abbrev main_c_14 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_cst_1 : Ref sig .tc := ⟨.hbm, 153, rfl⟩
abbrev main_call2_v8 : Ref sig .tc := ⟨.hbm, 154, rfl⟩
abbrev main_call2_cst_2 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_v12 : Ref sig .tc := ⟨.hbm, 159, rfl⟩
abbrev main_call2_cst_3 : Ref sig .tc := ⟨.hbm, 160, rfl⟩
abbrev main_call2_v13 : Ref sig .tc := ⟨.hbm, 161, rfl⟩
abbrev main_call2_cst_4 : Ref sig .tc := ⟨.hbm, 162, rfl⟩
abbrev main_call2_call0_v0 : Ref sig .tc := ⟨.hbm, 163, rfl⟩
abbrev main_call2_call0_v1 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_cst_15 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_call3_cst : Ref sig .tc := ⟨.hbm, 180, rfl⟩
abbrev main_call3_v0 : Ref sig .tc := ⟨.hbm, 181, rfl⟩
abbrev main_call3_v1 : Ref sig .tc := ⟨.hbm, 182, rfl⟩
abbrev main_call3_cst_0 : Ref sig .tc := ⟨.hbm, 183, rfl⟩
abbrev main_call3_v2 : Ref sig .tc := ⟨.hbm, 184, rfl⟩
abbrev main_call3_v3 : Ref sig .tc := ⟨.hbm, 185, rfl⟩
abbrev main_call3_cst_1 : Ref sig .tc := ⟨.hbm, 186, rfl⟩
abbrev main_call3_call0_v0 : Ref sig .tc := ⟨.hbm, 187, rfl⟩
abbrev main_call3_call0_v1 : Ref sig .tc := ⟨.hbm, 188, rfl⟩
abbrev main_call3_v4 : Ref sig .tc := ⟨.hbm, 189, rfl⟩
abbrev main_call3_v5 : Ref sig .tc := ⟨.hbm, 190, rfl⟩
abbrev main_call3_cst_2 : Ref sig .tc := ⟨.hbm, 191, rfl⟩
abbrev main_call3_v6 : Ref sig .tc := ⟨.hbm, 192, rfl⟩
abbrev main_call3_v7 : Ref sig .tc := ⟨.hbm, 193, rfl⟩
abbrev main_v96 : Ref sig .tc := ⟨.hbm, 194, rfl⟩
abbrev main_c_16 : Ref sig .tc := ⟨.hbm, 195, rfl⟩
abbrev main_v97 : Ref sig .tc := ⟨.hbm, 196, rfl⟩
abbrev main_v98 : Ref sig .tc := ⟨.hbm, 197, rfl⟩
abbrev main_c_17 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_cst_18 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_cst_19 : Ref sig .tc := ⟨.hbm, 223, rfl⟩
abbrev main_v122 : Ref sig .tc := ⟨.hbm, 224, rfl⟩
abbrev main_v123 : Ref sig .tc := ⟨.hbm, 225, rfl⟩
abbrev main_cst_20 : Ref sig .tc := ⟨.hbm, 226, rfl⟩
abbrev main_v124 : Ref sig .tc := ⟨.hbm, 227, rfl⟩
abbrev main_v125 : Ref sig .tc := ⟨.hbm, 228, rfl⟩
abbrev main_c_21 : Ref sig .tc := ⟨.hbm, 229, rfl⟩
abbrev main_call4_cst : Ref sig .tc := ⟨.hbm, 230, rfl⟩
abbrev main_call4_v0 : Ref sig .tc := ⟨.hbm, 231, rfl⟩
abbrev main_call4_v1 : Ref sig .tc := ⟨.hbm, 232, rfl⟩
abbrev main_call4_cst_0 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_v5 : Ref sig .tc := ⟨.hbm, 237, rfl⟩
abbrev main_call4_v6 : Ref sig .tc := ⟨.hbm, 238, rfl⟩
abbrev main_call4_v7 : Ref sig .tc := ⟨.hbm, 239, rfl⟩
abbrev main_call4_cst_1 : Ref sig .tc := ⟨.hbm, 240, rfl⟩
abbrev main_call4_v8 : Ref sig .tc := ⟨.hbm, 241, rfl⟩
abbrev main_call4_cst_2 : Ref sig .tc := ⟨.hbm, 242, rfl⟩
abbrev main_call4_v9 : Ref sig .tc := ⟨.hbm, 243, rfl⟩
abbrev main_call4_v10 : Ref sig .tc := ⟨.hbm, 244, rfl⟩
abbrev main_call4_v11 : Ref sig .tc := ⟨.hbm, 245, rfl⟩
abbrev main_call4_v12 : Ref sig .tc := ⟨.hbm, 246, rfl⟩
abbrev main_call4_cst_3 : Ref sig .tc := ⟨.hbm, 247, rfl⟩
abbrev main_call4_v13 : Ref sig .tc := ⟨.hbm, 248, rfl⟩
abbrev main_call4_cst_4 : Ref sig .tc := ⟨.hbm, 249, rfl⟩
abbrev main_call4_call0_v0 : Ref sig .tc := ⟨.hbm, 250, rfl⟩
abbrev main_call4_call0_v1 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_cst_22 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_call5_cst : Ref sig .tc := ⟨.hbm, 267, rfl⟩
abbrev main_call5_v0 : Ref sig .tc := ⟨.hbm, 268, rfl⟩
abbrev main_call5_v1 : Ref sig .tc := ⟨.hbm, 269, rfl⟩
abbrev main_call5_cst_0 : Ref sig .tc := ⟨.hbm, 270, rfl⟩
abbrev main_call5_v2 : Ref sig .tc := ⟨.hbm, 271, rfl⟩
abbrev main_call5_v3 : Ref sig .tc := ⟨.hbm, 272, rfl⟩
abbrev main_call5_cst_1 : Ref sig .tc := ⟨.hbm, 273, rfl⟩
abbrev main_call5_call0_v0 : Ref sig .tc := ⟨.hbm, 274, rfl⟩
abbrev main_call5_call0_v1 : Ref sig .tc := ⟨.hbm, 275, rfl⟩
abbrev main_call5_v4 : Ref sig .tc := ⟨.hbm, 276, rfl⟩
abbrev main_call5_v5 : Ref sig .tc := ⟨.hbm, 277, rfl⟩
abbrev main_call5_cst_2 : Ref sig .tc := ⟨.hbm, 278, rfl⟩
abbrev main_call5_v6 : Ref sig .tc := ⟨.hbm, 279, rfl⟩
abbrev main_call5_v7 : Ref sig .tc := ⟨.hbm, 280, rfl⟩
abbrev main_v140 : Ref sig .tc := ⟨.hbm, 281, rfl⟩
abbrev main_c_23 : Ref sig .tc := ⟨.hbm, 282, rfl⟩
abbrev main_v141 : Ref sig .tc := ⟨.hbm, 283, rfl⟩
abbrev main_v142 : Ref sig .tc := ⟨.hbm, 284, rfl⟩
abbrev main_c_24 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S4096 : S_.BroadcastsInDim S4096 (![] : Fin 0 → Fin S4096.rank)
  bcast_S4096_S4096x1_0 : S4096.BroadcastsInDim S4096x1 (![0] : Fin 1 → Fin S4096x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []
  gather_S50000x128_S4096x1_S4096x128_1_0_n_n_0_1_1128_wf : GatherDims.WF S50000x128 S4096x1 S4096x128 [1] [0] [] [0] [] 1 ![1, 128]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf

class Facts : Prop extends Facts₀ where

variable [Facts]
-- ==== Proof.KerRun.lean ====
/-
  The idealized kernel's run WITH its result: every weakly fair execution of @main terminates, nothing faulting, the
  argument arrays end as launched, and the result buffer ends at the contents of the last segment boundary — the fold of
  @main's host stretches and its three regions' write-backs from the launch memory. The launch is the one the frame
  uses, over the same segments; the final state is read at the result buffer as well as at the arguments.
-/
import proofs.«133827_j60696477827758_1_alg».proof.Proof.Gen.KernelIdeal.Frame

set_option maxRecDepth 16384

noncomputable section

namespace Cert.KernelIdeal.ValuedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v84) = W7 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v84 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.ValuedRun

end
-- ==== Proof.RowSpec.lean ====
/-
  One graph-convolution layer, row by row, over the extended reals.

  For a node `p` the layer first averages the node's own features with the sum of its in-neighbours' features,
  `h d = (neigh (p, d) + feats (p, d)) · inv p` with `inv p = 1 / (deg p + 1)`; applies the linear map
  `lin e = Σ_d h d · W (e, d) + b e`; normalises the row: `mean = (Σ_e lin e) / 128`, `dev e = lin e − mean`,
  `var = (Σ_e dev e · dev e) / 128`, `normed e = dev e · rsqrt (var + ε) · γ e + β e`; and ends with the exponential
  linear unit `elu x = x` if `x > 0`, else `exp x − 1`. Everything is the exact operation on the extended reals; the
  constants are kept as the float words both programs spell.
-/
import Idealize.ShloMosaic.Lib.ValueIdx
import Idealize.ShloMosaic.PureOps.Ideal

noncomputable section

open scoped BigOperators

namespace Cert.Sage

open Idealize.ShloMosaic Idealize.ShloMosaic.ValueIdx

/-- The row width `128.0`, the layer-norm epsilon, `+0.0` and `1.0`, as the words the programs spell. -/
abbrev w128 : EReal := Ideal.ofBits .f32 0x43000000#32
abbrev weps : EReal := Ideal.ofBits .f32 0x3727C5AC#32
abbrev w0 : EReal := Ideal.ofBits .f32 0x00000000#32
abbrev w1 : EReal := Ideal.ofBits .f32 0x3F800000#32

section Row

variable (h : Fin 128 → EReal) (W : Fin 128 → Fin 128 → EReal) (b γ β : Fin 128 → EReal)

/-- The linear map of the averaged row: output feature `e` contracts the row with row `e` of the weight. -/
def lin (e : Fin 128) : EReal := (∑ d : Fin 128, h d * W e d) + b e

/-- The mean of the row after the linear map. -/
def mean : EReal := Ideal.div (∑ e : Fin 128, lin h W b e) w128

/-- The deviation from the mean. -/
def dev (e : Fin 128) : EReal := lin h W b e - mean h W b

/-- The (biased) variance of the row. -/
def var : EReal := Ideal.div (∑ e : Fin 128, dev h W b e * dev h W b e) w128

/-- The normalised row, scaled and shifted. -/
def normed (e : Fin 128) : EReal := dev h W b e * Ideal.rsqrt (var h W b + weps) * γ e + β e

end Row

/-- The exponential linear unit. -/
def elu (x : EReal) : EReal := Scalar.select (Ideal.cmp .ogt x w0) x (Ideal.exp x - w1)

/-- The layer's output row from the averaged row. -/
def rowOut (h : Fin 128 → EReal) (W : Fin 128 → Fin 128 → EReal) (b γ β : Fin 128 → EReal) (e : Fin 128) : EReal :=
  elu (normed h W b γ β e)

/-- The averaged row of node `p`. -/
def avgRow (neigh feats : (⟨2, ![50000, 128]⟩ : Shape).Idx → EReal) (inv : Fin 50000 → EReal) (p : Fin 50000)
    (d : Fin 128) : EReal :=
  (neigh (ix2 p d) + feats (ix2 p d)) * inv p

/-- One layer on the whole node-feature matrix. -/
def layer (neigh feats : (⟨2, ![50000, 128]⟩ : Shape).Idx → EReal) (inv : Fin 50000 → EReal)
    (W : Fin 128 → Fin 128 → EReal) (b γ β : Fin 128 → EReal) : (⟨2, ![50000, 128]⟩ : Shape).Idx → EReal :=
  fun j => rowOut (avgRow neigh feats inv (j 0)) W b γ β (j 1)

theorem layer_ix2 (neigh feats : (⟨2, ![50000, 128]⟩ : Shape).Idx → EReal) (inv : Fin 50000 → EReal)
    (W : Fin 128 → Fin 128 → EReal) (b γ β : Fin 128 → EReal) (p : Fin 50000) (q : Fin 128) :
    layer neigh feats inv W b γ β (ix2 p q) = rowOut (avgRow neigh feats inv p) W b γ β q := rfl

end Cert.Sage

end
-- ==== Proof.Consts.lean ====
/-
  The float words both programs spell, as the extended reals they denote: `+0.0` is `0`, `1.0` is `1`,
  `128.0` is the real `128`. One module states them, so that the others unfold neither the word reading nor the
  IEEE decoding. The layer-norm epsilon's word is the same on both sides and is never evaluated.
-/
import Idealize.ShloMosaic.PureOps.Ideal

noncomputable section

namespace Cert.Sage.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `128.0`, the width of a feature row, denotes the real `128`. -/
theorem ofBits_128 : Ideal.ofBits .f32 0x43000000#32 = ((128 : ℝ) : EReal) := by
  simp [Ideal.ofBits, Ideal.ieee, -EReal.coe_mul]; norm_num

/-- The integer `0` converted to a float is `0`. -/
theorem sitofp_zero : ((((0#32 : BitVec 32).toInt : ℤ) : ℝ) : EReal) = 0 := by
  simp

/-- The row width less zero degrees of freedom is still the row width, and it is positive: the guard of the
    variance's quotient is open. -/
theorem width_sub_zero : Ideal.ofBits .f32 0x43000000#32 - ((((0#32 : BitVec 32).toInt : ℤ) : ℝ) : EReal)
    = Ideal.ofBits .f32 0x43000000#32 := by
  rw [sitofp_zero, sub_zero]

theorem zero_lt_width : Ideal.ofBits .f32 0x00000000#32 < Ideal.ofBits .f32 0x43000000#32 := by
  rw [ofBits_zero, ofBits_128]
  exact_mod_cast (by norm_num : (0 : ℝ) < 128)

end Cert.Sage.Consts

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.KerRow.lean ====
/-
  What the kernel's body leaves in its output block, read at a node `p` and an output feature `q`.

  The body loads its blocks whole, averages the node's own features with the summed neighbour features
  (`h = (x0 + x1) · x2`, the inverse-degree column broadcast along the row), contracts the averaged row with the
  weight (`h · W`, the last axis of `h` against the first axis of `W`) and adds the bias row; takes the row mean
  (row sum kept as a column, over the row width), the deviations, the variance (row sum of the squared deviations over
  the row width), multiplies the deviations by the reciprocal square root of the variance plus epsilon, by the scale
  row, adds the shift row, and ends with the exponential linear unit. Each non-pointwise step is read at an index given
  by coordinates in a lemma of its own over variables; the pointwise steps read at an index by unfolding.
-/
import proofs.«133827_j60696477827758_1_alg».proof.Proof.Gen.KernelIdeal.Frame
import proofs.«133827_j60696477827758_1_alg».proof.Proof.RowSpec
import proofs.«133827_j60696477827758_1_alg».proof.Proof.Consts
import proofs.«133827_j60696477827758_1_alg».proof.Proof.LibMatmulNN
import proofs.«133827_j60696477827758_1_alg».proof.Proof.LibKeepdims
import Idealize.ShloMosaic.Lib.Pipeline.Value
import Idealize.ShloMosaic.Lib.ValueLayout

noncomputable section

open scoped BigOperators

namespace Cert.KernelIdeal.RowRead

open Cert.KernelIdeal Cert.KernelIdeal.Gen Idealize.ShloMosaic Idealize.ShloMosaic.ValueIdx

/-! ## The non-pointwise steps, each over variables -/

/-- The averaged rows: own plus neighbour features, times the inverse-degree column broadcast along the row. -/
def avgMat (a b : FVec Ideal S2000x128 .f32) (c : FVec Ideal S2000x1 .f32) : FVec Ideal S2000x128 .f32 :=
  mulf (addf a b) (broadcastTo S2000x128 c broadcasts_S2000x1_S2000x128)

theorem avgMat_apply (a b : FVec Ideal S2000x128 .f32) (c : FVec Ideal S2000x1 .f32) (p : Fin 2000) (d : Fin 128) :
    avgMat a b c (ix2 p d) = (a (ix2 p d) + b (ix2 p d)) * c (ix2 p (0 : Fin 1)) := by
  show (a (ix2 p d) + b (ix2 p d)) * broadcastTo S2000x128 c broadcasts_S2000x1_S2000x128 (ix2 p d) = _
  rw [broadcastTo_a1_ab_apply]

/-- The linear map: the averaged rows times the weight, into a zero accumulator, plus the bias row. Rounding the
    operands to the narrower format is the identity on the extended reals. -/
def linMat (h : FVec Ideal S2000x128 .f32) (w : FVec Ideal S128x128 .f32) (b : FVec Ideal S1x128 .f32) :
    FVec Ideal S2000x128 .f32 :=
  addf (matmul dot_S2000x128_S128x128_S2000x128_1_0_0_1_n_n none (truncf .bf16 h bitsLt_bf16_f32)
      (truncf .bf16 w bitsLt_bf16_f32) (constant S2000x128 .f32 0x00000000#32))
    (broadcastTo S2000x128 b broadcasts_S1x128_S2000x128)

theorem linMat_apply (h : FVec Ideal S2000x128 .f32) (w : FVec Ideal S128x128 .f32) (b : FVec Ideal S1x128 .f32)
    (p : Fin 2000) (e : Fin 128) :
    linMat h w b (ix2 p e)
      = Cert.Sage.lin (fun d => h (ix2 p d)) (fun e d => w (ix2 d e)) (fun e => b (ix2 (0 : Fin 1) e)) e := by
  show matmul dot_S2000x128_S128x128_S2000x128_1_0_0_1_n_n none (truncf .bf16 h bitsLt_bf16_f32)
      (truncf .bf16 w bitsLt_bf16_f32) (constant S2000x128 .f32 0x00000000#32) (ix2 p e)
    + broadcastTo S2000x128 b broadcasts_S1x128_S2000x128 (ix2 p e) = _
  rw [Cert.LibMatmulNN.matmul_nn_apply _ rfl rfl rfl rfl rfl rfl, broadcastTo_1b_ab_apply]
  rfl

/-- A row sum kept as a column, over the row width, broadcast back along the row. -/
def meanMat (L : FVec Ideal S2000x128 .f32) : FVec Ideal S2000x1 .f32 :=
  divf (shapeCast S2000x1 (multiReduction .add [1] S2000 L 0x00000000#32 reduces_S2000x128_S2000 (.inl rfl) rfl)
      shapeCasts_S2000_S2000x1) (broadcast S2000x1 (Scalar.ofBits .f32 0x43000000#32))

theorem meanMat_apply (L : FVec Ideal S2000x128 .f32) (p : Fin 2000) :
    meanMat L (ix2 p (0 : Fin 1)) = Ideal.div (∑ k : Fin 128, L (ix2 p k)) Cert.Sage.w128 := by
  refine congrArg (fun x => Ideal.div x Cert.Sage.w128) ?_
  exact (shapeCast_a_a1_apply _ _ p 0).trans (multiReduction_add_rows_apply L _ _ _ _ p)

/-- The reciprocal square root of a row sum over the row width plus epsilon, kept as a column. -/
def rstdMat (Q : FVec Ideal S2000x128 .f32) : FVec Ideal S2000x1 .f32 :=
  rsqrt (addf (meanMat Q) (broadcast S2000x1 (Scalar.ofBits .f32 0x3727C5AC#32)))

theorem rstdMat_apply (Q : FVec Ideal S2000x128 .f32) (p : Fin 2000) :
    rstdMat Q (ix2 p (0 : Fin 1))
      = Ideal.rsqrt (Ideal.div (∑ k : Fin 128, Q (ix2 p k)) Cert.Sage.w128 + Cert.Sage.weps) := by
  show Ideal.rsqrt (meanMat Q (ix2 p (0 : Fin 1)) + Cert.Sage.weps) = _
  rw [meanMat_apply]

/-- The normalised rows before the shift: deviations from the row mean, times the reciprocal standard deviation,
    times the scale row. -/
def normMat (L : FVec Ideal S2000x128 .f32) (g : FVec Ideal S1x128 .f32) : FVec Ideal S2000x128 .f32 :=
  let D : FVec Ideal S2000x128 .f32 := subf L (broadcastTo S2000x128 (meanMat L) broadcasts_S2000x1_S2000x128)
  mulf (mulf D (broadcastTo S2000x128 (rstdMat (mulf D D)) broadcasts_S2000x1_S2000x128))
    (broadcastTo S2000x128 g broadcasts_S1x128_S2000x128)

/-- The deviation of an entry from its row's mean. -/
theorem devMat_apply (L : FVec Ideal S2000x128 .f32) (p : Fin 2000) (k : Fin 128) :
    subf L (broadcastTo S2000x128 (meanMat L) broadcasts_S2000x1_S2000x128) (ix2 p k)
      = L (ix2 p k) - Ideal.div (∑ k : Fin 128, L (ix2 p k)) Cert.Sage.w128 := by
  show L (ix2 p k) - broadcastTo S2000x128 (meanMat L) broadcasts_S2000x1_S2000x128 (ix2 p k) = _
  rw [broadcastTo_a1_ab_apply, meanMat_apply]

theorem normMat_apply (L : FVec Ideal S2000x128 .f32) (g : FVec Ideal S1x128 .f32) (p : Fin 2000) (q : Fin 128) :
    normMat L g (ix2 p q)
      = (L (ix2 p q) - Ideal.div (∑ k : Fin 128, L (ix2 p k)) Cert.Sage.w128)
          * Ideal.rsqrt (Ideal.div (∑ k : Fin 128,
              (L (ix2 p k) - Ideal.div (∑ k : Fin 128, L (ix2 p k)) Cert.Sage.w128)
                * (L (ix2 p k) - Ideal.div (∑ k : Fin 128, L (ix2 p k)) Cert.Sage.w128)) Cert.Sage.w128 + Cert.Sage.weps)
          * g (ix2 (0 : Fin 1) q) := by
  show subf L (broadcastTo S2000x128 (meanMat L) broadcasts_S2000x1_S2000x128) (ix2 p q)
      * broadcastTo S2000x128 (rstdMat (mulf (subf L (broadcastTo S2000x128 (meanMat L) broadcasts_S2000x1_S2000x128))
          (subf L (broadcastTo S2000x128 (meanMat L) broadcasts_S2000x1_S2000x128)))) broadcasts_S2000x1_S2000x128 (ix2 p q)
      * broadcastTo S2000x128 g broadcasts_S1x128_S2000x128 (ix2 p q) = _
  rw [devMat_apply, broadcastTo_a1_ab_apply, broadcastTo_1b_ab_apply, rstdMat_apply]
  refine congrArg (fun s : Ideal .f32 => (L (ix2 p q) - Ideal.div (∑ k : Fin 128, L (ix2 p k)) Cert.Sage.w128)
      * Ideal.rsqrt (Ideal.div s Cert.Sage.w128 + Cert.Sage.weps) * g (ix2 (0 : Fin 1) q)) ?_
  refine Finset.sum_congr rfl fun k _ => ?_
  show subf L (broadcastTo S2000x128 (meanMat L) broadcasts_S2000x1_S2000x128) (ix2 p k)
      * subf L (broadcastTo S2000x128 (meanMat L) broadcasts_S2000x1_S2000x128) (ix2 p k) = _
  rw [devMat_apply]

/-! ## The body's payloads -/

/-- The body's arithmetic up to the scale row is the composition of the steps above; its casts of a shape to itself
    are the identity. -/
theorem pay2_eq (v0 v2 : Vec Ideal S2000x128 .f32) (v3 : Vec Ideal S2000x1 .f32) (v9 : Vec Ideal S128x128 .f32)
    (v13 v33 : Vec Ideal S1x128 .f32) :
    k0_pay2 (F := Ideal) v0 v2 v3 v9 v13 v33 = normMat (linMat (avgMat v0 v2 v3) v9 v13) v33 := by
  have e : k0_pay2 (F := Ideal) v0 v2 v3 v9 v13 v33
      = normMat (linMat (avgMat (shapeCast S2000x128 v0 shapeCasts_S2000x128_S2000x128) v2
            (shapeCast S2000x1 v3 shapeCasts_S2000x1_S2000x1)) (shapeCast S128x128 v9 shapeCasts_S128x128_S128x128)
          (shapeCast S1x128 v13 shapeCasts_S1x128_S1x128)) (shapeCast S1x128 v33 shapeCasts_S1x128_S1x128) := rfl
  rw [e, shapeCast_self, shapeCast_self, shapeCast_self, shapeCast_self, shapeCast_self]

/-- The shift row and the exponential linear unit. -/
theorem pay1_apply (v36 : FVec Ideal S2000x128 .f32) (v38 : FVec Ideal S1x128 .f32) (p : Fin 2000) (q : Fin 128) :
    k0_pay1 (F := Ideal) v36 v38 (ix2 p q) = Cert.Sage.elu (v36 (ix2 p q) + v38 (ix2 (0 : Fin 1) q)) := by
  have e : broadcastTo S2000x128 v38 broadcasts_S1x128_S2000x128 (ix2 p q) = v38 (ix2 (0 : Fin 1) q) :=
    broadcastTo_1b_ab_apply _ _ p q
  show Cert.Sage.elu (v36 (ix2 p q) + broadcastTo S2000x128 v38 broadcasts_S1x128_S2000x128 (ix2 p q)) = _
  rw [e]

theorem hz : (![0, 0] : Fin 2 → Nat) = fun _ => 0 := funext fun a => by fin_cases a <;> rfl

/-- The composition read at `(p, q)`: the layer's output row of the averaged row of node `p`, at feature `q`. -/
theorem core_apply (x0 x1 : Vec Ideal S2000x128 .f32) (x2 : Vec Ideal S2000x1 .f32) (x3 : Vec Ideal S128x128 .f32)
    (x4 x5 x6 : Vec Ideal S1x128 .f32) (p : Fin 2000) (q : Fin 128) :
    Cert.Sage.elu (normMat (linMat (avgMat x0 x1 x2) x3 x4) x5 (ix2 p q) + x6 (ix2 (0 : Fin 1) q))
      = Cert.Sage.rowOut (fun d => (x0 (ix2 p d) + x1 (ix2 p d)) * x2 (ix2 p (0 : Fin 1))) (fun e d => x3 (ix2 d e))
          (fun e => x4 (ix2 (0 : Fin 1) e)) (fun e => x5 (ix2 (0 : Fin 1) e)) (fun e => x6 (ix2 (0 : Fin 1) e)) q := by
  have hh : (fun d => avgMat x0 x1 x2 (ix2 p d)) = fun d => (x0 (ix2 p d) + x1 (ix2 p d)) * x2 (ix2 p (0 : Fin 1)) :=
    funext fun d => avgMat_apply x0 x1 x2 p d
  rw [normMat_apply]
  simp only [linMat_apply]
  rw [hh]
  rfl

theorem out0_7_apply (x0 x1 : Vec Ideal S2000x128 .f32) (x2 : Vec Ideal S2000x1 .f32) (x3 : Vec Ideal S128x128 .f32)
    (x4 x5 x6 : Vec Ideal S1x128 .f32) (p : Fin 2000) (q : Fin 128) :
    out0_7 (F := Ideal) x0 x1 x2 x3 x4 x5 x6 (ix2 p q)
      = Cert.Sage.rowOut (fun d => (x0 (ix2 p d) + x1 (ix2 p d)) * x2 (ix2 p (0 : Fin 1))) (fun e d => x3 (ix2 d e))
          (fun e => x4 (ix2 (0 : Fin 1) e)) (fun e => x5 (ix2 (0 : Fin 1) e)) (fun e => x6 (ix2 (0 : Fin 1) e)) q := by
  unfold out0_7
  rw [View.canon_unit_zero hz]
  simp only [View.ld_unit_zero (S := S2000x128) hz, View.ld_unit_zero (S := S2000x1) hz,
    View.ld_unit_zero (S := S128x128) hz, View.ld_unit_zero (S := S1x128) hz]
  rw [pay1_apply, pay2_eq]
  have e3 : k0_pay3 (F := Ideal) x6 = x6 := shapeCast_self x6 _
  rw [e3]
  exact core_apply x0 x1 x2 x3 x4 x5 x6 p q

/-! ## Region 1: the same body, its casts of a shape to itself placed a little differently -/

theorem pay2_eq1 (v0 v2 : Vec Ideal S2000x128 .f32) (v4 : Vec Ideal S2000x1 .f32) (v10 : Vec Ideal S128x128 .f32)
    (v14 v34 : Vec Ideal S1x128 .f32) :
    k1_pay2 (F := Ideal) v0 v2 v4 v10 v14 v34 = normMat (linMat (avgMat v0 v2 v4) v10 v14) v34 := by
  have e : k1_pay2 (F := Ideal) v0 v2 v4 v10 v14 v34
      = normMat (linMat (avgMat (shapeCast S2000x128 v0 shapeCasts_S2000x128_S2000x128)
            (shapeCast S2000x128 v2 shapeCasts_S2000x128_S2000x128)
            (shapeCast S2000x1 v4 shapeCasts_S2000x1_S2000x1)) (shapeCast S128x128 v10 shapeCasts_S128x128_S128x128)
          (shapeCast S1x128 v14 shapeCasts_S1x128_S1x128)) (shapeCast S1x128 v34 shapeCasts_S1x128_S1x128) := rfl
  rw [e, shapeCast_self, shapeCast_self, shapeCast_self, shapeCast_self, shapeCast_self, shapeCast_self]

theorem pay1_apply1 (v37 : FVec Ideal S2000x128 .f32) (v38 : Vec Ideal S1x128 .f32) (p : Fin 2000) (q : Fin 128) :
    k1_pay1 (F := Ideal) v37 v38 (ix2 p q) = Cert.Sage.elu (v37 (ix2 p q) + v38 (ix2 (0 : Fin 1) q)) := by
  have e : k1_pay1 (F := Ideal) v37 v38 = k0_pay1 (F := Ideal) v37 (shapeCast S1x128 v38 shapeCasts_S1x128_S1x128) := rfl
  rw [e, shapeCast_self, pay1_apply]

theorem out1_7_apply (x0 x1 : Vec Ideal S2000x128 .f32) (x2 : Vec Ideal S2000x1 .f32) (x3 : Vec Ideal S128x128 .f32)
    (x4 x5 x6 : Vec Ideal S1x128 .f32) (p : Fin 2000) (q : Fin 128) :
    out1_7 (F := Ideal) x0 x1 x2 x3 x4 x5 x6 (ix2 p q)
      = Cert.Sage.rowOut (fun d => (x0 (ix2 p d) + x1 (ix2 p d)) * x2 (ix2 p (0 : Fin 1))) (fun e d => x3 (ix2 d e))
          (fun e => x4 (ix2 (0 : Fin 1) e)) (fun e => x5 (ix2 (0 : Fin 1) e)) (fun e => x6 (ix2 (0 : Fin 1) e)) q := by
  unfold out1_7
  rw [View.canon_unit_zero hz]
  simp only [View.ld_unit_zero (S := S2000x128) hz, View.ld_unit_zero (S := S2000x1) hz,
    View.ld_unit_zero (S := S128x128) hz, View.ld_unit_zero (S := S1x128) hz]
  rw [pay1_apply1, pay2_eq1]
  exact core_apply x0 x1 x2 x3 x4 x5 x6 p q

/-! ## Region 2: the same body, its casts of a shape to itself placed a little differently -/

theorem pay2_eq2 (v0 v2 : Vec Ideal S2000x128 .f32) (v4 : Vec Ideal S2000x1 .f32) (v10 : Vec Ideal S128x128 .f32)
    (v14 v34 : Vec Ideal S1x128 .f32) :
    k2_pay2 (F := Ideal) v0 v2 v4 v10 v14 v34 = normMat (linMat (avgMat v0 v2 v4) v10 v14) v34 := by
  have e : k2_pay2 (F := Ideal) v0 v2 v4 v10 v14 v34
      = normMat (linMat (avgMat (shapeCast S2000x128 v0 shapeCasts_S2000x128_S2000x128)
            (shapeCast S2000x128 v2 shapeCasts_S2000x128_S2000x128)
            (shapeCast S2000x1 v4 shapeCasts_S2000x1_S2000x1)) (shapeCast S128x128 v10 shapeCasts_S128x128_S128x128)
          (shapeCast S1x128 v14 shapeCasts_S1x128_S1x128)) (shapeCast S1x128 v34 shapeCasts_S1x128_S1x128) := rfl
  rw [e, shapeCast_self, shapeCast_self, shapeCast_self, shapeCast_self, shapeCast_self, shapeCast_self]

theorem pay1_apply2 (v37 : FVec Ideal S2000x128 .f32) (v38 : Vec Ideal S1x128 .f32) (p : Fin 2000) (q : Fin 128) :
    k2_pay1 (F := Ideal) v37 v38 (ix2 p q) = Cert.Sage.elu (v37 (ix2 p q) + v38 (ix2 (0 : Fin 1) q)) := by
  have e : k2_pay1 (F := Ideal) v37 v38 = k0_pay1 (F := Ideal) v37 (shapeCast S1x128 v38 shapeCasts_S1x128_S1x128) := rfl
  rw [e, shapeCast_self, pay1_apply]

theorem out2_7_apply (x0 x1 : Vec Ideal S2000x128 .f32) (x2 : Vec Ideal S2000x1 .f32) (x3 : Vec Ideal S128x128 .f32)
    (x4 x5 x6 : Vec Ideal S1x128 .f32) (p : Fin 2000) (q : Fin 128) :
    out2_7 (F := Ideal) x0 x1 x2 x3 x4 x5 x6 (ix2 p q)
      = Cert.Sage.rowOut (fun d => (x0 (ix2 p d) + x1 (ix2 p d)) * x2 (ix2 p (0 : Fin 1))) (fun e d => x3 (ix2 d e))
          (fun e => x4 (ix2 (0 : Fin 1) e)) (fun e => x5 (ix2 (0 : Fin 1) e)) (fun e => x6 (ix2 (0 : Fin 1) e)) q := by
  unfold out2_7
  rw [View.canon_unit_zero hz]
  simp only [View.ld_unit_zero (S := S2000x128) hz, View.ld_unit_zero (S := S2000x1) hz,
    View.ld_unit_zero (S := S128x128) hz, View.ld_unit_zero (S := S1x128) hz]
  rw [pay1_apply2, pay2_eq2]
  exact core_apply x0 x1 x2 x3 x4 x5 x6 p q

end Cert.KernelIdeal.RowRead

end
-- ==== Proof.KerBlocks.lean ====
/-
  From blocks to the whole array: each layer's kernel leaves the row-by-row layer of its argument arrays.

  A layer's kernel runs over 25 grid points. At point `t` it is handed rows `2000·t … 2000·t + 1999` of the summed
  neighbour features, of the node features and of the inverse-degree column, and the whole weight, bias, scale and
  shift; it writes back rows `2000·t … 2000·t + 1999` of its result. Row `p` of the block it leaves is the layer's
  output row of the averaged row `p` of the block, so it is row `2000·t + p` of the layer applied to the whole arrays:
  what point `t` writes back is block `t` of one whole-array function. Every row `r` of the result lies in the
  block of point `r / 2000`, so after the run the result array is that function.
-/
import proofs.«133827_j60696477827758_1_alg».proof.Proof.KerRow
import proofs.«133827_j60696477827758_1_alg».proof.Proof.Gen.KernelIdeal.Frame
import Idealize.ShloMosaic.Lib.Pipeline.Value

set_option maxRecDepth 16384

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The layer's output row depends on its row, weight, bias, scale and shift entry by entry. -/
theorem rowOut_congr {h h' : Fin 128 → EReal} {W W' : Fin 128 → Fin 128 → EReal} {b b' g g' s s' : Fin 128 → EReal}
    (eh : ∀ d, h d = h' d) (eW : ∀ e d, W e d = W' e d) (eb : ∀ e, b e = b' e) (eg : ∀ e, g e = g' e)
    (es : ∀ e, s e = s' e) (q : Fin 128) :
    Cert.Sage.rowOut h W b g s q = Cert.Sage.rowOut h' W' b' g' s' q := by
  obtain rfl : h = h' := funext eh
  obtain rfl : W = W' := funext fun e => funext (eW e)
  obtain rfl : b = b' := funext eb
  obtain rfl : g = g' := funext eg
  obtain rfl : s = s' := funext es
  rfl

/-! ## Layer 0 -/

/-- The printed index maps of layer 0's windows, decided over the grid: the three row-blocked inputs and the result are
    at block row `t`, block column `0`; the weight, bias, scale and shift are whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The summed neighbour features' block at point `t` is rows `2000·t …` of the array. -/
theorem blk0_0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c (Pipeline.arrRef spec0 0) : S50000x128.Idx → EReal) k := by
  obtain ⟨e0, e1, -⟩ := idx_facts0 t
  unfold iblk0
  rw [View.read_apply]
  refine congrArg (V c (Pipeline.arrRef spec0 0) : S50000x128.Idx → EReal) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The node features' block at point `t` is rows `2000·t …` of the array. -/
theorem blk0_1_apply (c : Dev nD) (t : Fin cfg0.N) (x : S2000x128.Idx) (k : S50000x128.Idx)
    (hk0 : (k 0).val = 2000 * t.val + (x 0).val) (hk1 : (k 1).val = (x 1).val) :
    (iblk0 V c 1 t : Vec Ideal S2000x128 .f32) x = (V c (Pipeline.arrRef spec0 1) : S50000x128.Idx → EReal) k := by
  obtain ⟨-, -, e0, e1, -⟩ := idx_facts0 t
  unfold iblk0
  rw [View.read_apply]
  refine congrArg (V c (Pipeline.arrRef spec0 1) : S50000x128.Idx → EReal) (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 128 + 1 * (x 1).val = (k 1).val; rw [e1, hk1]; omega

/-- The inverse-degree column's block at point `t` is rows `2000·t …` of the column. -/
theorem blk0_2_apply (c : Dev nD) (t : Fin cfg0.N) (x : S2000x1.Idx) (k : S50000x1.Idx)
    (hk0 : (k 0).val = 2000 * t.val + (x 0).val) (hk1 : (k 1).val = (x 1).val) :
    (iblk0 V c 2 t : Vec Ideal S2000x1 .f32) x = (V c (Pipeline.arrRef spec0 2) : S50000x1.Idx → EReal) k := by
  obtain ⟨-, -, -, -, e0, e1, -⟩ := idx_facts0 t
  unfold iblk0
  rw [View.read_apply]
  refine congrArg (V c (Pipeline.arrRef spec0 2) : S50000x1.Idx → EReal) (funext fun a => Fin.ext ?_)
  match a with
  | ⟨0, _⟩ => show win0_2.index t (0 : Fin 2) * 2000 + 1 * (x 0).val = (k 0).val; rw [e0, hk0]; omega
  | ⟨1, _⟩ => show win0_2.index t (1 : Fin 2) * 1 + 1 * (x 1).val = (k 1).val; rw [e1, hk1]; omega

/-- The weight's block at every point is the whole weight. -/
theorem blk0_3_apply (c : Dev nD) (t : Fin cfg0.N) (x : S128x128.Idx) :
    (iblk0 V c 3 t : Vec Ideal S128x128 .f32) x = (V c (Pipeline.arrRef spec0 3) : S128x128.Idx → EReal) x := by
  obtain ⟨-, -, -, -, -, -, e0, e1, -⟩ := idx_facts0 t
  unfold iblk0
  rw [View.read_apply]
  refine congrArg (V c (Pipeline.arrRef spec0 3) : S128x128.Idx → EReal) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The bias row's block at every point is the whole row. -/
theorem blk0_4_apply (c : Dev nD) (t : Fin cfg0.N) (x : S1x128.Idx) :
    (iblk0 V c 4 t : Vec Ideal S1x128 .f32) x = (V c (Pipeline.arrRef spec0 4) : S1x128.Idx → EReal) x := by
  obtain ⟨-, -, -, -, -, -, -, -, e0, e1, -⟩ := idx_facts0 t
  unfold iblk0
  rw [View.read_apply]
  refine congrArg (V c (Pipeline.arrRef spec0 4) : S1x128.Idx → EReal) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- The scale row's block at every point is the whole row. -/
theorem blk0_5_apply (c : Dev nD) (t : Fin cfg0.N) (x : S1x128.Idx) :
    (iblk0 V c 5 t : Vec Ideal S1x128 .f32) x = (V c (Pipeline.arrRef spec0 5) : S1x128.Idx → EReal) x := by
  obtain ⟨-, -, -, -, -, -, -, -, -, -, e0, e1, -⟩ := idx_facts0 t
  unfold iblk0
  rw [View.read_apply]
  refine congrArg (V c (Pipeline.arrRef spec0 5) : S1x128.Idx → EReal) (funext fun a => Fin.ext ?_)
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-- The shift row's block at every point is the whole row. -/
theorem blk0_6_apply (c : Dev nD) (t : Fin cfg0.N) (x : S1x128.Idx) :
    (iblk0 V c 6 t : Vec Ideal S1x128 .f32) x = (V c (Pipeline.arrRef spec0 6) : S1x128.Idx → EReal) x := by
  obtain ⟨-, -, -, -, -, -, -, -, -, -, -, -, e0, e1, -⟩ := idx_facts0 t
  unfold iblk0
  rw [View.read_apply]
  refine congrArg (V c (Pipeline.arrRef spec0 6) : S1x128.Idx → EReal) (funext fun a => Fin.ext ?_)
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

/-- The whole-array function layer 0's kernel computes: the row-by-row layer of the arrays its windows are on. -/
abbrev G0 (c : Dev nD) : S50000x128.Idx → EReal :=
  Cert.Sage.layer (V c (Pipeline.arrRef spec0 0)) (V c (Pipeline.arrRef spec0 1))
    (fun p => V c (Pipeline.arrRef spec0 2) (ix2 p (0 : Fin 1))) (fun e d => V c (Pipeline.arrRef spec0 3) (ix2 d e))
    (fun e => V c (Pipeline.arrRef spec0 4) (ix2 (0 : Fin 1) e)) (fun e => V c (Pipeline.arrRef spec0 5) (ix2 (0 : Fin 1) e))
    (fun e => V c (Pipeline.arrRef spec0 6) (ix2 (0 : Fin 1) e))

/-- What point `t` writes back is block `t` of that function: row `p` of the block the body leaves is row
    `2000·t + p` of the layer of the whole arrays. -/
theorem flushed0_eq (c : Dev nD) (t : Fin cfg0.N) :
    (dat0 (F := Ideal) V c).flushed 7 t = ((cfg0.win 7).blk t).view.read (Elt Ideal) (G0 V c) := by
  show (cfg0.win 7).cut (grid0.coords t) ((dat0 (F := Ideal) V c).after 7 t) = _
  rw [after0_7]
  have hN : t.val < 25 := lt_of_lt_of_eq t.isLt N_0
  obtain ⟨-, -, -, -, -, -, -, -, -, -, -, -, -, -, e0, e1⟩ := idx_facts0 t
  funext j
  obtain ⟨p, q, rfl⟩ : ∃ (p : Fin 2000) (q : Fin 128), j = ix2 p q := ⟨j 0, j 1, eq_ix2 j⟩
  rw [View.read_apply]
  have hk : ((cfg0.win 7).blk t).view.emb (ix2 p q)
      = (ix2 (⟨2000 * t.val + p.val, by have := p.isLt; omega⟩ : Fin 50000) q : S50000x128.Idx) :=
    funext fun a => Fin.ext (by
      match a with
      | ⟨0, _⟩ => show win0_7.index t (0 : Fin 2) * 2000 + 1 * p.val = 2000 * t.val + p.val; rw [e0]; omega
      | ⟨1, _⟩ => show win0_7.index t (1 : Fin 2) * 128 + 1 * q.val = q.val; rw [e1]; omega)
  rw [hk]
  show out0_7 (F := Ideal) (iblk0 V c 0 t) (iblk0 V c 1 t) (iblk0 V c 2 t) (iblk0 V c 3 t) (iblk0 V c 4 t)
      (iblk0 V c 5 t) (iblk0 V c 6 t) (ix2 p q) = _
  refine (Cert.KernelIdeal.RowRead.out0_7_apply (iblk0 V c 0 t) (iblk0 V c 1 t) (iblk0 V c 2 t) (iblk0 V c 3 t)
    (iblk0 V c 4 t) (iblk0 V c 5 t) (iblk0 V c 6 t) p q).trans ?_
  unfold G0
  rw [Cert.Sage.layer_ix2]
  refine rowOut_congr (fun d => ?_) (fun e d => ?_) (fun e => ?_) (fun e => ?_) (fun e => ?_) q
  · show (_ + _) * _ = (_ + _) * _
    rw [blk0_0_apply V c t (ix2 p d) (ix2 ⟨2000 * t.val + p.val, by have := p.isLt; omega⟩ d) rfl rfl,
      blk0_1_apply V c t (ix2 p d) (ix2 ⟨2000 * t.val + p.val, by have := p.isLt; omega⟩ d) rfl rfl,
      blk0_2_apply V c t (ix2 p (0 : Fin 1)) (ix2 ⟨2000 * t.val + p.val, by have := p.isLt; omega⟩ (0 : Fin 1)) rfl rfl]
  · exact blk0_3_apply V c t (ix2 d e)
  · exact blk0_4_apply V c t (ix2 (0 : Fin 1) e)
  · exact blk0_5_apply V c t (ix2 (0 : Fin 1) e)
  · exact blk0_6_apply V c t (ix2 (0 : Fin 1) e)

/-- An index of the result array is in point `t`'s block iff each coordinate is in the block's range on its axis. -/
theorem mem_blk0 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v31).slice (win0_7.rect t)).set ↔ _
  rw [View.set_slice_whole, Rect.mem_set_unit]
  exact Iff.rfl

/-- Every index of the result array is in a block some point writes back: row `r` is in the block of point `r / 2000`. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, -, -, -, -, -, -, -, -, e0, e1⟩ := idx_facts0 t
  refine ⟨t, flush0_7 t, ?_⟩
  rw [mem_blk0]
  intro a
  match a with
  | ⟨0, _⟩ =>
    show win0_7.index t (0 : Fin 2) * 2000 ≤ (i 0).val ∧ (i 0).val < win0_7.index t (0 : Fin 2) * 2000 + 2000
    rw [e0]; omega
  | ⟨1, _⟩ =>
    show win0_7.index t (1 : Fin 2) * 128 ≤ (i 1).val ∧ (i 1).val < win0_7.index t (1 : Fin 2) * 128 + 128
    rw [e1]; omega

/-- After layer 0's kernel has run, its result array is the row-by-row layer of the arrays it was handed. -/
theorem arr0 (c : Dev nD) :
    (dat0 (F := Ideal) V c).arrAt 7 cfg0.N
      = Cert.Sage.layer (V c (Pipeline.arrRef spec0 0)) (V c (Pipeline.arrRef spec0 1))
          (fun p => V c (Pipeline.arrRef spec0 2) (ix2 p (0 : Fin 1))) (fun e d => V c (Pipeline.arrRef spec0 3) (ix2 d e))
          (fun e => V c (Pipeline.arrRef spec0 4) (ix2 (0 : Fin 1) e)) (fun e => V c (Pipeline.arrRef spec0 5) (ix2 (0 : Fin 1) e))
          (fun e => V c (Pipeline.arrRef spec0 6) (ix2 (0 : Fin 1) e)) :=
  (dat0 (F := Ideal) V c).arrAt_eq_of_cover 7 (G0 V c) (fun t _ => flushed0_eq V c t) cover0

/-! ## Layer 1 -/

/-- The printed index maps of layer 1's windows, decided over the grid: the three row-blocked inputs and the result are
    at block row `t`, block column `0`; the weight, bias, scale and shift are whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The summed neighbour features' block at point `t` is rows `2000·t …` of the array. -/
theorem blk1_0_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c (Pipeline.arrRef spec1 0) : S50000x128.Idx → EReal) k := by
  obtain ⟨e0, e1, -⟩ := idx_facts1 t
  unfold iblk1
  rw [View.read_apply]
  refine congrArg (V c (Pipeline.arrRef spec1 0) : S50000x128.Idx → EReal) (funext fun a => Fin.ext ?_)
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The node features' block at point `t` is rows `2000·t …` of the array. -/
theorem blk1_1_apply (c : Dev nD) (t : Fin cfg1.N) (x : S2000x128.Idx) (k : S50000x128.Idx)
    (hk0 : (k 0).val = 2000 * t.val + (x 0).val) (hk1 : (k 1).val = (x 1).val) :
    (iblk1 V c 1 t : Vec Ideal S2000x128 .f32) x = (V c (Pipeline.arrRef spec1 1) : S50000x128.Idx → EReal) k := by
  obtain ⟨-, -, e0, e1, -⟩ := idx_facts1 t
  unfold iblk1
  rw [View.read_apply]
  refine congrArg (V c (Pipeline.arrRef spec1 1) : S50000x128.Idx → EReal) (funext fun a => Fin.ext ?_)
  match a with
  | ⟨0, _⟩ => show win1_1.index t (0 : Fin 2) * 2000 + 1 * (x 0).val = (k 0).val; rw [e0, hk0]; omega
  | ⟨1, _⟩ => show win1_1.index t (1 : Fin 2) * 128 + 1 * (x 1).val = (k 1).val; rw [e1, hk1]; omega

/-- The inverse-degree column's block at point `t` is rows `2000·t …` of the column. -/
theorem blk1_2_apply (c : Dev nD) (t : Fin cfg1.N) (x : S2000x1.Idx) (k : S50000x1.Idx)
    (hk0 : (k 0).val = 2000 * t.val + (x 0).val) (hk1 : (k 1).val = (x 1).val) :
    (iblk1 V c 2 t : Vec Ideal S2000x1 .f32) x = (V c (Pipeline.arrRef spec1 2) : S50000x1.Idx → EReal) k := by
  obtain ⟨-, -, -, -, e0, e1, -⟩ := idx_facts1 t
  unfold iblk1
  rw [View.read_apply]
  refine congrArg (V c (Pipeline.arrRef spec1 2) : S50000x1.Idx → EReal) (funext fun a => Fin.ext ?_)
  match a with
  | ⟨0, _⟩ => show win1_2.index t (0 : Fin 2) * 2000 + 1 * (x 0).val = (k 0).val; rw [e0, hk0]; omega
  | ⟨1, _⟩ => show win1_2.index t (1 : Fin 2) * 1 + 1 * (x 1).val = (k 1).val; rw [e1, hk1]; omega

/-- The weight's block at every point is the whole weight. -/
theorem blk1_3_apply (c : Dev nD) (t : Fin cfg1.N) (x : S128x128.Idx) :
    (iblk1 V c 3 t : Vec Ideal S128x128 .f32) x = (V c (Pipeline.arrRef spec1 3) : S128x128.Idx → EReal) x := by
  obtain ⟨-, -, -, -, -, -, e0, e1, -⟩ := idx_facts1 t
  unfold iblk1
  rw [View.read_apply]
  refine congrArg (V c (Pipeline.arrRef spec1 3) : S128x128.Idx → EReal) (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The bias row's block at every point is the whole row. -/
theorem blk1_4_apply (c : Dev nD) (t : Fin cfg1.N) (x : S1x128.Idx) :
    (iblk1 V c 4 t : Vec Ideal S1x128 .f32) x = (V c (Pipeline.arrRef spec1 4) : S1x128.Idx → EReal) x := by
  obtain ⟨-, -, -, -, -, -, -, -, e0, e1, -⟩ := idx_facts1 t
  unfold iblk1
  rw [View.read_apply]
  refine congrArg (V c (Pipeline.arrRef spec1 4) : S1x128.Idx → EReal) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The scale row's block at every point is the whole row. -/
theorem blk1_5_apply (c : Dev nD) (t : Fin cfg1.N) (x : S1x128.Idx) :
    (iblk1 V c 5 t : Vec Ideal S1x128 .f32) x = (V c (Pipeline.arrRef spec1 5) : S1x128.Idx → EReal) x := by
  obtain ⟨-, -, -, -, -, -, -, -, -, -, e0, e1, -⟩ := idx_facts1 t
  unfold iblk1
  rw [View.read_apply]
  refine congrArg (V c (Pipeline.arrRef spec1 5) : S1x128.Idx → EReal) (funext fun a => Fin.ext ?_)
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- The shift row's block at every point is the whole row. -/
theorem blk1_6_apply (c : Dev nD) (t : Fin cfg1.N) (x : S1x128.Idx) :
    (iblk1 V c 6 t : Vec Ideal S1x128 .f32) x = (V c (Pipeline.arrRef spec1 6) : S1x128.Idx → EReal) x := by
  obtain ⟨-, -, -, -, -, -, -, -, -, -, -, -, e0, e1, -⟩ := idx_facts1 t
  unfold iblk1
  rw [View.read_apply]
  refine congrArg (V c (Pipeline.arrRef spec1 6) : S1x128.Idx → EReal) (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- The whole-array function layer 1's kernel computes: the row-by-row layer of the arrays its windows are on. -/
abbrev G1 (c : Dev nD) : S50000x128.Idx → EReal :=
  Cert.Sage.layer (V c (Pipeline.arrRef spec1 0)) (V c (Pipeline.arrRef spec1 1))
    (fun p => V c (Pipeline.arrRef spec1 2) (ix2 p (0 : Fin 1))) (fun e d => V c (Pipeline.arrRef spec1 3) (ix2 d e))
    (fun e => V c (Pipeline.arrRef spec1 4) (ix2 (0 : Fin 1) e)) (fun e => V c (Pipeline.arrRef spec1 5) (ix2 (0 : Fin 1) e))
    (fun e => V c (Pipeline.arrRef spec1 6) (ix2 (0 : Fin 1) e))

/-- What point `t` writes back is block `t` of that function: row `p` of the block the body leaves is row
    `2000·t + p` of the layer of the whole arrays. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  have hN : t.val < 25 := lt_of_lt_of_eq t.isLt N_1
  obtain ⟨-, -, -, -, -, -, -, -, -, -, -, -, -, -, e0, e1⟩ := idx_facts1 t
  funext j
  obtain ⟨p, q, rfl⟩ : ∃ (p : Fin 2000) (q : Fin 128), j = ix2 p q := ⟨j 0, j 1, eq_ix2 j⟩
  rw [View.read_apply]
  have hk : ((cfg1.win 7).blk t).view.emb (ix2 p q)
      = (ix2 (⟨2000 * t.val + p.val, by have := p.isLt; omega⟩ : Fin 50000) q : S50000x128.Idx) :=
    funext fun a => Fin.ext (by
      match a with
      | ⟨0, _⟩ => show win1_7.index t (0 : Fin 2) * 2000 + 1 * p.val = 2000 * t.val + p.val; rw [e0]; omega
      | ⟨1, _⟩ => show win1_7.index t (1 : Fin 2) * 128 + 1 * q.val = q.val; rw [e1]; omega)
  rw [hk]
  show out1_7 (F := Ideal) (iblk1 V c 0 t) (iblk1 V c 1 t) (iblk1 V c 2 t) (iblk1 V c 3 t) (iblk1 V c 4 t)
      (iblk1 V c 5 t) (iblk1 V c 6 t) (ix2 p q) = _
  refine (Cert.KernelIdeal.RowRead.out1_7_apply (iblk1 V c 0 t) (iblk1 V c 1 t) (iblk1 V c 2 t) (iblk1 V c 3 t)
    (iblk1 V c 4 t) (iblk1 V c 5 t) (iblk1 V c 6 t) p q).trans ?_
  unfold G1
  rw [Cert.Sage.layer_ix2]
  refine rowOut_congr (fun d => ?_) (fun e d => ?_) (fun e => ?_) (fun e => ?_) (fun e => ?_) q
  · show (_ + _) * _ = (_ + _) * _
    rw [blk1_0_apply V c t (ix2 p d) (ix2 ⟨2000 * t.val + p.val, by have := p.isLt; omega⟩ d) rfl rfl,
      blk1_1_apply V c t (ix2 p d) (ix2 ⟨2000 * t.val + p.val, by have := p.isLt; omega⟩ d) rfl rfl,
      blk1_2_apply V c t (ix2 p (0 : Fin 1)) (ix2 ⟨2000 * t.val + p.val, by have := p.isLt; omega⟩ (0 : Fin 1)) rfl rfl]
  · exact blk1_3_apply V c t (ix2 d e)
  · exact blk1_4_apply V c t (ix2 (0 : Fin 1) e)
  · exact blk1_5_apply V c t (ix2 (0 : Fin 1) e)
  · exact blk1_6_apply V c t (ix2 (0 : Fin 1) e)

/-- An index of the result array is in point `t`'s block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v54).slice (win1_7.rect t)).set ↔ _
  rw [View.set_slice_whole, Rect.mem_set_unit]
  exact Iff.rfl

/-- Every index of the result array is in a block some point writes back: row `r` is in the block of point `r / 2000`. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, -, -, -, -, e0, e1⟩ := idx_facts1 t
  refine ⟨t, flush1_7 t, ?_⟩
  rw [mem_blk1]
  intro a
  match a with
  | ⟨0, _⟩ =>
    show win1_7.index t (0 : Fin 2) * 2000 ≤ (i 0).val ∧ (i 0).val < win1_7.index t (0 : Fin 2) * 2000 + 2000
    rw [e0]; omega
  | ⟨1, _⟩ =>
    show win1_7.index t (1 : Fin 2) * 128 ≤ (i 1).val ∧ (i 1).val < win1_7.index t (1 : Fin 2) * 128 + 128
    rw [e1]; omega

/-- After layer 1's kernel has run, its result array is the row-by-row layer of the arrays it was handed. -/
theorem arr1 (c : Dev nD) :
    (dat1 (F := Ideal) V c).arrAt 7 cfg1.N
      = Cert.Sage.layer (V c (Pipeline.arrRef spec1 0)) (V c (Pipeline.arrRef spec1 1))
          (fun p => V c (Pipeline.arrRef spec1 2) (ix2 p (0 : Fin 1))) (fun e d => V c (Pipeline.arrRef spec1 3) (ix2 d e))
          (fun e => V c (Pipeline.arrRef spec1 4) (ix2 (0 : Fin 1) e)) (fun e => V c (Pipeline.arrRef spec1 5) (ix2 (0 : Fin 1) e))
          (fun e => V c (Pipeline.arrRef spec1 6) (ix2 (0 : Fin 1) e)) :=
  (dat1 (F := Ideal) V c).arrAt_eq_of_cover 7 (G1 V c) (fun t _ => flushed1_eq V c t) cover1

/-! ## Layer 2 -/

/-- The printed index maps of layer 2's windows, decided over the grid: the three row-blocked inputs and the result are
    at block row `t`, block column `0`; the weight, bias, scale and shift are whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The summed neighbour features' block at point `t` is rows `2000·t …` of the array. -/
theorem blk2_0_apply (c : Dev nD) (t : Fin cfg2.N) (x : S2000x128.Idx) (k : S50000x128.Idx)
    (hk0 : (k 0).val = 2000 * t.val + (x 0).val) (hk1 : (k 1).val = (x 1).val) :
    (iblk2 V c 0 t : Vec Ideal S2000x128 .f32) x = (V c (Pipeline.arrRef spec2 0) : S50000x128.Idx → EReal) k := by
  obtain ⟨e0, e1, -⟩ := idx_facts2 t
  unfold iblk2
  rw [View.read_apply]
  refine congrArg (V c (Pipeline.arrRef spec2 0) : S50000x128.Idx → EReal) (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- The node features' block at point `t` is rows `2000·t …` of the array. -/
theorem blk2_1_apply (c : Dev nD) (t : Fin cfg2.N) (x : S2000x128.Idx) (k : S50000x128.Idx)
    (hk0 : (k 0).val = 2000 * t.val + (x 0).val) (hk1 : (k 1).val = (x 1).val) :
    (iblk2 V c 1 t : Vec Ideal S2000x128 .f32) x = (V c (Pipeline.arrRef spec2 1) : S50000x128.Idx → EReal) k := by
  obtain ⟨-, -, e0, e1, -⟩ := idx_facts2 t
  unfold iblk2
  rw [View.read_apply]
  refine congrArg (V c (Pipeline.arrRef spec2 1) : S50000x128.Idx → EReal) (funext fun a => Fin.ext ?_)
  match a with
  | ⟨0, _⟩ => show win2_1.index t (0 : Fin 2) * 2000 + 1 * (x 0).val = (k 0).val; rw [e0, hk0]; omega
  | ⟨1, _⟩ => show win2_1.index t (1 : Fin 2) * 128 + 1 * (x 1).val = (k 1).val; rw [e1, hk1]; omega

/-- The inverse-degree column's block at point `t` is rows `2000·t …` of the column. -/
theorem blk2_2_apply (c : Dev nD) (t : Fin cfg2.N) (x : S2000x1.Idx) (k : S50000x1.Idx)
    (hk0 : (k 0).val = 2000 * t.val + (x 0).val) (hk1 : (k 1).val = (x 1).val) :
    (iblk2 V c 2 t : Vec Ideal S2000x1 .f32) x = (V c (Pipeline.arrRef spec2 2) : S50000x1.Idx → EReal) k := by
  obtain ⟨-, -, -, -, e0, e1, -⟩ := idx_facts2 t
  unfold iblk2
  rw [View.read_apply]
  refine congrArg (V c (Pipeline.arrRef spec2 2) : S50000x1.Idx → EReal) (funext fun a => Fin.ext ?_)
  match a with
  | ⟨0, _⟩ => show win2_2.index t (0 : Fin 2) * 2000 + 1 * (x 0).val = (k 0).val; rw [e0, hk0]; omega
  | ⟨1, _⟩ => show win2_2.index t (1 : Fin 2) * 1 + 1 * (x 1).val = (k 1).val; rw [e1, hk1]; omega

/-- The weight's block at every point is the whole weight. -/
theorem blk2_3_apply (c : Dev nD) (t : Fin cfg2.N) (x : S128x128.Idx) :
    (iblk2 V c 3 t : Vec Ideal S128x128 .f32) x = (V c (Pipeline.arrRef spec2 3) : S128x128.Idx → EReal) x := by
  obtain ⟨-, -, -, -, -, -, e0, e1, -⟩ := idx_facts2 t
  unfold iblk2
  rw [View.read_apply]
  refine congrArg (V c (Pipeline.arrRef spec2 3) : S128x128.Idx → EReal) (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- The bias row's block at every point is the whole row. -/
theorem blk2_4_apply (c : Dev nD) (t : Fin cfg2.N) (x : S1x128.Idx) :
    (iblk2 V c 4 t : Vec Ideal S1x128 .f32) x = (V c (Pipeline.arrRef spec2 4) : S1x128.Idx → EReal) x := by
  obtain ⟨-, -, -, -, -, -, -, -, e0, e1, -⟩ := idx_facts2 t
  unfold iblk2
  rw [View.read_apply]
  refine congrArg (V c (Pipeline.arrRef spec2 4) : S1x128.Idx → EReal) (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The scale row's block at every point is the whole row. -/
theorem blk2_5_apply (c : Dev nD) (t : Fin cfg2.N) (x : S1x128.Idx) :
    (iblk2 V c 5 t : Vec Ideal S1x128 .f32) x = (V c (Pipeline.arrRef spec2 5) : S1x128.Idx → EReal) x := by
  obtain ⟨-, -, -, -, -, -, -, -, -, -, e0, e1, -⟩ := idx_facts2 t
  unfold iblk2
  rw [View.read_apply]
  refine congrArg (V c (Pipeline.arrRef spec2 5) : S1x128.Idx → EReal) (funext fun a => Fin.ext ?_)
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- The shift row's block at every point is the whole row. -/
theorem blk2_6_apply (c : Dev nD) (t : Fin cfg2.N) (x : S1x128.Idx) :
    (iblk2 V c 6 t : Vec Ideal S1x128 .f32) x = (V c (Pipeline.arrRef spec2 6) : S1x128.Idx → EReal) x := by
  obtain ⟨-, -, -, -, -, -, -, -, -, -, -, -, e0, e1, -⟩ := idx_facts2 t
  unfold iblk2
  rw [View.read_apply]
  refine congrArg (V c (Pipeline.arrRef spec2 6) : S1x128.Idx → EReal) (funext fun a => Fin.ext ?_)
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- The whole-array function layer 2's kernel computes: the row-by-row layer of the arrays its windows are on. -/
abbrev G2 (c : Dev nD) : S50000x128.Idx → EReal :=
  Cert.Sage.layer (V c (Pipeline.arrRef spec2 0)) (V c (Pipeline.arrRef spec2 1))
    (fun p => V c (Pipeline.arrRef spec2 2) (ix2 p (0 : Fin 1))) (fun e d => V c (Pipeline.arrRef spec2 3) (ix2 d e))
    (fun e => V c (Pipeline.arrRef spec2 4) (ix2 (0 : Fin 1) e)) (fun e => V c (Pipeline.arrRef spec2 5) (ix2 (0 : Fin 1) e))
    (fun e => V c (Pipeline.arrRef spec2 6) (ix2 (0 : Fin 1) e))

/-- What point `t` writes back is block `t` of that function: row `p` of the block the body leaves is row
    `2000·t + p` of the layer of the whole arrays. -/
theorem flushed2_eq (c : Dev nD) (t : Fin cfg2.N) :
    (dat2 (F := Ideal) V c).flushed 7 t = ((cfg2.win 7).blk t).view.read (Elt Ideal) (G2 V c) := by
  show (cfg2.win 7).cut (grid2.coords t) ((dat2 (F := Ideal) V c).after 7 t) = _
  rw [after2_7]
  have hN : t.val < 25 := lt_of_lt_of_eq t.isLt N_2
  obtain ⟨-, -, -, -, -, -, -, -, -, -, -, -, -, -, e0, e1⟩ := idx_facts2 t
  funext j
  obtain ⟨p, q, rfl⟩ : ∃ (p : Fin 2000) (q : Fin 128), j = ix2 p q := ⟨j 0, j 1, eq_ix2 j⟩
  rw [View.read_apply]
  have hk : ((cfg2.win 7).blk t).view.emb (ix2 p q)
      = (ix2 (⟨2000 * t.val + p.val, by have := p.isLt; omega⟩ : Fin 50000) q : S50000x128.Idx) :=
    funext fun a => Fin.ext (by
      match a with
      | ⟨0, _⟩ => show win2_7.index t (0 : Fin 2) * 2000 + 1 * p.val = 2000 * t.val + p.val; rw [e0]; omega
      | ⟨1, _⟩ => show win2_7.index t (1 : Fin 2) * 128 + 1 * q.val = q.val; rw [e1]; omega)
  rw [hk]
  show out2_7 (F := Ideal) (iblk2 V c 0 t) (iblk2 V c 1 t) (iblk2 V c 2 t) (iblk2 V c 3 t) (iblk2 V c 4 t)
      (iblk2 V c 5 t) (iblk2 V c 6 t) (ix2 p q) = _
  refine (Cert.KernelIdeal.RowRead.out2_7_apply (iblk2 V c 0 t) (iblk2 V c 1 t) (iblk2 V c 2 t) (iblk2 V c 3 t)
    (iblk2 V c 4 t) (iblk2 V c 5 t) (iblk2 V c 6 t) p q).trans ?_
  unfold G2
  rw [Cert.Sage.layer_ix2]
  refine rowOut_congr (fun d => ?_) (fun e d => ?_) (fun e => ?_) (fun e => ?_) (fun e => ?_) q
  · show (_ + _) * _ = (_ + _) * _
    rw [blk2_0_apply V c t (ix2 p d) (ix2 ⟨2000 * t.val + p.val, by have := p.isLt; omega⟩ d) rfl rfl,
      blk2_1_apply V c t (ix2 p d) (ix2 ⟨2000 * t.val + p.val, by have := p.isLt; omega⟩ d) rfl rfl,
      blk2_2_apply V c t (ix2 p (0 : Fin 1)) (ix2 ⟨2000 * t.val + p.val, by have := p.isLt; omega⟩ (0 : Fin 1)) rfl rfl]
  · exact blk2_3_apply V c t (ix2 d e)
  · exact blk2_4_apply V c t (ix2 (0 : Fin 1) e)
  · exact blk2_5_apply V c t (ix2 (0 : Fin 1) e)
  · exact blk2_6_apply V c t (ix2 (0 : Fin 1) e)

/-- An index of the result array is in point `t`'s block iff each coordinate is in the block's range on its axis. -/
theorem mem_blk2 (t : Fin cfg2.N) (i : S50000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v77).slice (win2_7.rect t)).set ↔ _
  rw [View.set_slice_whole, Rect.mem_set_unit]
  exact Iff.rfl

/-- Every index of the result array is in a block some point writes back: row `r` is in the block of point `r / 2000`. -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, -, -, -, -, -, -, -, -, -, -, e0, e1⟩ := idx_facts2 t
  refine ⟨t, flush2_7 t, ?_⟩
  rw [mem_blk2]
  intro a
  match a with
  | ⟨0, _⟩ =>
    show win2_7.index t (0 : Fin 2) * 2000 ≤ (i 0).val ∧ (i 0).val < win2_7.index t (0 : Fin 2) * 2000 + 2000
    rw [e0]; omega
  | ⟨1, _⟩ =>
    show win2_7.index t (1 : Fin 2) * 128 ≤ (i 1).val ∧ (i 1).val < win2_7.index t (1 : Fin 2) * 128 + 128
    rw [e1]; omega

/-- After layer 2's kernel has run, its result array is the row-by-row layer of the arrays it was handed. -/
theorem arr2 (c : Dev nD) :
    (dat2 (F := Ideal) V c).arrAt 7 cfg2.N
      = Cert.Sage.layer (V c (Pipeline.arrRef spec2 0)) (V c (Pipeline.arrRef spec2 1))
          (fun p => V c (Pipeline.arrRef spec2 2) (ix2 p (0 : Fin 1))) (fun e d => V c (Pipeline.arrRef spec2 3) (ix2 d e))
          (fun e => V c (Pipeline.arrRef spec2 4) (ix2 (0 : Fin 1) e)) (fun e => V c (Pipeline.arrRef spec2 5) (ix2 (0 : Fin 1) e))
          (fun e => V c (Pipeline.arrRef spec2 6) (ix2 (0 : Fin 1) e)) :=
  (dat2 (F := Ideal) V c).arrAt_eq_of_cover 7 (G2 V c) (fun t _ => flushed2_eq V c t) cover2

end Cert.KernelIdeal.Blocks

end
-- ==== Proof.KerStages.lean ====
/-
  The idealized kernel's host stretches read as pure terms. Before each region @main gathers the current features at the
  edge sources and sums them at the destinations, slices the layer's weight out of its stack and transposes it, and lays
  the layer's bias, scale and shift out as rows; before the first it also counts the in-degrees and inverts them, kept
  as a column; after the last it gathers the requested nodes' rows. Each stretch is read over an arbitrary valuation of
  the buffers, so that the stretches compose through the regions.
-/
import proofs.«133827_j60696477827758_1_alg».proof.Proof.Gen.KernelIdeal.Launch
import Idealize.ShloMosaic.Lib.StableHlo.Run

noncomputable section

namespace Cert.KernelIdeal.Stages

open Cert.KernelIdeal Cert.KernelIdeal.Gen
open Idealize.ShloMosaic Idealize.ShloMosaic.TcCoe Idealize.ShloMosaic.StableHlo

variable {F : FTy → Type} [FloatOps F]

/-- The inverse of the in-degree plus one, per node: the destinations' ones summed into a zero vector, plus one, inverted. -/
def invVec (dst : IVec S800000 32) : FVec F S50000 .f32 :=
  Host.divf (broadcastInDim S50000 ![] bcast_S_S50000 (constant S_ .f32 0x3F800000#32))
    (addf (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The edge sources as gather indices: a negative index wraps by the node count. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sum over each node's in-edges of the source's feature row: rows gathered at the sources, summed at the
    destinations into a zero matrix. -/
def neigh (feats : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 feats (srcIdx src))

/-- The feature rows of the requested nodes (a negative index wraps by the node count). -/
def take (feats : FVec F S50000x128 .f32) (uid : IVec S4096 32) : FVec F S4096x128 .f32 :=
  Host.gather gather_S50000x128_S4096x1_S4096x128_1_0_n_n_0_1_1128 feats
    (broadcastInDim S4096x1 ![0] bcast_S4096_S4096x1_0
      (select (cmpi .slt uid (broadcastInDim S4096 ![] bcast_S_S4096 (constantI S_ 32 0#32)))
        (addi uid (broadcastInDim S4096 ![] bcast_S_S4096 (constantI S_ 32 50000#32))) uid))

/-- Layer 0's weight matrix, sliced out of the stack. -/
def weight0 (W : FVec F S3x128x128 .f32) : FVec F S128x128 .f32 :=
  shapeCast S128x128 (extractStridedSlice S1x128x128 ![0, 0, 0] W slices_S3x128x128_S1x128x128_0_0_0) shapeCasts_S1x128x128_S128x128

/-- Row 0 of a stack of three vectors. -/
def vec0 (b : FVec F S3x128 .f32) : FVec F S128 .f32 :=
  shapeCast S128 (extractStridedSlice S1x128 ![0, 0] b slices_S3x128_S1x128_0_0) shapeCasts_S1x128_S128

/-- Layer 1's weight matrix, sliced out of the stack. -/
def weight1 (W : FVec F S3x128x128 .f32) : FVec F S128x128 .f32 :=
  shapeCast S128x128 (extractStridedSlice S1x128x128 ![1, 0, 0] W slices_S3x128x128_S1x128x128_1_0_0) shapeCasts_S1x128x128_S128x128

/-- Row 1 of a stack of three vectors. -/
def vec1 (b : FVec F S3x128 .f32) : FVec F S128 .f32 :=
  shapeCast S128 (extractStridedSlice S1x128 ![1, 0] b slices_S3x128_S1x128_1_0) shapeCasts_S1x128_S128

/-- Layer 2's weight matrix, sliced out of the stack. -/
def weight2 (W : FVec F S3x128x128 .f32) : FVec F S128x128 .f32 :=
  shapeCast S128x128 (extractStridedSlice S1x128x128 ![2, 0, 0] W slices_S3x128x128_S1x128x128_2_0_0) shapeCasts_S1x128x128_S128x128

/-- Row 2 of a stack of three vectors. -/
def vec2 (b : FVec F S3x128 .f32) : FVec F S128 .f32 :=
  shapeCast S128 (extractStridedSlice S1x128 ![2, 0] b slices_S3x128_S1x128_2_0) shapeCasts_S1x128_S128

/-- The inverse degrees as a column (a reshape). -/
def invCol (dst : IVec S800000 32) : FVec F S50000x1 .f32 :=
  shapeCast S50000x1 (invVec (F := F) dst) shapeCasts_S50000_S50000x1

/-- Layer 0's weight transposed, as the kernel's right operand. -/
def weightT0 (W : FVec F S3x128x128 .f32) : FVec F S128x128 .f32 :=
  transpose S128x128 [1, 0] (weight0 W) transposes_S128x128_S128x128_1_0

/-- Row 0 of a stack of three vectors, laid out as a `[1, 128]` row. -/
def row0 (b : FVec F S3x128 .f32) : FVec F S1x128 .f32 :=
  shapeCast S1x128 (vec0 b) shapeCasts_S128_S1x128

/-- Layer 1's weight transposed, as the kernel's right operand. -/
def weightT1 (W : FVec F S3x128x128 .f32) : FVec F S128x128 .f32 :=
  transpose S128x128 [1, 0] (weight1 W) transposes_S128x128_S128x128_1_0

/-- Row 1 of a stack of three vectors, laid out as a `[1, 128]` row. -/
def row1 (b : FVec F S3x128 .f32) : FVec F S1x128 .f32 :=
  shapeCast S1x128 (vec1 b) shapeCasts_S128_S1x128

/-- Layer 2's weight transposed, as the kernel's right operand. -/
def weightT2 (W : FVec F S3x128x128 .f32) : FVec F S128x128 .f32 :=
  transpose S128x128 [1, 0] (weight2 W) transposes_S128x128_S128x128_1_0

/-- Row 2 of a stack of three vectors, laid out as a `[1, 128]` row. -/
def row2 (b : FVec F S3x128 .f32) : FVec F S1x128 .f32 :=
  shapeCast S1x128 (vec2 b) shapeCasts_S128_S1x128

variable (W : Valuation τ sig (Elt F))

attribute [local irreducible] Host.gather Host.scatterAdd

/-! ## The stretch before region 0 -/

theorem s0_inv : after hostOps0 W (main_v8 : DevRef τ sig) = invCol (W (main_arg6 : DevRef τ sig)) := by
  after_results; rfl
set_option maxHeartbeats 1000000 in
theorem s0_neigh : after hostOps0 W (main_v18 : DevRef τ sig) = neigh (W (main_arg0 : DevRef τ sig)) (W (main_arg5 : DevRef τ sig)) (W (main_arg6 : DevRef τ sig)) := by
  after_results_simp
  rfl
theorem s0_weight : after hostOps0 W (main_v21 : DevRef τ sig) = weightT0 (W (main_arg1 : DevRef τ sig)) := by
  after_results; rfl
theorem s0_bias : after hostOps0 W (main_v28 : DevRef τ sig) = row0 (W (main_arg2 : DevRef τ sig)) := by
  after_results; rfl
theorem s0_scale : after hostOps0 W (main_v29 : DevRef τ sig) = row0 (W (main_arg3 : DevRef τ sig)) := by
  after_results; rfl
theorem s0_shift : after hostOps0 W (main_v30 : DevRef τ sig) = row0 (W (main_arg4 : DevRef τ sig)) := by
  after_results; rfl
theorem s0_arg0 : after hostOps0 W (main_arg0 : DevRef τ sig) = W (main_arg0 : DevRef τ sig) := by after_results
theorem s0_arg1 : after hostOps0 W (main_arg1 : DevRef τ sig) = W (main_arg1 : DevRef τ sig) := by after_results
theorem s0_arg2 : after hostOps0 W (main_arg2 : DevRef τ sig) = W (main_arg2 : DevRef τ sig) := by after_results
theorem s0_arg3 : after hostOps0 W (main_arg3 : DevRef τ sig) = W (main_arg3 : DevRef τ sig) := by after_results
theorem s0_arg4 : after hostOps0 W (main_arg4 : DevRef τ sig) = W (main_arg4 : DevRef τ sig) := by after_results
theorem s0_arg5 : after hostOps0 W (main_arg5 : DevRef τ sig) = W (main_arg5 : DevRef τ sig) := by after_results
theorem s0_arg6 : after hostOps0 W (main_arg6 : DevRef τ sig) = W (main_arg6 : DevRef τ sig) := by after_results
theorem s0_arg7 : after hostOps0 W (main_arg7 : DevRef τ sig) = W (main_arg7 : DevRef τ sig) := by after_results

/-! ## The stretch before region 1 -/

set_option maxHeartbeats 1000000 in
theorem s1_neigh : after hostOps1 W (main_v41 : DevRef τ sig) = neigh (W (main_v31 : DevRef τ sig)) (W (main_arg5 : DevRef τ sig)) (W (main_arg6 : DevRef τ sig)) := by
  after_results_simp
  rfl
theorem s1_weight : after hostOps1 W (main_v44 : DevRef τ sig) = weightT1 (W (main_arg1 : DevRef τ sig)) := by
  after_results; rfl
theorem s1_bias : after hostOps1 W (main_v51 : DevRef τ sig) = row1 (W (main_arg2 : DevRef τ sig)) := by
  after_results; rfl
theorem s1_scale : after hostOps1 W (main_v52 : DevRef τ sig) = row1 (W (main_arg3 : DevRef τ sig)) := by
  after_results; rfl
theorem s1_shift : after hostOps1 W (main_v53 : DevRef τ sig) = row1 (W (main_arg4 : DevRef τ sig)) := by
  after_results; rfl
theorem s1_feats : after hostOps1 W (main_v31 : DevRef τ sig) = W (main_v31 : DevRef τ sig) := by after_results
theorem s1_inv : after hostOps1 W (main_v8 : DevRef τ sig) = W (main_v8 : DevRef τ sig) := by after_results
theorem s1_arg1 : after hostOps1 W (main_arg1 : DevRef τ sig) = W (main_arg1 : DevRef τ sig) := by after_results
theorem s1_arg2 : after hostOps1 W (main_arg2 : DevRef τ sig) = W (main_arg2 : DevRef τ sig) := by after_results
theorem s1_arg3 : after hostOps1 W (main_arg3 : DevRef τ sig) = W (main_arg3 : DevRef τ sig) := by after_results
theorem s1_arg4 : after hostOps1 W (main_arg4 : DevRef τ sig) = W (main_arg4 : DevRef τ sig) := by after_results
theorem s1_arg5 : after hostOps1 W (main_arg5 : DevRef τ sig) = W (main_arg5 : DevRef τ sig) := by after_results
theorem s1_arg6 : after hostOps1 W (main_arg6 : DevRef τ sig) = W (main_arg6 : DevRef τ sig) := by after_results
theorem s1_arg7 : after hostOps1 W (main_arg7 : DevRef τ sig) = W (main_arg7 : DevRef τ sig) := by after_results

/-! ## The stretch before region 2 -/

set_option maxHeartbeats 1000000 in
theorem s2_neigh : after hostOps2 W (main_v64 : DevRef τ sig) = neigh (W (main_v54 : DevRef τ sig)) (W (main_arg5 : DevRef τ sig)) (W (main_arg6 : DevRef τ sig)) := by
  after_results_simp
  rfl
theorem s2_weight : after hostOps2 W (main_v67 : DevRef τ sig) = weightT2 (W (main_arg1 : DevRef τ sig)) := by
  after_results; rfl
theorem s2_bias : after hostOps2 W (main_v74 : DevRef τ sig) = row2 (W (main_arg2 : DevRef τ sig)) := by
  after_results; rfl
theorem s2_scale : after hostOps2 W (main_v75 : DevRef τ sig) = row2 (W (main_arg3 : DevRef τ sig)) := by
  after_results; rfl
theorem s2_shift : after hostOps2 W (main_v76 : DevRef τ sig) = row2 (W (main_arg4 : DevRef τ sig)) := by
  after_results; rfl
theorem s2_feats : after hostOps2 W (main_v54 : DevRef τ sig) = W (main_v54 : DevRef τ sig) := by after_results
theorem s2_inv : after hostOps2 W (main_v8 : DevRef τ sig) = W (main_v8 : DevRef τ sig) := by after_results
theorem s2_arg1 : after hostOps2 W (main_arg1 : DevRef τ sig) = W (main_arg1 : DevRef τ sig) := by after_results
theorem s2_arg2 : after hostOps2 W (main_arg2 : DevRef τ sig) = W (main_arg2 : DevRef τ sig) := by after_results
theorem s2_arg3 : after hostOps2 W (main_arg3 : DevRef τ sig) = W (main_arg3 : DevRef τ sig) := by after_results
theorem s2_arg4 : after hostOps2 W (main_arg4 : DevRef τ sig) = W (main_arg4 : DevRef τ sig) := by after_results
theorem s2_arg5 : after hostOps2 W (main_arg5 : DevRef τ sig) = W (main_arg5 : DevRef τ sig) := by after_results
theorem s2_arg6 : after hostOps2 W (main_arg6 : DevRef τ sig) = W (main_arg6 : DevRef τ sig) := by after_results
theorem s2_arg7 : after hostOps2 W (main_arg7 : DevRef τ sig) = W (main_arg7 : DevRef τ sig) := by after_results

/-! ## The stretch after region 2 -/

theorem s3_take : after hostOps3 W (main_v84 : DevRef τ sig) = take (W (main_v77 : DevRef τ sig)) (W (main_arg7 : DevRef τ sig)) := by
  after_results; rfl

end Cert.KernelIdeal.Stages

end
-- ==== Proof.KerWhole.lean ====
/-
  The idealized kernel's result as ONE function of its arguments: three layers, each the row-by-row layer of the current
  features, their sums over in-edges, the inverse degrees, and that layer's weight (transposed on the host, so read back
  transposed), bias, scale and shift; then the requested nodes' rows.
-/
import proofs.«133827_j60696477827758_1_alg».proof.Proof.KerStages
import proofs.«133827_j60696477827758_1_alg».proof.Proof.RowSpec

noncomputable section

namespace Cert.KernelIdeal.Whole

open Cert.KernelIdeal Cert.KernelIdeal.Stages Idealize.ShloMosaic Idealize.ShloMosaic.ValueIdx

/-- Layer 0 on the features `x`. -/
def layer0 (x : FVec Ideal S50000x128 .f32) (W : FVec Ideal S3x128x128 .f32) (b g β : FVec Ideal S3x128 .f32)
    (src dst : IVec S800000 32) : FVec Ideal S50000x128 .f32 :=
  Cert.Sage.layer (neigh x src dst) x (fun p => invCol (F := Ideal) dst (ix2 p (0 : Fin 1)))
    (fun e d => weightT0 W (ix2 d e)) (fun e => row0 b (ix2 (0 : Fin 1) e)) (fun e => row0 g (ix2 (0 : Fin 1) e))
    (fun e => row0 β (ix2 (0 : Fin 1) e))

/-- Layer 1 on the features `x`. -/
def layer1 (x : FVec Ideal S50000x128 .f32) (W : FVec Ideal S3x128x128 .f32) (b g β : FVec Ideal S3x128 .f32)
    (src dst : IVec S800000 32) : FVec Ideal S50000x128 .f32 :=
  Cert.Sage.layer (neigh x src dst) x (fun p => invCol (F := Ideal) dst (ix2 p (0 : Fin 1)))
    (fun e d => weightT1 W (ix2 d e)) (fun e => row1 b (ix2 (0 : Fin 1) e)) (fun e => row1 g (ix2 (0 : Fin 1) e))
    (fun e => row1 β (ix2 (0 : Fin 1) e))

/-- Layer 2 on the features `x`. -/
def layer2 (x : FVec Ideal S50000x128 .f32) (W : FVec Ideal S3x128x128 .f32) (b g β : FVec Ideal S3x128 .f32)
    (src dst : IVec S800000 32) : FVec Ideal S50000x128 .f32 :=
  Cert.Sage.layer (neigh x src dst) x (fun p => invCol (F := Ideal) dst (ix2 p (0 : Fin 1)))
    (fun e d => weightT2 W (ix2 d e)) (fun e => row2 b (ix2 (0 : Fin 1) e)) (fun e => row2 g (ix2 (0 : Fin 1) e))
    (fun e => row2 β (ix2 (0 : Fin 1) e))

/-- The result: the requested rows of the third layer's output. -/
def out (emb : FVec Ideal S50000x128 .f32) (W : FVec Ideal S3x128x128 .f32) (b g β : FVec Ideal S3x128 .f32)
    (src dst : IVec S800000 32) (uid : IVec S4096 32) : FVec Ideal S4096x128 .f32 :=
  take (layer2 (layer1 (layer0 emb W b g β src dst) W b g β src dst) W b g β src dst) uid

end Cert.KernelIdeal.Whole

end
-- ==== Proof.KerValue.lean ====
/-
  The idealized kernel's result buffer in closed form. @main is four host stretches around three regions; the buffer
  contents at each of the seven boundaries are read in turn from the launch memory: a host stretch by its operations'
  terms, a region's output array by the layer function of its input arrays (every other buffer it passes through
  unchanged). At the end the result buffer holds the requested rows of the third layer's output, a function of the
  launched arguments alone.
-/
import proofs.«133827_j60696477827758_1_alg».proof.Proof.KerBlocks
import proofs.«133827_j60696477827758_1_alg».proof.Proof.KerWhole
import proofs.«133827_j60696477827758_1_alg».proof.Proof.Gen.KernelIdeal.Frame

set_option maxRecDepth 16384

noncomputable section

namespace Cert.KernelIdeal.KerValue

open Cert.KernelIdeal Cert.KernelIdeal.Gen Cert.KernelIdeal.Stages Cert.KernelIdeal.Blocks
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## Entry of region 0 -/

theorem e0_arg0 : W1 m ρ c (main_arg0 : DevRef τ sig) = m ((c : Thread nD τ).loc main_arg0) := (s0_arg0 (W0 m ρ c)).trans rfl
theorem e0_arg1 : W1 m ρ c (main_arg1 : DevRef τ sig) = m ((c : Thread nD τ).loc main_arg1) := (s0_arg1 (W0 m ρ c)).trans rfl
theorem e0_arg2 : W1 m ρ c (main_arg2 : DevRef τ sig) = m ((c : Thread nD τ).loc main_arg2) := (s0_arg2 (W0 m ρ c)).trans rfl
theorem e0_arg3 : W1 m ρ c (main_arg3 : DevRef τ sig) = m ((c : Thread nD τ).loc main_arg3) := (s0_arg3 (W0 m ρ c)).trans rfl
theorem e0_arg4 : W1 m ρ c (main_arg4 : DevRef τ sig) = m ((c : Thread nD τ).loc main_arg4) := (s0_arg4 (W0 m ρ c)).trans rfl
theorem e0_arg5 : W1 m ρ c (main_arg5 : DevRef τ sig) = m ((c : Thread nD τ).loc main_arg5) := (s0_arg5 (W0 m ρ c)).trans rfl
theorem e0_arg6 : W1 m ρ c (main_arg6 : DevRef τ sig) = m ((c : Thread nD τ).loc main_arg6) := (s0_arg6 (W0 m ρ c)).trans rfl
theorem e0_arg7 : W1 m ρ c (main_arg7 : DevRef τ sig) = m ((c : Thread nD τ).loc main_arg7) := (s0_arg7 (W0 m ρ c)).trans rfl
theorem e0_inv : W1 m ρ c (main_v8 : DevRef τ sig) = invCol (F := Ideal) (m ((c : Thread nD τ).loc main_arg6)) := (s0_inv (W0 m ρ c)).trans rfl
theorem e0_neigh : W1 m ρ c (main_v18 : DevRef τ sig) = neigh (F := Ideal) (m ((c : Thread nD τ).loc main_arg0)) (m ((c : Thread nD τ).loc main_arg5)) (m ((c : Thread nD τ).loc main_arg6)) := (s0_neigh (W0 m ρ c)).trans rfl
theorem e0_weight : W1 m ρ c (main_v21 : DevRef τ sig) = weightT0 (F := Ideal) (m ((c : Thread nD τ).loc main_arg1)) := (s0_weight (W0 m ρ c)).trans rfl
theorem e0_bias : W1 m ρ c (main_v28 : DevRef τ sig) = row0 (F := Ideal) (m ((c : Thread nD τ).loc main_arg2)) := (s0_bias (W0 m ρ c)).trans rfl
theorem e0_scale : W1 m ρ c (main_v29 : DevRef τ sig) = row0 (F := Ideal) (m ((c : Thread nD τ).loc main_arg3)) := (s0_scale (W0 m ρ c)).trans rfl
theorem e0_shift : W1 m ρ c (main_v30 : DevRef τ sig) = row0 (F := Ideal) (m ((c : Thread nD τ).loc main_arg4)) := (s0_shift (W0 m ρ c)).trans rfl

/-! ## Exit of region 0 -/

theorem x0_feats : W2 m ρ c (main_v31 : DevRef τ sig) = (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W2_arr m ρ c 7).trans ((arr0 (V1 m ρ) c).trans ?_)
  show Cert.Sage.layer (W1 m ρ c (main_v18 : DevRef τ sig)) (W1 m ρ c (main_arg0 : DevRef τ sig))
      (fun p => W1 m ρ c (main_v8 : DevRef τ sig) (ix2 p (0 : Fin 1))) (fun e d => W1 m ρ c (main_v21 : DevRef τ sig) (ix2 d e))
      (fun e => W1 m ρ c (main_v28 : DevRef τ sig) (ix2 (0 : Fin 1) e)) (fun e => W1 m ρ c (main_v29 : DevRef τ sig) (ix2 (0 : Fin 1) e))
      (fun e => W1 m ρ c (main_v30 : DevRef τ sig) (ix2 (0 : Fin 1) e)) = _
  rw [e0_neigh, e0_arg0, e0_inv, e0_weight, e0_bias, e0_scale, e0_shift]
  rfl
theorem x0_inv : W2 m ρ c (main_v8 : DevRef τ sig) = invCol (F := Ideal) (m ((c : Thread nD τ).loc main_arg6)) :=
  ((W2_arr m ρ c 2).trans (((dat0 (V1 m ρ) c).arrAt_in 2 rfl _).trans (A_eq0 (V1 m ρ) c 2))).trans (e0_inv m ρ c)
theorem x0_arg1 : W2 m ρ c (main_arg1 : DevRef τ sig) = m ((c : Thread nD τ).loc main_arg1) :=
  (W2_of_ne m ρ c main_arg1 (by decide)).trans (e0_arg1 m ρ c)
theorem x0_arg2 : W2 m ρ c (main_arg2 : DevRef τ sig) = m ((c : Thread nD τ).loc main_arg2) :=
  (W2_of_ne m ρ c main_arg2 (by decide)).trans (e0_arg2 m ρ c)
theorem x0_arg3 : W2 m ρ c (main_arg3 : DevRef τ sig) = m ((c : Thread nD τ).loc main_arg3) :=
  (W2_of_ne m ρ c main_arg3 (by decide)).trans (e0_arg3 m ρ c)
theorem x0_arg4 : W2 m ρ c (main_arg4 : DevRef τ sig) = m ((c : Thread nD τ).loc main_arg4) :=
  (W2_of_ne m ρ c main_arg4 (by decide)).trans (e0_arg4 m ρ c)
theorem x0_arg5 : W2 m ρ c (main_arg5 : DevRef τ sig) = m ((c : Thread nD τ).loc main_arg5) :=
  (W2_of_ne m ρ c main_arg5 (by decide)).trans (e0_arg5 m ρ c)
theorem x0_arg6 : W2 m ρ c (main_arg6 : DevRef τ sig) = m ((c : Thread nD τ).loc main_arg6) :=
  (W2_of_ne m ρ c main_arg6 (by decide)).trans (e0_arg6 m ρ c)
theorem x0_arg7 : W2 m ρ c (main_arg7 : DevRef τ sig) = m ((c : Thread nD τ).loc main_arg7) :=
  (W2_of_ne m ρ c main_arg7 (by decide)).trans (e0_arg7 m ρ c)

/-! ## Entry of region 1 -/

theorem e1_feats : W3 m ρ c (main_v31 : DevRef τ sig) = (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (s1_feats (W2 m ρ c)).trans (x0_feats m ρ c)
theorem e1_inv : W3 m ρ c (main_v8 : DevRef τ sig) = invCol (F := Ideal) (m ((c : Thread nD τ).loc main_arg6)) := (s1_inv (W2 m ρ c)).trans (x0_inv m ρ c)
theorem e1_arg1 : W3 m ρ c (main_arg1 : DevRef τ sig) = m ((c : Thread nD τ).loc main_arg1) := (s1_arg1 (W2 m ρ c)).trans (x0_arg1 m ρ c)
theorem e1_arg2 : W3 m ρ c (main_arg2 : DevRef τ sig) = m ((c : Thread nD τ).loc main_arg2) := (s1_arg2 (W2 m ρ c)).trans (x0_arg2 m ρ c)
theorem e1_arg3 : W3 m ρ c (main_arg3 : DevRef τ sig) = m ((c : Thread nD τ).loc main_arg3) := (s1_arg3 (W2 m ρ c)).trans (x0_arg3 m ρ c)
theorem e1_arg4 : W3 m ρ c (main_arg4 : DevRef τ sig) = m ((c : Thread nD τ).loc main_arg4) := (s1_arg4 (W2 m ρ c)).trans (x0_arg4 m ρ c)
theorem e1_arg5 : W3 m ρ c (main_arg5 : DevRef τ sig) = m ((c : Thread nD τ).loc main_arg5) := (s1_arg5 (W2 m ρ c)).trans (x0_arg5 m ρ c)
theorem e1_arg6 : W3 m ρ c (main_arg6 : DevRef τ sig) = m ((c : Thread nD τ).loc main_arg6) := (s1_arg6 (W2 m ρ c)).trans (x0_arg6 m ρ c)
theorem e1_arg7 : W3 m ρ c (main_arg7 : DevRef τ sig) = m ((c : Thread nD τ).loc main_arg7) := (s1_arg7 (W2 m ρ c)).trans (x0_arg7 m ρ c)
theorem e1_neigh : W3 m ρ c (main_v41 : DevRef τ sig) = neigh (F := Ideal) (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (m ((c : Thread nD τ).loc main_arg6)) := by
  refine (s1_neigh (W2 m ρ c)).trans ?_
  rw [x0_feats, x0_arg5, x0_arg6]
theorem e1_weight : W3 m ρ c (main_v44 : DevRef τ sig) = weightT1 (F := Ideal) (m ((c : Thread nD τ).loc main_arg1)) := by
  refine (s1_weight (W2 m ρ c)).trans ?_
  rw [x0_arg1]
theorem e1_bias : W3 m ρ c (main_v51 : DevRef τ sig) = row1 (F := Ideal) (m ((c : Thread nD τ).loc main_arg2)) := by
  refine (s1_bias (W2 m ρ c)).trans ?_
  rw [x0_arg2]
theorem e1_scale : W3 m ρ c (main_v52 : DevRef τ sig) = row1 (F := Ideal) (m ((c : Thread nD τ).loc main_arg3)) := by
  refine (s1_scale (W2 m ρ c)).trans ?_
  rw [x0_arg3]
theorem e1_shift : W3 m ρ c (main_v53 : DevRef τ sig) = row1 (F := Ideal) (m ((c : Thread nD τ).loc main_arg4)) := by
  refine (s1_shift (W2 m ρ c)).trans ?_
  rw [x0_arg4]

/-! ## Exit of region 1 -/

theorem x1_feats : W4 m ρ c (main_v54 : DevRef τ sig) = (Whole.layer1 (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W4_arr m ρ c 7).trans ((arr1 (V3 m ρ) c).trans ?_)
  show Cert.Sage.layer (W3 m ρ c (main_v41 : DevRef τ sig)) (W3 m ρ c (main_v31 : DevRef τ sig))
      (fun p => W3 m ρ c (main_v8 : DevRef τ sig) (ix2 p (0 : Fin 1))) (fun e d => W3 m ρ c (main_v44 : DevRef τ sig) (ix2 d e))
      (fun e => W3 m ρ c (main_v51 : DevRef τ sig) (ix2 (0 : Fin 1) e)) (fun e => W3 m ρ c (main_v52 : DevRef τ sig) (ix2 (0 : Fin 1) e))
      (fun e => W3 m ρ c (main_v53 : DevRef τ sig) (ix2 (0 : Fin 1) e)) = _
  rw [e1_neigh, e1_feats, e1_inv, e1_weight, e1_bias, e1_scale, e1_shift]
  rfl
theorem x1_inv : W4 m ρ c (main_v8 : DevRef τ sig) = invCol (F := Ideal) (m ((c : Thread nD τ).loc main_arg6)) :=
  ((W4_arr m ρ c 2).trans (((dat1 (V3 m ρ) c).arrAt_in 2 rfl _).trans (A_eq1 (V3 m ρ) c 2))).trans (e1_inv m ρ c)
theorem x1_arg1 : W4 m ρ c (main_arg1 : DevRef τ sig) = m ((c : Thread nD τ).loc main_arg1) :=
  (W4_of_ne m ρ c main_arg1 (by decide)).trans (e1_arg1 m ρ c)
theorem x1_arg2 : W4 m ρ c (main_arg2 : DevRef τ sig) = m ((c : Thread nD τ).loc main_arg2) :=
  (W4_of_ne m ρ c main_arg2 (by decide)).trans (e1_arg2 m ρ c)
theorem x1_arg3 : W4 m ρ c (main_arg3 : DevRef τ sig) = m ((c : Thread nD τ).loc main_arg3) :=
  (W4_of_ne m ρ c main_arg3 (by decide)).trans (e1_arg3 m ρ c)
theorem x1_arg4 : W4 m ρ c (main_arg4 : DevRef τ sig) = m ((c : Thread nD τ).loc main_arg4) :=
  (W4_of_ne m ρ c main_arg4 (by decide)).trans (e1_arg4 m ρ c)
theorem x1_arg5 : W4 m ρ c (main_arg5 : DevRef τ sig) = m ((c : Thread nD τ).loc main_arg5) :=
  (W4_of_ne m ρ c main_arg5 (by decide)).trans (e1_arg5 m ρ c)
theorem x1_arg6 : W4 m ρ c (main_arg6 : DevRef τ sig) = m ((c : Thread nD τ).loc main_arg6) :=
  (W4_of_ne m ρ c main_arg6 (by decide)).trans (e1_arg6 m ρ c)
theorem x1_arg7 : W4 m ρ c (main_arg7 : DevRef τ sig) = m ((c : Thread nD τ).loc main_arg7) :=
  (W4_of_ne m ρ c main_arg7 (by decide)).trans (e1_arg7 m ρ c)

/-! ## Entry of region 2 -/

theorem e2_feats : W5 m ρ c (main_v54 : DevRef τ sig) = (Whole.layer1 (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (s2_feats (W4 m ρ c)).trans (x1_feats m ρ c)
theorem e2_inv : W5 m ρ c (main_v8 : DevRef τ sig) = invCol (F := Ideal) (m ((c : Thread nD τ).loc main_arg6)) := (s2_inv (W4 m ρ c)).trans (x1_inv m ρ c)
theorem e2_arg1 : W5 m ρ c (main_arg1 : DevRef τ sig) = m ((c : Thread nD τ).loc main_arg1) := (s2_arg1 (W4 m ρ c)).trans (x1_arg1 m ρ c)
theorem e2_arg2 : W5 m ρ c (main_arg2 : DevRef τ sig) = m ((c : Thread nD τ).loc main_arg2) := (s2_arg2 (W4 m ρ c)).trans (x1_arg2 m ρ c)
theorem e2_arg3 : W5 m ρ c (main_arg3 : DevRef τ sig) = m ((c : Thread nD τ).loc main_arg3) := (s2_arg3 (W4 m ρ c)).trans (x1_arg3 m ρ c)
theorem e2_arg4 : W5 m ρ c (main_arg4 : DevRef τ sig) = m ((c : Thread nD τ).loc main_arg4) := (s2_arg4 (W4 m ρ c)).trans (x1_arg4 m ρ c)
theorem e2_arg5 : W5 m ρ c (main_arg5 : DevRef τ sig) = m ((c : Thread nD τ).loc main_arg5) := (s2_arg5 (W4 m ρ c)).trans (x1_arg5 m ρ c)
theorem e2_arg6 : W5 m ρ c (main_arg6 : DevRef τ sig) = m ((c : Thread nD τ).loc main_arg6) := (s2_arg6 (W4 m ρ c)).trans (x1_arg6 m ρ c)
theorem e2_arg7 : W5 m ρ c (main_arg7 : DevRef τ sig) = m ((c : Thread nD τ).loc main_arg7) := (s2_arg7 (W4 m ρ c)).trans (x1_arg7 m ρ c)
theorem e2_neigh : W5 m ρ c (main_v64 : DevRef τ sig) = neigh (F := Ideal) (Whole.layer1 (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (m ((c : Thread nD τ).loc main_arg6)) := by
  refine (s2_neigh (W4 m ρ c)).trans ?_
  rw [x1_feats, x1_arg5, x1_arg6]
theorem e2_weight : W5 m ρ c (main_v67 : DevRef τ sig) = weightT2 (F := Ideal) (m ((c : Thread nD τ).loc main_arg1)) := by
  refine (s2_weight (W4 m ρ c)).trans ?_
  rw [x1_arg1]
theorem e2_bias : W5 m ρ c (main_v74 : DevRef τ sig) = row2 (F := Ideal) (m ((c : Thread nD τ).loc main_arg2)) := by
  refine (s2_bias (W4 m ρ c)).trans ?_
  rw [x1_arg2]
theorem e2_scale : W5 m ρ c (main_v75 : DevRef τ sig) = row2 (F := Ideal) (m ((c : Thread nD τ).loc main_arg3)) := by
  refine (s2_scale (W4 m ρ c)).trans ?_
  rw [x1_arg3]
theorem e2_shift : W5 m ρ c (main_v76 : DevRef τ sig) = row2 (F := Ideal) (m ((c : Thread nD τ).loc main_arg4)) := by
  refine (s2_shift (W4 m ρ c)).trans ?_
  rw [x1_arg4]

/-! ## Exit of region 2 -/

theorem x2_feats : W6 m ρ c (main_v77 : DevRef τ sig) = (Whole.layer2 (Whole.layer1 (Whole.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m ρ c 7).trans ((arr2 (V5 m ρ) c).trans ?_)
  show Cert.Sage.layer (W5 m ρ c (main_v64 : DevRef τ sig)) (W5 m ρ c (main_v54 : DevRef τ sig))
      (fun p => W5 m ρ c (main_v8 : DevRef τ sig) (ix2 p (0 : Fin 1))) (fun e d => W5 m ρ c (main_v67 : DevRef τ sig) (ix2 d e))
      (fun e => W5 m ρ c (main_v74 : DevRef τ sig) (ix2 (0 : Fin 1) e)) (fun e => W5 m ρ c (main_v75 : DevRef τ sig) (ix2 (0 : Fin 1) e))
      (fun e => W5 m ρ c (main_v76 : DevRef τ sig) (ix2 (0 : Fin 1) e)) = _
  rw [e2_neigh, e2_feats, e2_inv, e2_weight, e2_bias, e2_scale, e2_shift]
  rfl
theorem x2_inv : W6 m ρ c (main_v8 : DevRef τ sig) = invCol (F := Ideal) (m ((c : Thread nD τ).loc main_arg6)) :=
  ((W6_arr m ρ c 2).trans (((dat2 (V5 m ρ) c).arrAt_in 2 rfl _).trans (A_eq2 (V5 m ρ) c 2))).trans (e2_inv m ρ c)
theorem x2_arg1 : W6 m ρ c (main_arg1 : DevRef τ sig) = m ((c : Thread nD τ).loc main_arg1) :=
  (W6_of_ne m ρ c main_arg1 (by decide)).trans (e2_arg1 m ρ c)
theorem x2_arg2 : W6 m ρ c (main_arg2 : DevRef τ sig) = m ((c : Thread nD τ).loc main_arg2) :=
  (W6_of_ne m ρ c main_arg2 (by decide)).trans (e2_arg2 m ρ c)
theorem x2_arg3 : W6 m ρ c (main_arg3 : DevRef τ sig) = m ((c : Thread nD τ).loc main_arg3) :=
  (W6_of_ne m ρ c main_arg3 (by decide)).trans (e2_arg3 m ρ c)
theorem x2_arg4 : W6 m ρ c (main_arg4 : DevRef τ sig) = m ((c : Thread nD τ).loc main_arg4) :=
  (W6_of_ne m ρ c main_arg4 (by decide)).trans (e2_arg4 m ρ c)
theorem x2_arg5 : W6 m ρ c (main_arg5 : DevRef τ sig) = m ((c : Thread nD τ).loc main_arg5) :=
  (W6_of_ne m ρ c main_arg5 (by decide)).trans (e2_arg5 m ρ c)
theorem x2_arg6 : W6 m ρ c (main_arg6 : DevRef τ sig) = m ((c : Thread nD τ).loc main_arg6) :=
  (W6_of_ne m ρ c main_arg6 (by decide)).trans (e2_arg6 m ρ c)
theorem x2_arg7 : W6 m ρ c (main_arg7 : DevRef τ sig) = m ((c : Thread nD τ).loc main_arg7) :=
  (W6_of_ne m ρ c main_arg7 (by decide)).trans (e2_arg7 m ρ c)

/-! ## The result buffer -/

/-- After the last stretch the result buffer holds the requested rows of the third layer's output. -/
theorem result : W7 m ρ c (main_v84 : DevRef τ sig)
    = Whole.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (s3_take (W6 m ρ c)).trans ?_
  rw [x2_feats, x2_arg7]
  rfl

end Cert.KernelIdeal.KerValue

end
-- ==== Proof.RefOps.lean ====
/- The reference's @main as the LIST of its host operations in program order, each outlined function's operations
   written at its call site over that call's buffer record, and the same list cut where the inverse-degree column is
   complete, after each layer's unit, and before the final row gather. -/
import proofs.«133827_j60696477827758_1_alg».proof.ReferenceIdeal
import Idealize.ShloMosaic.Lib.StableHlo.Run

noncomputable section

namespace Cert.ReferenceIdeal.RefOps

open Cert.ReferenceIdeal Idealize.ShloMosaic Idealize.ShloMosaic.TcCoe Idealize.ShloMosaic.StableHlo

variable {F : FTy → Type} [FloatOps F] [Facts]
open Facts₀ Facts

/-- The in-degree count and its inverse, kept as a column. 13 operations. -/
abbrev opsDeg : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg6 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (addf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v6 (broadcastInDim S50000 ![] bcast_S_S50000 : (⟨S_, .f32⟩ : BufTy).Contents (Elt F) → (⟨S50000, .f32⟩ : BufTy).Contents (Elt F)),
    StableHlo.binary main_v6 main_v5 main_v7 (Host.divf : (⟨S50000, .f32⟩ : BufTy).Contents (Elt F) → (⟨S50000, .f32⟩ : BufTy).Contents (Elt F) → (⟨S50000, .f32⟩ : BufTy).Contents (Elt F)),
    StableHlo.unary main_v7 main_v8 (broadcastInDim S50000x1 ![0] bcast_S50000_S50000x1_0 : (⟨S50000, .f32⟩ : BufTy).Contents (Elt F) → (⟨S50000x1, .f32⟩ : BufTy).Contents (Elt F)) ]

/-- Layer 0: gather at the sources, sum at the destinations, the layer. 87 operations. -/
abbrev opsLayer0 : List (HloOp τ sig (Elt F)) :=
  [ StableHlo.nullary main_c (constantI S_ 32 0#32),
    StableHlo.unary main_c main_v9 (broadcastInDim S800000 ![] bcast_S_S800000 : (⟨S_, .i32⟩ : BufTy).Contents (Elt F) → (⟨S800000, .i32⟩ : BufTy).Contents (Elt F)),
    StableHlo.binary main_arg5 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v11 (broadcastInDim S800000 ![] bcast_S_S800000 : (⟨S_, .i32⟩ : BufTy).Contents (Elt F) → (⟨S800000, .i32⟩ : BufTy).Contents (Elt F)),
    StableHlo.binary main_arg5 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_arg5 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_arg0 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v16 (broadcastInDim S50000x128 ![] bcast_S_S50000x128 : (⟨S_, .f32⟩ : BufTy).Contents (Elt F) → (⟨S50000x128, .f32⟩ : BufTy).Contents (Elt F)),
    StableHlo.unary main_arg6 main_v17 (broadcastInDim S800000x1 ![0] bcast_S800000_S800000x1_0 : (⟨S800000, .i32⟩ : BufTy).Contents (Elt F) → (⟨S800000x1, .i32⟩ : BufTy).Contents (Elt F)),
    StableHlo.ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v18 main_arg0 main_v19 (addf : (⟨S50000x128, .f32⟩ : BufTy).Contents (Elt F) → (⟨S50000x128, .f32⟩ : BufTy).Contents (Elt F) → (⟨S50000x128, .f32⟩ : BufTy).Contents (Elt F)),
    StableHlo.unary main_v8 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v20 main_v21 (mulf : (⟨S50000x128, .f32⟩ : BufTy).Contents (Elt F) → (⟨S50000x128, .f32⟩ : BufTy).Contents (Elt F) → (⟨S50000x128, .f32⟩ : BufTy).Contents (Elt F)),
    StableHlo.unary main_arg1 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v22 main_v23 rfl shapeCasts_S1x128x128_S128x128,
    StableHlo.binary main_v21 main_v23 main_v24 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.unary main_v26 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v28 main_v29 (addf : (⟨S50000x128, .f32⟩ : BufTy).Contents (Elt F) → (⟨S50000x128, .f32⟩ : BufTy).Contents (Elt F) → (⟨S50000x128, .f32⟩ : BufTy).Contents (Elt F)),
    StableHlo.unary main_arg3 main_v30 ((extractStridedSlice S1x128 ![0, 0] · slices_S3x128_S1x128_0_0) : (⟨S3x128, .f32⟩ : BufTy).Contents (Elt F) → (⟨S1x128, .f32⟩ : BufTy).Contents (Elt F)),
    StableHlo.reshape main_v30 main_v31 rfl shapeCasts_S1x128_S128,
    StableHlo.unary main_arg4 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.nullary main_cst_5 (constant S_ .f32 0x00000000#32),
    StableHlo.binary main_v29 main_cst_5 main_v34 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v34 main_v35 (broadcastInDim S50000x1 ![0] bcast_S50000_S50000x1_0 : (⟨S50000, .f32⟩ : BufTy).Contents (Elt F) → (⟨S50000x1, .f32⟩ : BufTy).Contents (Elt F)),
    StableHlo.nullary main_cst_6 (constant S_ .f32 0x43000000#32),
    StableHlo.unary main_cst_6 main_v36 (broadcastInDim S50000x1 ![] bcast_S_S50000x1 : (⟨S_, .f32⟩ : BufTy).Contents (Elt F) → (⟨S50000x1, .f32⟩ : BufTy).Contents (Elt F)),
    StableHlo.binary main_v35 main_v36 main_v37 (Host.divf : (⟨S50000x1, .f32⟩ : BufTy).Contents (Elt F) → (⟨S50000x1, .f32⟩ : BufTy).Contents (Elt F) → (⟨S50000x1, .f32⟩ : BufTy).Contents (Elt F)),
    StableHlo.nullary main_c_7 (constantI S_ 32 0#32),
    StableHlo.TRef.nullary main_call0.cst (constant S_ .f32 0x00000000#32),
    StableHlo.TRef.binary (.of main_v29) main_call0.cst main_call0.v0 (fun x v => Host.reduceAdd x v reducesTo_S50000x128_S50000_d1 h_S_),
    StableHlo.TRef.unary main_call0.v0 main_call0.v1 (broadcastInDim S50000x1 ![0] bcast_S50000_S50000x1_0),
    StableHlo.TRef.nullary main_call0.cst_0 (constant S_ .f32 0x43000000#32),
    StableHlo.TRef.unary main_call0.cst_0 main_call0.v2 (broadcastInDim S50000x1 ![] bcast_S_S50000x1),
    StableHlo.TRef.binary main_call0.v1 main_call0.v2 main_call0.v3 Host.divf,
    StableHlo.TRef.unary main_call0.v3 main_call0.v4 (broadcastInDim S50000x128 ![0, 1] bcast_S50000x1_S50000x128_0_1),
    StableHlo.TRef.binary (.of main_v29) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S50000_d1 h_S_),
    StableHlo.TRef.unary main_call0.v9 main_call0.v10 (broadcastInDim S50000x1 ![0] bcast_S50000_S50000x1_0),
    StableHlo.TRef.unary main_call0.v8 main_call0.v11 (broadcastInDim S50000x1 ![] bcast_S_S50000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S50000x1 ![] bcast_S_S50000x1),
    StableHlo.TRef.ternary main_call0.v13 main_call0.v12 main_call0.call0.v1 main_call0.call0.v2 (fun p a b => select (broadcastInDim S50000x1 ![] bcast_S_S50000x1 p) a b),
    StableHlo.unary main_v37 main_v39 (broadcastInDim S50000x128 ![0, 1] bcast_S50000x1_S50000x128_0_1 : (⟨S50000x1, .f32⟩ : BufTy).Contents (Elt F) → (⟨S50000x128, .f32⟩ : BufTy).Contents (Elt F)),
    StableHlo.binary main_v29 main_v39 main_v40 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v41 (broadcastInDim S50000x1 ![] bcast_S_S50000x1 : (⟨S_, .f32⟩ : BufTy).Contents (Elt F) → (⟨S50000x1, .f32⟩ : BufTy).Contents (Elt F)),
    StableHlo.binary main_v38 main_v41 main_v42 (addf : (⟨S50000x1, .f32⟩ : BufTy).Contents (Elt F) → (⟨S50000x1, .f32⟩ : BufTy).Contents (Elt F) → (⟨S50000x1, .f32⟩ : BufTy).Contents (Elt F)),
    StableHlo.unary main_v42 main_v43 (Host.rsqrt : (⟨S50000x1, .f32⟩ : BufTy).Contents (Elt F) → (⟨S50000x1, .f32⟩ : BufTy).Contents (Elt F)),
    StableHlo.unary main_v43 main_v44 (broadcastInDim S50000x128 ![0, 1] bcast_S50000x1_S50000x128_0_1 : (⟨S50000x1, .f32⟩ : BufTy).Contents (Elt F) → (⟨S50000x128, .f32⟩ : BufTy).Contents (Elt F)),
    StableHlo.binary main_v40 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_v31 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_v33 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v51) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v51) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v51) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v51) main_call1.v7 main_call1.call1.v0 select ]

/-- Layer 1. 87 operations. -/
abbrev opsLayer1 : List (HloOp τ sig (Elt F)) :=
  [ StableHlo.nullary main_c_9 (constantI S_ 32 0#32),
    StableHlo.unary main_c_9 main_v53 (broadcastInDim S800000 ![] bcast_S_S800000 : (⟨S_, .i32⟩ : BufTy).Contents (Elt F) → (⟨S800000, .i32⟩ : BufTy).Contents (Elt F)),
    StableHlo.binary main_arg5 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v55 (broadcastInDim S800000 ![] bcast_S_S800000 : (⟨S_, .i32⟩ : BufTy).Contents (Elt F) → (⟨S800000, .i32⟩ : BufTy).Contents (Elt F)),
    StableHlo.binary main_arg5 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_arg5 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v57 main_v58 (broadcastInDim S800000x1 ![0] bcast_S800000_S800000x1_0 : (⟨S800000, .i32⟩ : BufTy).Contents (Elt F) → (⟨S800000x1, .i32⟩ : BufTy).Contents (Elt F)),
    StableHlo.binary main_v52 main_v58 main_v59 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v60 (broadcastInDim S50000x128 ![] bcast_S_S50000x128 : (⟨S_, .f32⟩ : BufTy).Contents (Elt F) → (⟨S50000x128, .f32⟩ : BufTy).Contents (Elt F)),
    StableHlo.unary main_arg6 main_v61 (broadcastInDim S800000x1 ![0] bcast_S800000_S800000x1_0 : (⟨S800000, .i32⟩ : BufTy).Contents (Elt F) → (⟨S800000x1, .i32⟩ : BufTy).Contents (Elt F)),
    StableHlo.ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v62 main_v52 main_v63 (addf : (⟨S50000x128, .f32⟩ : BufTy).Contents (Elt F) → (⟨S50000x128, .f32⟩ : BufTy).Contents (Elt F) → (⟨S50000x128, .f32⟩ : BufTy).Contents (Elt F)),
    StableHlo.unary main_v8 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v63 main_v64 main_v65 (mulf : (⟨S50000x128, .f32⟩ : BufTy).Contents (Elt F) → (⟨S50000x128, .f32⟩ : BufTy).Contents (Elt F) → (⟨S50000x128, .f32⟩ : BufTy).Contents (Elt F)),
    StableHlo.unary main_arg1 main_v66 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v66 main_v67 rfl shapeCasts_S1x128x128_S128x128,
    StableHlo.binary main_v65 main_v67 main_v68 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v69 ((extractStridedSlice S1x128 ![1, 0] · slices_S3x128_S1x128_1_0) : (⟨S3x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v72 main_v73 (addf : (⟨S50000x128, .f32⟩ : BufTy).Contents (Elt F) → (⟨S50000x128, .f32⟩ : BufTy).Contents (Elt F) → (⟨S50000x128, .f32⟩ : BufTy).Contents (Elt F)),
    StableHlo.unary main_arg3 main_v74 ((extractStridedSlice S1x128 ![1, 0] · slices_S3x128_S1x128_1_0) : (⟨S3x128, .f32⟩ : BufTy).Contents (Elt F) → (⟨S1x128, .f32⟩ : BufTy).Contents (Elt F)),
    StableHlo.reshape main_v74 main_v75 rfl shapeCasts_S1x128_S128,
    StableHlo.unary main_arg4 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.nullary main_cst_12 (constant S_ .f32 0x00000000#32),
    StableHlo.binary main_v73 main_cst_12 main_v78 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v78 main_v79 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x43000000#32),
    StableHlo.unary main_cst_13 main_v80 (broadcastInDim S50000x1 ![] bcast_S_S50000x1 : (⟨S_, .f32⟩ : BufTy).Contents (Elt F) → (⟨S50000x1, .f32⟩ : BufTy).Contents (Elt F)),
    StableHlo.binary main_v79 main_v80 main_v81 (Host.divf : (⟨S50000x1, .f32⟩ : BufTy).Contents (Elt F) → (⟨S50000x1, .f32⟩ : BufTy).Contents (Elt F) → (⟨S50000x1, .f32⟩ : BufTy).Contents (Elt F)),
    StableHlo.nullary main_c_14 (constantI S_ 32 0#32),
    StableHlo.TRef.nullary main_call2.cst (constant S_ .f32 0x00000000#32),
    StableHlo.TRef.binary (.of main_v73) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary (.of main_v73) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v81 main_v83 (broadcastInDim S50000x128 ![0, 1] bcast_S50000x1_S50000x128_0_1 : (⟨S50000x1, .f32⟩ : BufTy).Contents (Elt F) → (⟨S50000x128, .f32⟩ : BufTy).Contents (Elt F)),
    StableHlo.binary main_v73 main_v83 main_v84 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v85 (broadcastInDim S50000x1 ![] bcast_S_S50000x1 : (⟨S_, .f32⟩ : BufTy).Contents (Elt F) → (⟨S50000x1, .f32⟩ : BufTy).Contents (Elt F)),
    StableHlo.binary main_v82 main_v85 main_v86 (addf : (⟨S50000x1, .f32⟩ : BufTy).Contents (Elt F) → (⟨S50000x1, .f32⟩ : BufTy).Contents (Elt F) → (⟨S50000x1, .f32⟩ : BufTy).Contents (Elt F)),
    StableHlo.unary main_v86 main_v87 (Host.rsqrt : (⟨S50000x1, .f32⟩ : BufTy).Contents (Elt F) → (⟨S50000x1, .f32⟩ : BufTy).Contents (Elt F)),
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v84 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_v75 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_v77 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v95) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v95) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v95) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v95) main_call3.v7 main_call3.call1.v0 select ]

/-- Layer 2. 87 operations. -/
abbrev opsLayer2 : List (HloOp τ sig (Elt F)) :=
  [ StableHlo.nullary main_c_16 (constantI S_ 32 0#32),
    StableHlo.unary main_c_16 main_v97 (broadcastInDim S800000 ![] bcast_S_S800000 : (⟨S_, .i32⟩ : BufTy).Contents (Elt F) → (⟨S800000, .i32⟩ : BufTy).Contents (Elt F)),
    StableHlo.binary main_arg5 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v99 (broadcastInDim S800000 ![] bcast_S_S800000 : (⟨S_, .i32⟩ : BufTy).Contents (Elt F) → (⟨S800000, .i32⟩ : BufTy).Contents (Elt F)),
    StableHlo.binary main_arg5 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_arg5 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v104 (broadcastInDim S50000x128 ![] bcast_S_S50000x128 : (⟨S_, .f32⟩ : BufTy).Contents (Elt F) → (⟨S50000x128, .f32⟩ : BufTy).Contents (Elt F)),
    StableHlo.unary main_arg6 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v106 main_v96 main_v107 (addf : (⟨S50000x128, .f32⟩ : BufTy).Contents (Elt F) → (⟨S50000x128, .f32⟩ : BufTy).Contents (Elt F) → (⟨S50000x128, .f32⟩ : BufTy).Contents (Elt F)),
    StableHlo.unary main_v8 main_v108 (broadcastInDim S50000x128 ![0, 1] bcast_S50000x1_S50000x128_0_1 : (⟨S50000x1, .f32⟩ : BufTy).Contents (Elt F) → (⟨S50000x128, .f32⟩ : BufTy).Contents (Elt F)),
    StableHlo.binary main_v107 main_v108 main_v109 (mulf : (⟨S50000x128, .f32⟩ : BufTy).Contents (Elt F) → (⟨S50000x128, .f32⟩ : BufTy).Contents (Elt F) → (⟨S50000x128, .f32⟩ : BufTy).Contents (Elt F)),
    StableHlo.unary main_arg1 main_v110 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v113 ((extractStridedSlice S1x128 ![2, 0] · slices_S3x128_S1x128_2_0) : (⟨S3x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_arg3 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_arg4 main_v120 ((extractStridedSlice S1x128 ![2, 0] · slices_S3x128_S1x128_2_0) : (⟨S3x128, .f32⟩ : BufTy).Contents (Elt F) → (⟨S1x128, .f32⟩ : BufTy).Contents (Elt F)),
    StableHlo.reshape main_v120 main_v121 rfl shapeCasts_S1x128_S128,
    StableHlo.nullary main_cst_19 (constant S_ .f32 0x00000000#32),
    StableHlo.binary main_v117 main_cst_19 main_v122 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.nullary main_cst_20 (constant S_ .f32 0x43000000#32),
    StableHlo.unary main_cst_20 main_v124 (broadcastInDim S50000x1 ![] bcast_S_S50000x1 : (⟨S_, .f32⟩ : BufTy).Contents (Elt F) → (⟨S50000x1, .f32⟩ : BufTy).Contents (Elt F)),
    StableHlo.binary main_v123 main_v124 main_v125 (Host.divf : (⟨S50000x1, .f32⟩ : BufTy).Contents (Elt F) → (⟨S50000x1, .f32⟩ : BufTy).Contents (Elt F) → (⟨S50000x1, .f32⟩ : BufTy).Contents (Elt F)),
    StableHlo.nullary main_c_21 (constantI S_ 32 0#32),
    StableHlo.TRef.nullary main_call4.cst (constant S_ .f32 0x00000000#32),
    StableHlo.TRef.binary (.of main_v117) main_call4.cst main_call4.v0 (fun x v => Host.reduceAdd x v reducesTo_S50000x128_S50000_d1 h_S_),
    StableHlo.TRef.unary main_call4.v0 main_call4.v1 (broadcastInDim S50000x1 ![0] bcast_S50000_S50000x1_0),
    StableHlo.TRef.nullary main_call4.cst_0 (constant S_ .f32 0x43000000#32),
    StableHlo.TRef.unary main_call4.cst_0 main_call4.v2 (broadcastInDim S50000x1 ![] bcast_S_S50000x1),
    StableHlo.TRef.binary main_call4.v1 main_call4.v2 main_call4.v3 Host.divf,
    StableHlo.TRef.unary main_call4.v3 main_call4.v4 (broadcastInDim S50000x128 ![0, 1] bcast_S50000x1_S50000x128_0_1),
    StableHlo.TRef.binary (.of main_v117) main_call4.v4 main_call4.v5 subf,
    StableHlo.TRef.binary main_call4.v5 main_call4.v5 main_call4.v6 mulf,
    StableHlo.TRef.unary (.of main_c_21) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S50000_d1 h_S_),
    StableHlo.TRef.unary main_call4.v9 main_call4.v10 (broadcastInDim S50000x1 ![0] bcast_S50000_S50000x1_0),
    StableHlo.TRef.unary main_call4.v8 main_call4.v11 (broadcastInDim S50000x1 ![] bcast_S_S50000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S50000x1 ![] bcast_S_S50000x1),
    StableHlo.TRef.ternary main_call4.v13 main_call4.v12 main_call4.call0.v1 main_call4.call0.v2 (fun p a b => select (broadcastInDim S50000x1 ![] bcast_S_S50000x1 p) a b),
    StableHlo.unary main_v125 main_v127 (broadcastInDim S50000x128 ![0, 1] bcast_S50000x1_S50000x128_0_1 : (⟨S50000x1, .f32⟩ : BufTy).Contents (Elt F) → (⟨S50000x128, .f32⟩ : BufTy).Contents (Elt F)),
    StableHlo.binary main_v117 main_v127 main_v128 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v129 (broadcastInDim S50000x1 ![] bcast_S_S50000x1 : (⟨S_, .f32⟩ : BufTy).Contents (Elt F) → (⟨S50000x1, .f32⟩ : BufTy).Contents (Elt F)),
    StableHlo.binary main_v126 main_v129 main_v130 (addf : (⟨S50000x1, .f32⟩ : BufTy).Contents (Elt F) → (⟨S50000x1, .f32⟩ : BufTy).Contents (Elt F) → (⟨S50000x1, .f32⟩ : BufTy).Contents (Elt F)),
    StableHlo.unary main_v130 main_v131 (Host.rsqrt : (⟨S50000x1, .f32⟩ : BufTy).Contents (Elt F) → (⟨S50000x1, .f32⟩ : BufTy).Contents (Elt F)),
    StableHlo.unary main_v131 main_v132 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_v119 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (mulf : (⟨S50000x128, .f32⟩ : BufTy).Contents (Elt F) → (⟨S50000x128, .f32⟩ : BufTy).Contents (Elt F) → (⟨S50000x128, .f32⟩ : BufTy).Contents (Elt F)),
    StableHlo.unary main_v121 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v138 main_v139 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v139) main_call5.v0 main_call5.v1 (cmpf .ogt),
    StableHlo.TRef.nullary main_call5.cst_0 (constant S_ .f32 0x00000000#32),
    StableHlo.TRef.unary main_call5.cst_0 main_call5.v2 (broadcastInDim S50000x128 ![] bcast_S_S50000x128),
    StableHlo.TRef.binary (.of main_v139) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S50000x128 ![] bcast_S_S50000x128),
    StableHlo.TRef.ternary main_call5.v3 main_call5.call0.v1 (.of main_v139) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x128 ![] bcast_S_S50000x128),
    StableHlo.TRef.binary main_call5.v6 main_call5.v5 main_call5.v7 mulf,
    StableHlo.TRef.ternary main_call5.v1 (.of main_v139) main_call5.v7 main_call5.call1.v0 select ]

/-- The rows of the requested nodes. 9 operations. -/
abbrev opsTake : List (HloOp τ sig (Elt F)) :=
  [ StableHlo.nullary main_c_23 (constantI S_ 32 0#32),
    StableHlo.unary main_c_23 main_v141 (broadcastInDim S4096 ![] bcast_S_S4096 : (⟨S_, .i32⟩ : BufTy).Contents (Elt F) → (⟨S4096, .i32⟩ : BufTy).Contents (Elt F)),
    StableHlo.binary main_arg7 main_v141 main_v142 (cmpi .slt : (⟨S4096, .i32⟩ : BufTy).Contents (Elt F) → (⟨S4096, .i32⟩ : BufTy).Contents (Elt F) → (⟨S4096, .i1⟩ : BufTy).Contents (Elt F)),
    StableHlo.nullary main_c_24 (constantI S_ 32 50000#32),
    StableHlo.unary main_c_24 main_v143 (broadcastInDim S4096 ![] bcast_S_S4096 : (⟨S_, .i32⟩ : BufTy).Contents (Elt F) → (⟨S4096, .i32⟩ : BufTy).Contents (Elt F)),
    StableHlo.binary main_arg7 main_v143 main_v144 (addi : (⟨S4096, .i32⟩ : BufTy).Contents (Elt F) → (⟨S4096, .i32⟩ : BufTy).Contents (Elt F) → (⟨S4096, .i32⟩ : BufTy).Contents (Elt F)),
    StableHlo.ternary main_v142 main_v144 main_arg7 main_v145 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v145 main_v146 (broadcastInDim S4096x1 ![0] bcast_S4096_S4096x1_0 : (⟨S4096, .i32⟩ : BufTy).Contents (Elt F) → (⟨S4096x1, .i32⟩ : BufTy).Contents (Elt F)),
    StableHlo.binary main_v140 main_v146 main_v147 ((fun x i => Host.gather gather_S50000x128_S4096x1_S4096x128_1_0_n_n_0_1_1128 x i) : (⟨S50000x128, .f32⟩ : BufTy).Contents (Elt F) → (⟨S4096x1, .i32⟩ : BufTy).Contents (Elt F) → (⟨S4096x128, .f32⟩ : BufTy).Contents (Elt F)) ]

/-- @main's 283 operations, in order. -/
abbrev ops : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg6 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (addf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v6 (broadcastInDim S50000 ![] bcast_S_S50000 : (⟨S_, .f32⟩ : BufTy).Contents (Elt F) → (⟨S50000, .f32⟩ : BufTy).Contents (Elt F)),
    StableHlo.binary main_v6 main_v5 main_v7 (Host.divf : (⟨S50000, .f32⟩ : BufTy).Contents (Elt F) → (⟨S50000, .f32⟩ : BufTy).Contents (Elt F) → (⟨S50000, .f32⟩ : BufTy).Contents (Elt F)),
    StableHlo.unary main_v7 main_v8 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v9 (broadcastInDim S800000 ![] bcast_S_S800000 : (⟨S_, .i32⟩ : BufTy).Contents (Elt F) → (⟨S800000, .i32⟩ : BufTy).Contents (Elt F)),
    StableHlo.binary main_arg5 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v11 (broadcastInDim S800000 ![] bcast_S_S800000 : (⟨S_, .i32⟩ : BufTy).Contents (Elt F) → (⟨S800000, .i32⟩ : BufTy).Contents (Elt F)),
    StableHlo.binary main_arg5 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_arg5 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_arg0 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v16 (broadcastInDim S50000x128 ![] bcast_S_S50000x128 : (⟨S_, .f32⟩ : BufTy).Contents (Elt F) → (⟨S50000x128, .f32⟩ : BufTy).Contents (Elt F)),
    StableHlo.unary main_arg6 main_v17 (broadcastInDim S800000x1 ![0] bcast_S800000_S800000x1_0 : (⟨S800000, .i32⟩ : BufTy).Contents (Elt F) → (⟨S800000x1, .i32⟩ : BufTy).Contents (Elt F)),
    StableHlo.ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v18 main_arg0 main_v19 (addf : (⟨S50000x128, .f32⟩ : BufTy).Contents (Elt F) → (⟨S50000x128, .f32⟩ : BufTy).Contents (Elt F) → (⟨S50000x128, .f32⟩ : BufTy).Contents (Elt F)),
    StableHlo.unary main_v8 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v20 main_v21 (mulf : (⟨S50000x128, .f32⟩ : BufTy).Contents (Elt F) → (⟨S50000x128, .f32⟩ : BufTy).Contents (Elt F) → (⟨S50000x128, .f32⟩ : BufTy).Contents (Elt F)),
    StableHlo.unary main_arg1 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v22 main_v23 rfl shapeCasts_S1x128x128_S128x128,
    StableHlo.binary main_v21 main_v23 main_v24 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.unary main_v26 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v28 main_v29 (addf : (⟨S50000x128, .f32⟩ : BufTy).Contents (Elt F) → (⟨S50000x128, .f32⟩ : BufTy).Contents (Elt F) → (⟨S50000x128, .f32⟩ : BufTy).Contents (Elt F)),
    StableHlo.unary main_arg3 main_v30 ((extractStridedSlice S1x128 ![0, 0] · slices_S3x128_S1x128_0_0) : (⟨S3x128, .f32⟩ : BufTy).Contents (Elt F) → (⟨S1x128, .f32⟩ : BufTy).Contents (Elt F)),
    StableHlo.reshape main_v30 main_v31 rfl shapeCasts_S1x128_S128,
    StableHlo.unary main_arg4 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.nullary main_cst_5 (constant S_ .f32 0x00000000#32),
    StableHlo.binary main_v29 main_cst_5 main_v34 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v34 main_v35 (broadcastInDim S50000x1 ![0] bcast_S50000_S50000x1_0 : (⟨S50000, .f32⟩ : BufTy).Contents (Elt F) → (⟨S50000x1, .f32⟩ : BufTy).Contents (Elt F)),
    StableHlo.nullary main_cst_6 (constant S_ .f32 0x43000000#32),
    StableHlo.unary main_cst_6 main_v36 (broadcastInDim S50000x1 ![] bcast_S_S50000x1 : (⟨S_, .f32⟩ : BufTy).Contents (Elt F) → (⟨S50000x1, .f32⟩ : BufTy).Contents (Elt F)),
    StableHlo.binary main_v35 main_v36 main_v37 (Host.divf : (⟨S50000x1, .f32⟩ : BufTy).Contents (Elt F) → (⟨S50000x1, .f32⟩ : BufTy).Contents (Elt F) → (⟨S50000x1, .f32⟩ : BufTy).Contents (Elt F)),
    StableHlo.nullary main_c_7 (constantI S_ 32 0#32),
    StableHlo.TRef.nullary main_call0.cst (constant S_ .f32 0x00000000#32),
    StableHlo.TRef.binary (.of main_v29) main_call0.cst main_call0.v0 (fun x v => Host.reduceAdd x v reducesTo_S50000x128_S50000_d1 h_S_),
    StableHlo.TRef.unary main_call0.v0 main_call0.v1 (broadcastInDim S50000x1 ![0] bcast_S50000_S50000x1_0),
    StableHlo.TRef.nullary main_call0.cst_0 (constant S_ .f32 0x43000000#32),
    StableHlo.TRef.unary main_call0.cst_0 main_call0.v2 (broadcastInDim S50000x1 ![] bcast_S_S50000x1),
    StableHlo.TRef.binary main_call0.v1 main_call0.v2 main_call0.v3 Host.divf,
    StableHlo.TRef.unary main_call0.v3 main_call0.v4 (broadcastInDim S50000x128 ![0, 1] bcast_S50000x1_S50000x128_0_1),
    StableHlo.TRef.binary (.of main_v29) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S50000_d1 h_S_),
    StableHlo.TRef.unary main_call0.v9 main_call0.v10 (broadcastInDim S50000x1 ![0] bcast_S50000_S50000x1_0),
    StableHlo.TRef.unary main_call0.v8 main_call0.v11 (broadcastInDim S50000x1 ![] bcast_S_S50000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S50000x1 ![] bcast_S_S50000x1),
    StableHlo.TRef.ternary main_call0.v13 main_call0.v12 main_call0.call0.v1 main_call0.call0.v2 (fun p a b => select (broadcastInDim S50000x1 ![] bcast_S_S50000x1 p) a b),
    StableHlo.unary main_v37 main_v39 (broadcastInDim S50000x128 ![0, 1] bcast_S50000x1_S50000x128_0_1 : (⟨S50000x1, .f32⟩ : BufTy).Contents (Elt F) → (⟨S50000x128, .f32⟩ : BufTy).Contents (Elt F)),
    StableHlo.binary main_v29 main_v39 main_v40 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v41 (broadcastInDim S50000x1 ![] bcast_S_S50000x1 : (⟨S_, .f32⟩ : BufTy).Contents (Elt F) → (⟨S50000x1, .f32⟩ : BufTy).Contents (Elt F)),
    StableHlo.binary main_v38 main_v41 main_v42 (addf : (⟨S50000x1, .f32⟩ : BufTy).Contents (Elt F) → (⟨S50000x1, .f32⟩ : BufTy).Contents (Elt F) → (⟨S50000x1, .f32⟩ : BufTy).Contents (Elt F)),
    StableHlo.unary main_v42 main_v43 (Host.rsqrt : (⟨S50000x1, .f32⟩ : BufTy).Contents (Elt F) → (⟨S50000x1, .f32⟩ : BufTy).Contents (Elt F)),
    StableHlo.unary main_v43 main_v44 (broadcastInDim S50000x128 ![0, 1] bcast_S50000x1_S50000x128_0_1 : (⟨S50000x1, .f32⟩ : BufTy).Contents (Elt F) → (⟨S50000x128, .f32⟩ : BufTy).Contents (Elt F)),
    StableHlo.binary main_v40 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_v31 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_v33 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v51) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v51) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v51) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v51) main_call1.v7 main_call1.call1.v0 select,
    StableHlo.nullary main_c_9 (constantI S_ 32 0#32),
    StableHlo.unary main_c_9 main_v53 (broadcastInDim S800000 ![] bcast_S_S800000 : (⟨S_, .i32⟩ : BufTy).Contents (Elt F) → (⟨S800000, .i32⟩ : BufTy).Contents (Elt F)),
    StableHlo.binary main_arg5 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v55 (broadcastInDim S800000 ![] bcast_S_S800000 : (⟨S_, .i32⟩ : BufTy).Contents (Elt F) → (⟨S800000, .i32⟩ : BufTy).Contents (Elt F)),
    StableHlo.binary main_arg5 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_arg5 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v57 main_v58 (broadcastInDim S800000x1 ![0] bcast_S800000_S800000x1_0 : (⟨S800000, .i32⟩ : BufTy).Contents (Elt F) → (⟨S800000x1, .i32⟩ : BufTy).Contents (Elt F)),
    StableHlo.binary main_v52 main_v58 main_v59 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v60 (broadcastInDim S50000x128 ![] bcast_S_S50000x128 : (⟨S_, .f32⟩ : BufTy).Contents (Elt F) → (⟨S50000x128, .f32⟩ : BufTy).Contents (Elt F)),
    StableHlo.unary main_arg6 main_v61 (broadcastInDim S800000x1 ![0] bcast_S800000_S800000x1_0 : (⟨S800000, .i32⟩ : BufTy).Contents (Elt F) → (⟨S800000x1, .i32⟩ : BufTy).Contents (Elt F)),
    StableHlo.ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v62 main_v52 main_v63 (addf : (⟨S50000x128, .f32⟩ : BufTy).Contents (Elt F) → (⟨S50000x128, .f32⟩ : BufTy).Contents (Elt F) → (⟨S50000x128, .f32⟩ : BufTy).Contents (Elt F)),
    StableHlo.unary main_v8 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v63 main_v64 main_v65 (mulf : (⟨S50000x128, .f32⟩ : BufTy).Contents (Elt F) → (⟨S50000x128, .f32⟩ : BufTy).Contents (Elt F) → (⟨S50000x128, .f32⟩ : BufTy).Contents (Elt F)),
    StableHlo.unary main_arg1 main_v66 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v66 main_v67 rfl shapeCasts_S1x128x128_S128x128,
    StableHlo.binary main_v65 main_v67 main_v68 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v69 ((extractStridedSlice S1x128 ![1, 0] · slices_S3x128_S1x128_1_0) : (⟨S3x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v72 main_v73 (addf : (⟨S50000x128, .f32⟩ : BufTy).Contents (Elt F) → (⟨S50000x128, .f32⟩ : BufTy).Contents (Elt F) → (⟨S50000x128, .f32⟩ : BufTy).Contents (Elt F)),
    StableHlo.unary main_arg3 main_v74 ((extractStridedSlice S1x128 ![1, 0] · slices_S3x128_S1x128_1_0) : (⟨S3x128, .f32⟩ : BufTy).Contents (Elt F) → (⟨S1x128, .f32⟩ : BufTy).Contents (Elt F)),
    StableHlo.reshape main_v74 main_v75 rfl shapeCasts_S1x128_S128,
    StableHlo.unary main_arg4 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.nullary main_cst_12 (constant S_ .f32 0x00000000#32),
    StableHlo.binary main_v73 main_cst_12 main_v78 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v78 main_v79 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x43000000#32),
    StableHlo.unary main_cst_13 main_v80 (broadcastInDim S50000x1 ![] bcast_S_S50000x1 : (⟨S_, .f32⟩ : BufTy).Contents (Elt F) → (⟨S50000x1, .f32⟩ : BufTy).Contents (Elt F)),
    StableHlo.binary main_v79 main_v80 main_v81 (Host.divf : (⟨S50000x1, .f32⟩ : BufTy).Contents (Elt F) → (⟨S50000x1, .f32⟩ : BufTy).Contents (Elt F) → (⟨S50000x1, .f32⟩ : BufTy).Contents (Elt F)),
    StableHlo.nullary main_c_14 (constantI S_ 32 0#32),
    StableHlo.TRef.nullary main_call2.cst (constant S_ .f32 0x00000000#32),
    StableHlo.TRef.binary (.of main_v73) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary (.of main_v73) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v81 main_v83 (broadcastInDim S50000x128 ![0, 1] bcast_S50000x1_S50000x128_0_1 : (⟨S50000x1, .f32⟩ : BufTy).Contents (Elt F) → (⟨S50000x128, .f32⟩ : BufTy).Contents (Elt F)),
    StableHlo.binary main_v73 main_v83 main_v84 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v85 (broadcastInDim S50000x1 ![] bcast_S_S50000x1 : (⟨S_, .f32⟩ : BufTy).Contents (Elt F) → (⟨S50000x1, .f32⟩ : BufTy).Contents (Elt F)),
    StableHlo.binary main_v82 main_v85 main_v86 (addf : (⟨S50000x1, .f32⟩ : BufTy).Contents (Elt F) → (⟨S50000x1, .f32⟩ : BufTy).Contents (Elt F) → (⟨S50000x1, .f32⟩ : BufTy).Contents (Elt F)),
    StableHlo.unary main_v86 main_v87 (Host.rsqrt : (⟨S50000x1, .f32⟩ : BufTy).Contents (Elt F) → (⟨S50000x1, .f32⟩ : BufTy).Contents (Elt F)),
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v84 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_v75 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_v77 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v95) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v95) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v95) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v95) main_call3.v7 main_call3.call1.v0 select,
    StableHlo.nullary main_c_16 (constantI S_ 32 0#32),
    StableHlo.unary main_c_16 main_v97 (broadcastInDim S800000 ![] bcast_S_S800000 : (⟨S_, .i32⟩ : BufTy).Contents (Elt F) → (⟨S800000, .i32⟩ : BufTy).Contents (Elt F)),
    StableHlo.binary main_arg5 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v99 (broadcastInDim S800000 ![] bcast_S_S800000 : (⟨S_, .i32⟩ : BufTy).Contents (Elt F) → (⟨S800000, .i32⟩ : BufTy).Contents (Elt F)),
    StableHlo.binary main_arg5 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_arg5 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v104 (broadcastInDim S50000x128 ![] bcast_S_S50000x128 : (⟨S_, .f32⟩ : BufTy).Contents (Elt F) → (⟨S50000x128, .f32⟩ : BufTy).Contents (Elt F)),
    StableHlo.unary main_arg6 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v106 main_v96 main_v107 (addf : (⟨S50000x128, .f32⟩ : BufTy).Contents (Elt F) → (⟨S50000x128, .f32⟩ : BufTy).Contents (Elt F) → (⟨S50000x128, .f32⟩ : BufTy).Contents (Elt F)),
    StableHlo.unary main_v8 main_v108 (broadcastInDim S50000x128 ![0, 1] bcast_S50000x1_S50000x128_0_1 : (⟨S50000x1, .f32⟩ : BufTy).Contents (Elt F) → (⟨S50000x128, .f32⟩ : BufTy).Contents (Elt F)),
    StableHlo.binary main_v107 main_v108 main_v109 (mulf : (⟨S50000x128, .f32⟩ : BufTy).Contents (Elt F) → (⟨S50000x128, .f32⟩ : BufTy).Contents (Elt F) → (⟨S50000x128, .f32⟩ : BufTy).Contents (Elt F)),
    StableHlo.unary main_arg1 main_v110 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_1_0_0_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v113 ((extractStridedSlice S1x128 ![2, 0] · slices_S3x128_S1x128_2_0) : (⟨S3x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_arg3 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_arg4 main_v120 ((extractStridedSlice S1x128 ![2, 0] · slices_S3x128_S1x128_2_0) : (⟨S3x128, .f32⟩ : BufTy).Contents (Elt F) → (⟨S1x128, .f32⟩ : BufTy).Contents (Elt F)),
    StableHlo.reshape main_v120 main_v121 rfl shapeCasts_S1x128_S128,
    StableHlo.nullary main_cst_19 (constant S_ .f32 0x00000000#32),
    StableHlo.binary main_v117 main_cst_19 main_v122 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.nullary main_cst_20 (constant S_ .f32 0x43000000#32),
    StableHlo.unary main_cst_20 main_v124 (broadcastInDim S50000x1 ![] bcast_S_S50000x1 : (⟨S_, .f32⟩ : BufTy).Contents (Elt F) → (⟨S50000x1, .f32⟩ : BufTy).Contents (Elt F)),
    StableHlo.binary main_v123 main_v124 main_v125 (Host.divf : (⟨S50000x1, .f32⟩ : BufTy).Contents (Elt F) → (⟨S50000x1, .f32⟩ : BufTy).Contents (Elt F) → (⟨S50000x1, .f32⟩ : BufTy).Contents (Elt F)),
    StableHlo.nullary main_c_21 (constantI S_ 32 0#32),
    StableHlo.TRef.nullary main_call4.cst (constant S_ .f32 0x00000000#32),
    StableHlo.TRef.binary (.of main_v117) main_call4.cst main_call4.v0 (fun x v => Host.reduceAdd x v reducesTo_S50000x128_S50000_d1 h_S_),
    StableHlo.TRef.unary main_call4.v0 main_call4.v1 (broadcastInDim S50000x1 ![0] bcast_S50000_S50000x1_0),
    StableHlo.TRef.nullary main_call4.cst_0 (constant S_ .f32 0x43000000#32),
    StableHlo.TRef.unary main_call4.cst_0 main_call4.v2 (broadcastInDim S50000x1 ![] bcast_S_S50000x1),
    StableHlo.TRef.binary main_call4.v1 main_call4.v2 main_call4.v3 Host.divf,
    StableHlo.TRef.unary main_call4.v3 main_call4.v4 (broadcastInDim S50000x128 ![0, 1] bcast_S50000x1_S50000x128_0_1),
    StableHlo.TRef.binary (.of main_v117) main_call4.v4 main_call4.v5 subf,
    StableHlo.TRef.binary main_call4.v5 main_call4.v5 main_call4.v6 mulf,
    StableHlo.TRef.unary (.of main_c_21) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S50000_d1 h_S_),
    StableHlo.TRef.unary main_call4.v9 main_call4.v10 (broadcastInDim S50000x1 ![0] bcast_S50000_S50000x1_0),
    StableHlo.TRef.unary main_call4.v8 main_call4.v11 (broadcastInDim S50000x1 ![] bcast_S_S50000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S50000x1 ![] bcast_S_S50000x1),
    StableHlo.TRef.ternary main_call4.v13 main_call4.v12 main_call4.call0.v1 main_call4.call0.v2 (fun p a b => select (broadcastInDim S50000x1 ![] bcast_S_S50000x1 p) a b),
    StableHlo.unary main_v125 main_v127 (broadcastInDim S50000x128 ![0, 1] bcast_S50000x1_S50000x128_0_1 : (⟨S50000x1, .f32⟩ : BufTy).Contents (Elt F) → (⟨S50000x128, .f32⟩ : BufTy).Contents (Elt F)),
    StableHlo.binary main_v117 main_v127 main_v128 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v129 (broadcastInDim S50000x1 ![] bcast_S_S50000x1 : (⟨S_, .f32⟩ : BufTy).Contents (Elt F) → (⟨S50000x1, .f32⟩ : BufTy).Contents (Elt F)),
    StableHlo.binary main_v126 main_v129 main_v130 (addf : (⟨S50000x1, .f32⟩ : BufTy).Contents (Elt F) → (⟨S50000x1, .f32⟩ : BufTy).Contents (Elt F) → (⟨S50000x1, .f32⟩ : BufTy).Contents (Elt F)),
    StableHlo.unary main_v130 main_v131 (Host.rsqrt : (⟨S50000x1, .f32⟩ : BufTy).Contents (Elt F) → (⟨S50000x1, .f32⟩ : BufTy).Contents (Elt F)),
    StableHlo.unary main_v131 main_v132 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_v119 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (mulf : (⟨S50000x128, .f32⟩ : BufTy).Contents (Elt F) → (⟨S50000x128, .f32⟩ : BufTy).Contents (Elt F) → (⟨S50000x128, .f32⟩ : BufTy).Contents (Elt F)),
    StableHlo.unary main_v121 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v138 main_v139 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v139) main_call5.v0 main_call5.v1 (cmpf .ogt),
    StableHlo.TRef.nullary main_call5.cst_0 (constant S_ .f32 0x00000000#32),
    StableHlo.TRef.unary main_call5.cst_0 main_call5.v2 (broadcastInDim S50000x128 ![] bcast_S_S50000x128),
    StableHlo.TRef.binary (.of main_v139) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S50000x128 ![] bcast_S_S50000x128),
    StableHlo.TRef.ternary main_call5.v3 main_call5.call0.v1 (.of main_v139) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x128 ![] bcast_S_S50000x128),
    StableHlo.TRef.binary main_call5.v6 main_call5.v5 main_call5.v7 mulf,
    StableHlo.TRef.ternary main_call5.v1 (.of main_v139) main_call5.v7 main_call5.call1.v0 select,
    StableHlo.nullary main_c_23 (constantI S_ 32 0#32),
    StableHlo.unary main_c_23 main_v141 (broadcastInDim S4096 ![] bcast_S_S4096 : (⟨S_, .i32⟩ : BufTy).Contents (Elt F) → (⟨S4096, .i32⟩ : BufTy).Contents (Elt F)),
    StableHlo.binary main_arg7 main_v141 main_v142 (cmpi .slt : (⟨S4096, .i32⟩ : BufTy).Contents (Elt F) → (⟨S4096, .i32⟩ : BufTy).Contents (Elt F) → (⟨S4096, .i1⟩ : BufTy).Contents (Elt F)),
    StableHlo.nullary main_c_24 (constantI S_ 32 50000#32),
    StableHlo.unary main_c_24 main_v143 (broadcastInDim S4096 ![] bcast_S_S4096 : (⟨S_, .i32⟩ : BufTy).Contents (Elt F) → (⟨S4096, .i32⟩ : BufTy).Contents (Elt F)),
    StableHlo.binary main_arg7 main_v143 main_v144 (addi : (⟨S4096, .i32⟩ : BufTy).Contents (Elt F) → (⟨S4096, .i32⟩ : BufTy).Contents (Elt F) → (⟨S4096, .i32⟩ : BufTy).Contents (Elt F)),
    StableHlo.ternary main_v142 main_v144 main_arg7 main_v145 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v145 main_v146 (broadcastInDim S4096x1 ![0] bcast_S4096_S4096x1_0 : (⟨S4096, .i32⟩ : BufTy).Contents (Elt F) → (⟨S4096x1, .i32⟩ : BufTy).Contents (Elt F)),
    StableHlo.binary main_v140 main_v146 main_v147 ((fun x i => Host.gather gather_S50000x128_S4096x1_S4096x128_1_0_n_n_0_1_1128 x i) : (⟨S50000x128, .f32⟩ : BufTy).Contents (Elt F) → (⟨S4096x1, .i32⟩ : BufTy).Contents (Elt F) → (⟨S4096x128, .f32⟩ : BufTy).Contents (Elt F)) ]

/-- Each operation touches TensorCore references only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

end Cert.ReferenceIdeal.RefOps

end
-- ==== Proof.RefRun.lean ====
/-
  The reference's run: @main is the straight line of its host operations (the outlined variance, unit and selects
  unfolded at their calls), so every weakly fair execution terminates with every TensorCore buffer at the fold of
  those operations over the launch contents. The fold is then read in stages: the list is the inverse-degree column's
  operations, then each layer's, then the final gather's, and a fold over a concatenation is the folds in turn.
-/
import proofs.«133827_j60696477827758_1_alg».proof.Proof.RefOps
import proofs.«133827_j60696477827758_1_alg».proof.Proof.Gen.ReferenceIdeal

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

-- some three hundred binds re-associated: the rewrite under the chain recurses once per statement
set_option maxRecDepth 8192 in
set_option maxHeartbeats 4000000 in
/-- @main is that straight line: the three windows of @main in order, the outlined functions' definitions unfolded at
    their calls and the call records at their fields; both sides are one chain of host steps once sequencing is
    reassociated. -/
theorem main_eq (c : Dev nD) : main (F := F) c = seq ops := by
  simp only [main, main_part0, main_part1, main_part2, fn_var.body, fn_where.body, fn_elu.body, fn_where_0.body,
    fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has each
    TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The operations are the stages in order. -/
theorem ops_stages : (ops : List (HloOp τ sig (Elt F))) = opsDeg ++ (opsLayer0 ++ (opsLayer1 ++ (opsLayer2 ++ opsTake))) := rfl

/-- A fold over a concatenation is the fold over the first list, then over the second from there. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The fold over @main's operations, stage by stage. -/
theorem after_ops (V : Valuation τ sig (Elt F)) :
    after ops V = after opsTake (after opsLayer2 (after opsLayer1 (after opsLayer0 (after opsDeg V)))) := by
  rw [ops_stages, after_append, after_append, after_append, after_append]

end Cert.ReferenceIdeal.RefRun

end
-- ==== Proof.RefLayerDef.lean ====
/-
  The reference's layer as ONE pure term of its operands: the composition, operation by operation and in the program's
  own order, of what the reference applies to the summed neighbour features `neigh`, the node features `feats`, the
  inverse degree column `inv8`, and layer `l`'s weight, bias, scale and shift (each already sliced out of its stack
  and reshaped). `varTerm` is the outlined variance (the mean, the squared deviations, their sum over the row, the
  quotient by the row width less the degrees of freedom, guarded by that divisor being positive); `eluTerm` the
  outlined exponential linear unit.
-/
import proofs.«133827_j60696477827758_1_alg».proof.ReferenceIdeal

noncomputable section

namespace Cert.ReferenceIdeal.LayerTerm

open Cert.ReferenceIdeal Idealize.ShloMosaic

variable {F : FTy → Type} [FloatOps F] [Facts]
open Facts₀ Facts

/-- The outlined `jnp.var` of the rows of `x` with `ddof` degrees of freedom, kept as a column. -/
def varTerm (x : FVec F S50000x128 .f32) (ddof : IVec S_ 32) : FVec F S50000x1 .f32 :=
  let v0 : FVec F S50000 .f32 := Host.reduceAdd x (constant S_ .f32 0x00000000#32) reducesTo_S50000x128_S50000_d1 h_S_
  let v1 : FVec F S50000x1 .f32 := broadcastInDim S50000x1 ![0] bcast_S50000_S50000x1_0 v0
  let v2 : FVec F S50000x1 .f32 := broadcastInDim S50000x1 ![] bcast_S_S50000x1 (constant S_ .f32 0x43000000#32)
  let v3 : FVec F S50000x1 .f32 := Host.divf v1 v2
  let v4 : FVec F S50000x128 .f32 := broadcastInDim S50000x128 ![0, 1] bcast_S50000x1_S50000x128_0_1 v3
  let v5 : FVec F S50000x128 .f32 := subf x v4
  let v6 : FVec F S50000x128 .f32 := mulf v5 v5
  let v7 : FVec F S_ .f32 := sitofp .f32 ddof
  let v8 : FVec F S_ .f32 := subf (constant S_ .f32 0x43000000#32) v7
  let v9 : FVec F S50000 .f32 := Host.reduceAdd v6 (constant S_ .f32 0x00000000#32) reducesTo_S50000x128_S50000_d1 h_S_
  let v10 : FVec F S50000x1 .f32 := broadcastInDim S50000x1 ![0] bcast_S50000_S50000x1_0 v9
  let v11 : FVec F S50000x1 .f32 := broadcastInDim S50000x1 ![] bcast_S_S50000x1 v8
  let v12 : FVec F S50000x1 .f32 := Host.divf v10 v11
  let v13 : IVec S_ 1 := cmpf .ogt v8 (constant S_ .f32 0x00000000#32)
  let w0 : FVec F S_ .f32 := id (constant S_ .f32 0x7FC00000#32)
  let w1 : FVec F S50000x1 .f32 := broadcastInDim S50000x1 ![] bcast_S_S50000x1 w0
  select (broadcastInDim S50000x1 ![] bcast_S_S50000x1 v13) v12 w1

/-- The outlined `jax.nn.elu`. -/
def eluTerm (x : FVec F S50000x128 .f32) : FVec F S50000x128 .f32 :=
  let v0 : FVec F S50000x128 .f32 := broadcastInDim S50000x128 ![] bcast_S_S50000x128 (constant S_ .f32 0x00000000#32)
  let v1 : IVec S50000x128 1 := cmpf .ogt x v0
  let v2 : FVec F S50000x128 .f32 := broadcastInDim S50000x128 ![] bcast_S_S50000x128 (constant S_ .f32 0x00000000#32)
  let v3 : IVec S50000x128 1 := cmpf .ogt x v2
  let w0 : FVec F S_ .f32 := id (constant S_ .f32 0x00000000#32)
  let w1 : FVec F S50000x128 .f32 := broadcastInDim S50000x128 ![] bcast_S_S50000x128 w0
  let w2 : FVec F S50000x128 .f32 := select v3 w1 x
  let v5 : FVec F S50000x128 .f32 := Host.expm1 w2
  let v6 : FVec F S50000x128 .f32 := broadcastInDim S50000x128 ![] bcast_S_S50000x128 (constant S_ .f32 0x3F800000#32)
  let v7 : FVec F S50000x128 .f32 := mulf v6 v5
  select v1 x v7

/-- One layer of the reference: the self-inclusive mean, the linear map, the layer norm and the unit. -/
def layerTerm (neigh feats : FVec F S50000x128 .f32) (inv8 : FVec F S50000x1 .f32) (Wl : FVec F S128x128 .f32)
    (bl gl betal : FVec F S128 .f32) : FVec F S50000x128 .f32 :=
  let v19 : FVec F S50000x128 .f32 := addf neigh feats
  let v20 : FVec F S50000x128 .f32 := broadcastInDim S50000x128 ![0, 1] bcast_S50000x1_S50000x128_0_1 inv8
  let v21 : FVec F S50000x128 .f32 := mulf v19 v20
  let v24 : FVec F S50000x128 .f32 := Host.dotGeneral dot_S50000x128_S128x128_S50000x128_1_1_0_0_n_n none v21 Wl
  let v27 : FVec F S1x128 .f32 := broadcastInDim S1x128 ![1] bcast_S128_S1x128_1 bl
  let v28 : FVec F S50000x128 .f32 := broadcastInDim S50000x128 ![0, 1] bcast_S1x128_S50000x128_0_1 v27
  let v29 : FVec F S50000x128 .f32 := addf v24 v28
  let v34 : FVec F S50000 .f32 := Host.reduceAdd v29 (constant S_ .f32 0x00000000#32) reducesTo_S50000x128_S50000_d1 h_S_
  let v35 : FVec F S50000x1 .f32 := broadcastInDim S50000x1 ![0] bcast_S50000_S50000x1_0 v34
  let v36 : FVec F S50000x1 .f32 := broadcastInDim S50000x1 ![] bcast_S_S50000x1 (constant S_ .f32 0x43000000#32)
  let v37 : FVec F S50000x1 .f32 := Host.divf v35 v36
  let v38 : FVec F S50000x1 .f32 := varTerm v29 (constantI S_ 32 0#32)
  let v39 : FVec F S50000x128 .f32 := broadcastInDim S50000x128 ![0, 1] bcast_S50000x1_S50000x128_0_1 v37
  let v40 : FVec F S50000x128 .f32 := subf v29 v39
  let v41 : FVec F S50000x1 .f32 := broadcastInDim S50000x1 ![] bcast_S_S50000x1 (constant S_ .f32 0x3727C5AC#32)
  let v42 : FVec F S50000x1 .f32 := addf v38 v41
  let v43 : FVec F S50000x1 .f32 := Host.rsqrt v42
  let v44 : FVec F S50000x128 .f32 := broadcastInDim S50000x128 ![0, 1] bcast_S50000x1_S50000x128_0_1 v43
  let v45 : FVec F S50000x128 .f32 := mulf v40 v44
  let v46 : FVec F S1x128 .f32 := broadcastInDim S1x128 ![1] bcast_S128_S1x128_1 gl
  let v47 : FVec F S50000x128 .f32 := broadcastInDim S50000x128 ![0, 1] bcast_S1x128_S50000x128_0_1 v46
  let v48 : FVec F S50000x128 .f32 := mulf v45 v47
  let v49 : FVec F S1x128 .f32 := broadcastInDim S1x128 ![1] bcast_S128_S1x128_1 betal
  let v50 : FVec F S50000x128 .f32 := broadcastInDim S50000x128 ![0, 1] bcast_S1x128_S50000x128_0_1 v49
  let v51 : FVec F S50000x128 .f32 := addf v48 v50
  eluTerm v51

end Cert.ReferenceIdeal.LayerTerm

end
-- ==== Proof.RefStages.lean ====
/-
  The reference's stages read as pure terms, each over an arbitrary valuation of the buffers so that they compose: the
  inverse in-degree column; each layer — the features gathered at the edge sources and summed at the destinations, the
  layer's weight, bias, scale and shift sliced out of their stacks, and the layer's own operations on them —; and the
  final gather of the requested nodes' rows.
-/
import proofs.«133827_j60696477827758_1_alg».proof.Proof.RefOps
import proofs.«133827_j60696477827758_1_alg».proof.Proof.RefLayerDef
import proofs.«133827_j60696477827758_1_alg».proof.Proof.Gen.ReferenceIdeal

noncomputable section

namespace Cert.ReferenceIdeal.Stages

open Cert.ReferenceIdeal Cert.ReferenceIdeal.Gen Cert.ReferenceIdeal.RefOps Cert.ReferenceIdeal.LayerTerm
open Idealize.ShloMosaic Idealize.ShloMosaic.TcCoe Idealize.ShloMosaic.StableHlo

variable {F : FTy → Type} [FloatOps F]

/-- The inverse of the in-degree plus one, per node: the destinations' ones summed into a zero vector, plus one, inverted. -/
def invVec (dst : IVec S800000 32) : FVec F S50000 .f32 :=
  Host.divf (broadcastInDim S50000 ![] bcast_S_S50000 (constant S_ .f32 0x3F800000#32))
    (addf (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The edge sources as gather indices: a negative index wraps by the node count. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sum over each node's in-edges of the source's feature row: rows gathered at the sources, summed at the
    destinations into a zero matrix. -/
def neigh (feats : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 feats (srcIdx src))

/-- The feature rows of the requested nodes (a negative index wraps by the node count). -/
def take (feats : FVec F S50000x128 .f32) (uid : IVec S4096 32) : FVec F S4096x128 .f32 :=
  Host.gather gather_S50000x128_S4096x1_S4096x128_1_0_n_n_0_1_1128 feats
    (broadcastInDim S4096x1 ![0] bcast_S4096_S4096x1_0
      (select (cmpi .slt uid (broadcastInDim S4096 ![] bcast_S_S4096 (constantI S_ 32 0#32)))
        (addi uid (broadcastInDim S4096 ![] bcast_S_S4096 (constantI S_ 32 50000#32))) uid))

/-- Layer 0's weight matrix, sliced out of the stack. -/
def weight0 (W : FVec F S3x128x128 .f32) : FVec F S128x128 .f32 :=
  shapeCast S128x128 (extractStridedSlice S1x128x128 ![0, 0, 0] W slices_S3x128x128_S1x128x128_0_0_0) shapeCasts_S1x128x128_S128x128

/-- Row 0 of a stack of three vectors. -/
def vec0 (b : FVec F S3x128 .f32) : FVec F S128 .f32 :=
  shapeCast S128 (extractStridedSlice S1x128 ![0, 0] b slices_S3x128_S1x128_0_0) shapeCasts_S1x128_S128

/-- Layer 1's weight matrix, sliced out of the stack. -/
def weight1 (W : FVec F S3x128x128 .f32) : FVec F S128x128 .f32 :=
  shapeCast S128x128 (extractStridedSlice S1x128x128 ![1, 0, 0] W slices_S3x128x128_S1x128x128_1_0_0) shapeCasts_S1x128x128_S128x128

/-- Row 1 of a stack of three vectors. -/
def vec1 (b : FVec F S3x128 .f32) : FVec F S128 .f32 :=
  shapeCast S128 (extractStridedSlice S1x128 ![1, 0] b slices_S3x128_S1x128_1_0) shapeCasts_S1x128_S128

/-- Layer 2's weight matrix, sliced out of the stack. -/
def weight2 (W : FVec F S3x128x128 .f32) : FVec F S128x128 .f32 :=
  shapeCast S128x128 (extractStridedSlice S1x128x128 ![2, 0, 0] W slices_S3x128x128_S1x128x128_2_0_0) shapeCasts_S1x128x128_S128x128

/-- Row 2 of a stack of three vectors. -/
def vec2 (b : FVec F S3x128 .f32) : FVec F S128 .f32 :=
  shapeCast S128 (extractStridedSlice S1x128 ![2, 0] b slices_S3x128_S1x128_2_0) shapeCasts_S1x128_S128

/-- The inverse degrees as a column (a broadcast along a new unit axis). -/
def invCol (dst : IVec S800000 32) : FVec F S50000x1 .f32 :=
  broadcastInDim S50000x1 ![0] bcast_S50000_S50000x1_0 (invVec (F := F) dst)

variable (V : Valuation τ sig (Elt F))

attribute [local irreducible] Host.gather Host.scatterAdd

/-! ## The inverse-degree column -/

theorem deg_inv : after opsDeg V (main_v8 : DevRef τ sig) = invCol (V (main_arg6 : DevRef τ sig)) := by
  after_results; rfl
theorem deg_arg0 : after opsDeg V (main_arg0 : DevRef τ sig) = V (main_arg0 : DevRef τ sig) := by after_results
theorem deg_arg1 : after opsDeg V (main_arg1 : DevRef τ sig) = V (main_arg1 : DevRef τ sig) := by after_results
theorem deg_arg2 : after opsDeg V (main_arg2 : DevRef τ sig) = V (main_arg2 : DevRef τ sig) := by after_results
theorem deg_arg3 : after opsDeg V (main_arg3 : DevRef τ sig) = V (main_arg3 : DevRef τ sig) := by after_results
theorem deg_arg4 : after opsDeg V (main_arg4 : DevRef τ sig) = V (main_arg4 : DevRef τ sig) := by after_results
theorem deg_arg5 : after opsDeg V (main_arg5 : DevRef τ sig) = V (main_arg5 : DevRef τ sig) := by after_results
theorem deg_arg6 : after opsDeg V (main_arg6 : DevRef τ sig) = V (main_arg6 : DevRef τ sig) := by after_results
theorem deg_arg7 : after opsDeg V (main_arg7 : DevRef τ sig) = V (main_arg7 : DevRef τ sig) := by after_results

/-! ## Layer 0 -/

set_option maxRecDepth 8192 in
set_option maxHeartbeats 1000000 in
theorem layer0_out : after opsLayer0 V (main_v52 : DevRef τ sig)
    = layerTerm (neigh (V (main_arg0 : DevRef τ sig)) (V (main_arg5 : DevRef τ sig)) (V (main_arg6 : DevRef τ sig))) (V (main_arg0 : DevRef τ sig)) (V (main_v8 : DevRef τ sig))
        (weight0 (V (main_arg1 : DevRef τ sig))) (vec0 (V (main_arg2 : DevRef τ sig))) (vec0 (V (main_arg3 : DevRef τ sig))) (vec0 (V (main_arg4 : DevRef τ sig))) := by
  after_results_simp
  rfl
theorem layer0_inv : after opsLayer0 V (main_v8 : DevRef τ sig) = V (main_v8 : DevRef τ sig) := by after_results_simp
theorem layer0_arg1 : after opsLayer0 V (main_arg1 : DevRef τ sig) = V (main_arg1 : DevRef τ sig) := by after_results_simp
theorem layer0_arg2 : after opsLayer0 V (main_arg2 : DevRef τ sig) = V (main_arg2 : DevRef τ sig) := by after_results_simp
theorem layer0_arg3 : after opsLayer0 V (main_arg3 : DevRef τ sig) = V (main_arg3 : DevRef τ sig) := by after_results_simp
theorem layer0_arg4 : after opsLayer0 V (main_arg4 : DevRef τ sig) = V (main_arg4 : DevRef τ sig) := by after_results_simp
theorem layer0_arg5 : after opsLayer0 V (main_arg5 : DevRef τ sig) = V (main_arg5 : DevRef τ sig) := by after_results_simp
theorem layer0_arg6 : after opsLayer0 V (main_arg6 : DevRef τ sig) = V (main_arg6 : DevRef τ sig) := by after_results_simp
theorem layer0_arg7 : after opsLayer0 V (main_arg7 : DevRef τ sig) = V (main_arg7 : DevRef τ sig) := by after_results_simp

/-! ## Layer 1 -/

set_option maxRecDepth 8192 in
set_option maxHeartbeats 1000000 in
theorem layer1_out : after opsLayer1 V (main_v96 : DevRef τ sig)
    = layerTerm (neigh (V (main_v52 : DevRef τ sig)) (V (main_arg5 : DevRef τ sig)) (V (main_arg6 : DevRef τ sig))) (V (main_v52 : DevRef τ sig)) (V (main_v8 : DevRef τ sig))
        (weight1 (V (main_arg1 : DevRef τ sig))) (vec1 (V (main_arg2 : DevRef τ sig))) (vec1 (V (main_arg3 : DevRef τ sig))) (vec1 (V (main_arg4 : DevRef τ sig))) := by
  after_results_simp
  rfl
theorem layer1_inv : after opsLayer1 V (main_v8 : DevRef τ sig) = V (main_v8 : DevRef τ sig) := by after_results_simp
theorem layer1_arg1 : after opsLayer1 V (main_arg1 : DevRef τ sig) = V (main_arg1 : DevRef τ sig) := by after_results_simp
theorem layer1_arg2 : after opsLayer1 V (main_arg2 : DevRef τ sig) = V (main_arg2 : DevRef τ sig) := by after_results_simp
theorem layer1_arg3 : after opsLayer1 V (main_arg3 : DevRef τ sig) = V (main_arg3 : DevRef τ sig) := by after_results_simp
theorem layer1_arg4 : after opsLayer1 V (main_arg4 : DevRef τ sig) = V (main_arg4 : DevRef τ sig) := by after_results_simp
theorem layer1_arg5 : after opsLayer1 V (main_arg5 : DevRef τ sig) = V (main_arg5 : DevRef τ sig) := by after_results_simp
theorem layer1_arg6 : after opsLayer1 V (main_arg6 : DevRef τ sig) = V (main_arg6 : DevRef τ sig) := by after_results_simp
theorem layer1_arg7 : after opsLayer1 V (main_arg7 : DevRef τ sig) = V (main_arg7 : DevRef τ sig) := by after_results_simp

/-! ## Layer 2 -/

set_option maxRecDepth 8192 in
set_option maxHeartbeats 1000000 in
theorem layer2_out : after opsLayer2 V (main_v140 : DevRef τ sig)
    = layerTerm (neigh (V (main_v96 : DevRef τ sig)) (V (main_arg5 : DevRef τ sig)) (V (main_arg6 : DevRef τ sig))) (V (main_v96 : DevRef τ sig)) (V (main_v8 : DevRef τ sig))
        (weight2 (V (main_arg1 : DevRef τ sig))) (vec2 (V (main_arg2 : DevRef τ sig))) (vec2 (V (main_arg3 : DevRef τ sig))) (vec2 (V (main_arg4 : DevRef τ sig))) := by
  after_results_simp
  rfl
theorem layer2_inv : after opsLayer2 V (main_v8 : DevRef τ sig) = V (main_v8 : DevRef τ sig) := by after_results_simp
theorem layer2_arg1 : after opsLayer2 V (main_arg1 : DevRef τ sig) = V (main_arg1 : DevRef τ sig) := by after_results_simp
theorem layer2_arg2 : after opsLayer2 V (main_arg2 : DevRef τ sig) = V (main_arg2 : DevRef τ sig) := by after_results_simp
theorem layer2_arg3 : after opsLayer2 V (main_arg3 : DevRef τ sig) = V (main_arg3 : DevRef τ sig) := by after_results_simp
theorem layer2_arg4 : after opsLayer2 V (main_arg4 : DevRef τ sig) = V (main_arg4 : DevRef τ sig) := by after_results_simp
theorem layer2_arg5 : after opsLayer2 V (main_arg5 : DevRef τ sig) = V (main_arg5 : DevRef τ sig) := by after_results_simp
theorem layer2_arg6 : after opsLayer2 V (main_arg6 : DevRef τ sig) = V (main_arg6 : DevRef τ sig) := by after_results_simp
theorem layer2_arg7 : after opsLayer2 V (main_arg7 : DevRef τ sig) = V (main_arg7 : DevRef τ sig) := by after_results_simp

/-! ## The requested rows -/

theorem take_out : after opsTake V (main_v147 : DevRef τ sig) = take (V (main_v140 : DevRef τ sig)) (V (main_arg7 : DevRef τ sig)) := by
  after_results; rfl

end Cert.ReferenceIdeal.Stages

end
-- ==== Proof.RefWhole.lean ====
/-
  The idealized reference's result as ONE function of its arguments: three layers, each the reference's layer term on the
  current features, their sums over in-edges, the inverse-degree column and that layer's weight, bias, scale and shift;
  then the requested nodes' rows.
-/
import proofs.«133827_j60696477827758_1_alg».proof.Proof.RefStages
import Idealize.ShloMosaic.PureOps.Ideal

noncomputable section

namespace Cert.ReferenceIdeal.Whole

open Cert.ReferenceIdeal Cert.ReferenceIdeal.Gen Cert.ReferenceIdeal.Stages Cert.ReferenceIdeal.LayerTerm Idealize.ShloMosaic

/-- Layer 0 on the features `x`. -/
def layer0 (x : FVec Ideal S50000x128 .f32) (W : FVec Ideal S3x128x128 .f32) (b g β : FVec Ideal S3x128 .f32)
    (src dst : IVec S800000 32) : FVec Ideal S50000x128 .f32 :=
  layerTerm (F := Ideal) (neigh x src dst) x (invCol dst) (weight0 W) (vec0 b) (vec0 g) (vec0 β)

/-- Layer 1 on the features `x`. -/
def layer1 (x : FVec Ideal S50000x128 .f32) (W : FVec Ideal S3x128x128 .f32) (b g β : FVec Ideal S3x128 .f32)
    (src dst : IVec S800000 32) : FVec Ideal S50000x128 .f32 :=
  layerTerm (F := Ideal) (neigh x src dst) x (invCol dst) (weight1 W) (vec1 b) (vec1 g) (vec1 β)

/-- Layer 2 on the features `x`. -/
def layer2 (x : FVec Ideal S50000x128 .f32) (W : FVec Ideal S3x128x128 .f32) (b g β : FVec Ideal S3x128 .f32)
    (src dst : IVec S800000 32) : FVec Ideal S50000x128 .f32 :=
  layerTerm (F := Ideal) (neigh x src dst) x (invCol dst) (weight2 W) (vec2 b) (vec2 g) (vec2 β)

/-- The result: the requested rows of the third layer's output. -/
def out (emb : FVec Ideal S50000x128 .f32) (W : FVec Ideal S3x128x128 .f32) (b g β : FVec Ideal S3x128 .f32)
    (src dst : IVec S800000 32) (uid : IVec S4096 32) : FVec Ideal S4096x128 .f32 :=
  take (layer2 (layer1 (layer0 emb W b g β src dst) W b g β src dst) W b g β src dst) uid

end Cert.ReferenceIdeal.Whole

end
-- ==== Proof.RefValue.lean ====
/-
  The reference's run WITH its result: the fold of @main's operations over the launch contents, read stage by stage, is
  the whole-output function of the argument arrays; no operation writes an argument.
-/
import proofs.«133827_j60696477827758_1_alg».proof.Proof.RefRun
import proofs.«133827_j60696477827758_1_alg».proof.Proof.RefWhole

noncomputable section

namespace Cert.ReferenceIdeal.RefValue

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

/-- The result buffer after @main: the inverse-degree column feeds each layer, each layer's output the next, the last
    one the final gather; the arguments are read back unchanged through every stage. -/
theorem after_out (V : Valuation τ sig (Elt Ideal)) :
    after ops V (main_v147 : DevRef τ sig)
      = Whole.out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [RefRun.after_ops, take_out, layer2_out, layer2_arg7,
    layer1_out, layer1_inv, layer1_arg1, layer1_arg2, layer1_arg3, layer1_arg4, layer1_arg5, layer1_arg6, layer1_arg7,
    layer0_out, layer0_inv, layer0_arg1, layer0_arg2, layer0_arg3, layer0_arg4, layer0_arg5, layer0_arg6, layer0_arg7,
    deg_inv, deg_arg0, deg_arg1, deg_arg2, deg_arg3, deg_arg4, deg_arg5, deg_arg6, deg_arg7]
  rfl

set_option maxRecDepth 8192 in
set_option maxHeartbeats 2000000 in
theorem after_arg0 (V : Valuation τ sig (Elt Ideal)) : after ops V (main_arg0 : DevRef τ sig) = V (main_arg0 : DevRef τ sig) := by
  after_results_simp

set_option maxRecDepth 8192 in
set_option maxHeartbeats 2000000 in
theorem after_arg1 (V : Valuation τ sig (Elt Ideal)) : after ops V (main_arg1 : DevRef τ sig) = V (main_arg1 : DevRef τ sig) := by
  after_results_simp

set_option maxRecDepth 8192 in
set_option maxHeartbeats 2000000 in
theorem after_arg2 (V : Valuation τ sig (Elt Ideal)) : after ops V (main_arg2 : DevRef τ sig) = V (main_arg2 : DevRef τ sig) := by
  after_results_simp

set_option maxRecDepth 8192 in
set_option maxHeartbeats 2000000 in
theorem after_arg3 (V : Valuation τ sig (Elt Ideal)) : after ops V (main_arg3 : DevRef τ sig) = V (main_arg3 : DevRef τ sig) := by
  after_results_simp

set_option maxRecDepth 8192 in
set_option maxHeartbeats 2000000 in
theorem after_arg4 (V : Valuation τ sig (Elt Ideal)) : after ops V (main_arg4 : DevRef τ sig) = V (main_arg4 : DevRef τ sig) := by
  after_results_simp

set_option maxRecDepth 8192 in
set_option maxHeartbeats 2000000 in
theorem after_arg5 (V : Valuation τ sig (Elt Ideal)) : after ops V (main_arg5 : DevRef τ sig) = V (main_arg5 : DevRef τ sig) := by
  after_results_simp

set_option maxRecDepth 8192 in
set_option maxHeartbeats 2000000 in
theorem after_arg6 (V : Valuation τ sig (Elt Ideal)) : after ops V (main_arg6 : DevRef τ sig) = V (main_arg6 : DevRef τ sig) := by
  after_results_simp

set_option maxRecDepth 8192 in
set_option maxHeartbeats 2000000 in
theorem after_arg7 (V : Valuation τ sig (Elt Ideal)) : after ops V (main_arg7 : DevRef τ sig) = V (main_arg7 : DevRef τ sig) := by
  after_results_simp

/-- From any memory with zero counters every weakly fair execution of the reference terminates, its result buffer at the
    whole-output function of the launched arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147)
        = Whole.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v147).trans (after_out _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (RefRun.run m ρ)

end Cert.ReferenceIdeal.RefValue

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibHostRows.lean ====
/-
  A host program's sums over a whole vector or a whole column, and its product of a matrix with a transposed matrix,
  read by coordinates on the extended reals.

  `jnp.sum` of a vector `[a]`, or of a column `[a, 1]`, down to a scalar is the initial value plus the sum of the
  entries, `i` running over `Fin a`. For `A : [M, K]` and `B : [N, K]` a `dot_general` contracting the last axis of both
  (`A · Bᵀ`, `jnp.einsum('id,jd->ij', A, B)`) is, at `(i, j)`, the sum over `k : Fin K` of `A (i, k) · B (j, k)`.
-/
import Idealize.ShloMosaic.Lib.ValueIdx
import Idealize.ShloMosaic.PureOps.Ideal.Laws
import proofs.«133827_j60696477827758_1_alg».proof.Proof.LibMatmulNT

noncomputable section

open scoped BigOperators

namespace Cert.LibHostRows

open Idealize.ShloMosaic Idealize.ShloMosaic.ValueIdx

/-- A rank-1 index is its one coordinate. -/
def idxEquiv1 {n : ℕ} : (⟨1, ![n]⟩ : Shape).Idx ≃ Fin n where
  toFun i := i 0
  invFun a := ix1 a
  left_inv i := (eq_ix1 i).symm
  right_inv _ := rfl

/-- A sum over the indices of a vector is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over the indices of a column `[a, 1]` is the sum down the column. -/
theorem sum_idx_col {M : Type*} [AddCommMonoid M] {a : ℕ} (f : (⟨2, ![a, 1]⟩ : Shape).Idx → M) :
    ∑ i, f i = ∑ p : Fin a, f (ix2 p (0 : Fin 1)) := by
  rw [sum_idx2]
  refine Finset.sum_congr rfl fun p _ => ?_
  rw [Fin.sum_univ_one]

/-- The host's sum of a vector `[a]` down to a scalar, at the ideal values: the initial value plus the sum of the
    entries. -/
theorem hostReduceAdd_vec_total {a : ℕ} {φ : FTy} {u : Shape} (x : FVec Ideal ⟨1, ![a]⟩ φ) (init : u.Idx → Ideal φ)
    (h' : (⟨1, ![a]⟩ : Shape).ReducesTo [0] ⟨0, ![]⟩) (hu : 0 < u.numel) (j : (⟨0, ![]⟩ : Shape).Idx) :
    Host.reduceAdd x init h' hu j = init (Shape.Idx.first hu) + ∑ i : Fin a, x (ix1 i) := by
  simp only [Host.reduceAdd, Ideal.hostReduceAdd_def]
  rw [Ideal.hostReduceAdd_total h' (fun b => b.elim0)]
  exact congrArg (_ + ·) (sum_idx1 x)

/-- The host's sum of a column `[a, 1]` over both axes down to a scalar: the initial value plus the sum down the
    column. -/
theorem hostReduceAdd_col_total {a : ℕ} {φ : FTy} {u : Shape} (x : FVec Ideal ⟨2, ![a, 1]⟩ φ) (init : u.Idx → Ideal φ)
    (h' : (⟨2, ![a, 1]⟩ : Shape).ReducesTo [0, 1] ⟨0, ![]⟩) (hu : 0 < u.numel) (j : (⟨0, ![]⟩ : Shape).Idx) :
    Host.reduceAdd x init h' hu j = init (Shape.Idx.first hu) + ∑ p : Fin a, x (ix2 p (0 : Fin 1)) := by
  simp only [Host.reduceAdd, Ideal.hostReduceAdd_def]
  rw [Ideal.hostReduceAdd_total h' (fun b => b.elim0)]
  exact congrArg (_ + ·) (sum_idx_col x)

variable {M N K : Nat}

/-- The host's `A · Bᵀ`, at `(i, j)`, is `Σ_k A[i, k] · B[j, k]`. -/
theorem hostDot_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    Host.dotGeneral d prec A B (ix2 i j) = ∑ k : Fin K, A (ix2 i k) * B (ix2 j k) := by
  have hr := Cert.LibMatmulNT.contr_rank d hlc
  have hs := Cert.LibMatmulNT.contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact Cert.LibMatmulNT.lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact Cert.LibMatmulNT.rhsIdx_row d hlb hrb hln hrn _ _
    | ⟨1, _⟩ => exact (d.rhsIdx_val_of_single hrc _ _).trans hk)
  rw [el, er]

end Cert.LibHostRows

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.RefLayer.lean ====
/-
  The reference's layer, read at an index.

  One layer of the reference is a chain of whole-matrix operations: the self-inclusive neighbourhood mean (a sum, a
  column of inverse degrees broadcast along the rows, a product), a product with the transposed weight and a bias
  broadcast down the rows, a layer norm (row sums kept as columns, quotients by the row width, squared deviations,
  a reciprocal square root, a scale and a shift broadcast down the rows) and the exponential linear unit. Read at
  `(p, q)`, every broadcast picks the entry of its operand at row `p` or at column `q`, every row sum is a sum over
  `Fin 128`, and the chain is the row-by-row layer of `Cert.Sage` applied to the averaged row of node `p`.
-/
import proofs.«133827_j60696477827758_1_alg».proof.Proof.RefLayerDef
import proofs.«133827_j60696477827758_1_alg».proof.Proof.RowSpec
import proofs.«133827_j60696477827758_1_alg».proof.Proof.Consts
import proofs.«133827_j60696477827758_1_alg».proof.Proof.LibHostRows
import proofs.«133827_j60696477827758_1_alg».proof.Proof.LibHostKeepdims
import Idealize.ShloMosaic.Lib.ValueIdx
import Idealize.ShloMosaic.PureOps.Ideal.Laws

noncomputable section

open scoped BigOperators

namespace Cert.ReferenceIdeal.LayerRead

open Cert.ReferenceIdeal Cert.ReferenceIdeal.LayerTerm Idealize.ShloMosaic Idealize.ShloMosaic.ValueIdx

variable [Facts]
open Facts₀ Facts

/-- The rows of a matrix are what is left when its second axis is summed away, also in the sense that names the
    summed coordinate. -/
theorem reduces_rows : S50000x128.Reduces [1] S50000 := by
  obtain ⟨h, hb⟩ := (reducesTo_S50000x128_S50000_d1 : S50000x128.ReducesTo [1] S50000)
  exact ⟨h, Nat.one_pos, hb⟩

/-- The row sum from `+0.0`, at row `p`: the sum of the row. -/
theorem rowSum_apply (x : FVec Ideal S50000x128 .f32) (p : Fin 50000) :
    Host.reduceAdd x (constant (F := Ideal) S_ .f32 0x00000000#32) reducesTo_S50000x128_S50000_d1 h_S_ (ix1 p)
      = ∑ e : Fin 128, x (ix2 p e) := by
  refine (hostReduceAdd_rows_apply x _ reducesTo_S50000x128_S50000_d1 reduces_rows h_S_ p).trans ?_
  rw [constant_apply, Cert.Sage.Consts.ofBits_zero, zero_add]

/-- A column broadcast along the rows reads, at `(p, q)`, the column at row `p`. -/
theorem colBcast_apply (c : FVec Ideal S50000x1 .f32) (p : Fin 50000) (q : Fin 128) :
    broadcastInDim S50000x128 ![0, 1] bcast_S50000x1_S50000x128_0_1 c (ix2 p q) = c (ix2 p (0 : Fin 1)) :=
  broadcastInDim_a1_ab_apply _ _ rfl c p q

/-- A vector of per-column values broadcast down the rows reads, at `(p, q)`, the vector at `q`. -/
theorem rowBcast_apply (g : FVec Ideal S128 .f32) (p : Fin 50000) (q : Fin 128) :
    broadcastInDim S50000x128 ![0, 1] bcast_S1x128_S50000x128_0_1
      (broadcastInDim S1x128 ![1] bcast_S128_S1x128_1 g) (ix2 p q) = g (ix1 q) :=
  (broadcastInDim_1b_ab_apply _ _ rfl _ p q).trans (broadcastInDim_b_1b_apply _ _ rfl g 0 q)

/-- A row sum kept as a column reads, at `(p, 0)`, the sum of row `p`. -/
theorem sumCol_apply (x : FVec Ideal S50000x128 .f32) (p : Fin 50000) :
    broadcastInDim S50000x1 ![0] bcast_S50000_S50000x1_0
      (Host.reduceAdd x (constant (F := Ideal) S_ .f32 0x00000000#32) reducesTo_S50000x128_S50000_d1 h_S_)
      (ix2 p (0 : Fin 1)) = ∑ e : Fin 128, x (ix2 p e) :=
  (broadcastInDim_a_a1_apply _ _ rfl _ p 0).trans (rowSum_apply x p)

/-- A scalar broadcast to a column reads the scalar everywhere. -/
theorem scalarCol_apply (c : FVec Ideal S_ .f32) (p : Fin 50000) :
    broadcastInDim S50000x1 ![] bcast_S_S50000x1 c (ix2 p (0 : Fin 1)) = c ix0 :=
  broadcastInDim_scalar_apply _ _ c _

/-- The row mean kept as a column reads, at `(p, 0)`, the sum of row `p` over the row width. -/
theorem meanCol_apply (x : FVec Ideal S50000x128 .f32) (p : Fin 50000) :
    Host.divf
      (broadcastInDim S50000x1 ![0] bcast_S50000_S50000x1_0
        (Host.reduceAdd x (constant (F := Ideal) S_ .f32 0x00000000#32) reducesTo_S50000x128_S50000_d1 h_S_))
      (broadcastInDim S50000x1 ![] bcast_S_S50000x1 (constant (F := Ideal) S_ .f32 0x43000000#32))
      (ix2 p (0 : Fin 1))
      = Ideal.div (∑ e : Fin 128, x (ix2 p e)) Cert.Sage.w128 := by
  show Ideal.div _ _ = _
  rw [sumCol_apply, scalarCol_apply]
  rfl

/-- The guard of the variance's quotient: the row width less zero degrees of freedom is positive. -/
theorem guard_open :
    Ideal.cmp .ogt (Ideal.ofBits .f32 0x43000000#32 - ((((0#32 : BitVec 32).toInt : ℤ) : ℝ) : EReal))
      (Ideal.ofBits .f32 0x00000000#32) = 1#1 := by
  rw [Cert.Sage.Consts.width_sub_zero]
  show BitVec.ofBool (decide (Ideal.ofBits .f32 0x00000000#32 < Ideal.ofBits .f32 0x43000000#32)) = 1#1
  rw [decide_eq_true Cert.Sage.Consts.zero_lt_width]
  rfl

/-- The outlined variance with zero degrees of freedom reads, at `(p, 0)`, the sum over the row of the squared
    deviations from the row mean, over the row width. -/
theorem varTerm_apply (x : FVec Ideal S50000x128 .f32) (p : Fin 50000) :
    varTerm (F := Ideal) x (constantI S_ 32 0#32) (ix2 p (0 : Fin 1))
      = Ideal.div (∑ e : Fin 128,
          (x (ix2 p e) - Ideal.div (∑ e : Fin 128, x (ix2 p e)) Cert.Sage.w128)
            * (x (ix2 p e) - Ideal.div (∑ e : Fin 128, x (ix2 p e)) Cert.Sage.w128)) Cert.Sage.w128 := by
  unfold varTerm
  rw [select_apply, scalarCol_apply]
  show Scalar.select (Ideal.cmp .ogt (Ideal.ofBits .f32 0x43000000#32 - ((((0#32 : BitVec 32).toInt : ℤ) : ℝ) : EReal))
      (Ideal.ofBits .f32 0x00000000#32)) _ _ = _
  rw [guard_open, select_one]
  show Ideal.div _ _ = _
  rw [sumCol_apply, scalarCol_apply]
  show Ideal.div _ (Ideal.ofBits .f32 0x43000000#32 - ((((0#32 : BitVec 32).toInt : ℤ) : ℝ) : EReal)) = _
  rw [Cert.Sage.Consts.width_sub_zero]
  refine congrArg (Ideal.div · _) (Finset.sum_congr rfl fun e _ => ?_)
  show (x (ix2 p e) - _) * (x (ix2 p e) - _) = _
  rw [colBcast_apply, meanCol_apply]

/-- The outlined exponential linear unit reads, at any index, the unit of the entry. -/
theorem eluTerm_apply (x : FVec Ideal S50000x128 .f32) (j : S50000x128.Idx) :
    eluTerm (F := Ideal) x j = Cert.Sage.elu (x j) := by
  unfold eluTerm Cert.Sage.elu
  rw [select_apply]
  show Scalar.select (Ideal.cmp .ogt (x j) (broadcastInDim S50000x128 ![] bcast_S_S50000x128 (constant (F := Ideal) S_ .f32 0x00000000#32) j))
      (x j) (broadcastInDim S50000x128 ![] bcast_S_S50000x128 (constant (F := Ideal) S_ .f32 0x3F800000#32) j
        * (Ideal.exp (Scalar.select (Ideal.cmp .ogt (x j) (broadcastInDim S50000x128 ![] bcast_S_S50000x128 (constant (F := Ideal) S_ .f32 0x00000000#32) j))
            (broadcastInDim S50000x128 ![] bcast_S_S50000x128 (constant (F := Ideal) S_ .f32 0x00000000#32) j) (x j)) - 1)) = _
  rw [broadcastInDim_scalar_apply, broadcastInDim_scalar_apply]
  show Scalar.select (Ideal.cmp .ogt (x j) Cert.Sage.w0) (x j)
      (Cert.Sage.w1 * (Ideal.exp (Scalar.select (Ideal.cmp .ogt (x j) Cert.Sage.w0) Cert.Sage.w0 (x j)) - 1)) = _
  by_cases hc : Ideal.cmp .ogt (x j) Cert.Sage.w0 = 1#1
  · rw [hc, select_one, select_one]
  · rw [eq_zero_of_ne_one hc, select_zero, select_zero, select_zero]
    show Ideal.ofBits .f32 0x3F800000#32 * _ = _ - Ideal.ofBits .f32 0x3F800000#32
    rw [Cert.Sage.Consts.ofBits_one, one_mul]

/-- The linear output of the reference's layer: the averaged features times the transposed weight, plus the bias. -/
def linTerm (neigh feats : FVec Ideal S50000x128 .f32) (inv8 : FVec Ideal S50000x1 .f32) (Wl : FVec Ideal S128x128 .f32)
    (bl : FVec Ideal S128 .f32) : FVec Ideal S50000x128 .f32 :=
  addf
    (Host.dotGeneral dot_S50000x128_S128x128_S50000x128_1_1_0_0_n_n none
      (mulf (addf neigh feats) (broadcastInDim S50000x128 ![0, 1] bcast_S50000x1_S50000x128_0_1 inv8)) Wl)
    (broadcastInDim S50000x128 ![0, 1] bcast_S1x128_S50000x128_0_1 (broadcastInDim S1x128 ![1] bcast_S128_S1x128_1 bl))

/-- The linear output at `(p, e)`: the linear map of the averaged row of node `p`, at output feature `e`. -/
theorem linTerm_apply (neigh feats : FVec Ideal S50000x128 .f32) (inv8 : FVec Ideal S50000x1 .f32)
    (Wl : FVec Ideal S128x128 .f32) (bl : FVec Ideal S128 .f32) (p : Fin 50000) (e : Fin 128) :
    linTerm neigh feats inv8 Wl bl (ix2 p e)
      = Cert.Sage.lin (Cert.Sage.avgRow neigh feats (fun p => inv8 (ix2 p (0 : Fin 1))) p)
          (fun e d => Wl (ix2 e d)) (fun e => bl (ix1 e)) e := by
  unfold linTerm Cert.Sage.lin
  rw [addf_apply, rowBcast_apply]
  refine congrArg (· + _) ?_
  refine (Cert.LibHostRows.hostDot_nt_apply dot_S50000x128_S128x128_S50000x128_1_1_0_0_n_n rfl rfl rfl rfl rfl rfl
    none _ Wl p e).trans (Finset.sum_congr rfl fun d _ => ?_)
  refine congrArg (· * _) ?_
  show (neigh (ix2 p d) + feats (ix2 p d)) * _ = _
  rw [colBcast_apply]
  rfl

/-- The layer norm and the unit of the reference's layer, applied to a matrix `L`. -/
def normTerm (L : FVec Ideal S50000x128 .f32) (gl betal : FVec Ideal S128 .f32) : FVec Ideal S50000x128 .f32 :=
  eluTerm (F := Ideal)
    (addf
      (mulf
        (mulf
          (subf L (broadcastInDim S50000x128 ![0, 1] bcast_S50000x1_S50000x128_0_1
            (Host.divf
              (broadcastInDim S50000x1 ![0] bcast_S50000_S50000x1_0
                (Host.reduceAdd L (constant (F := Ideal) S_ .f32 0x00000000#32) reducesTo_S50000x128_S50000_d1 h_S_))
              (broadcastInDim S50000x1 ![] bcast_S_S50000x1 (constant (F := Ideal) S_ .f32 0x43000000#32)))))
          (broadcastInDim S50000x128 ![0, 1] bcast_S50000x1_S50000x128_0_1
            (Host.rsqrt (addf (varTerm (F := Ideal) L (constantI S_ 32 0#32))
              (broadcastInDim S50000x1 ![] bcast_S_S50000x1 (constant (F := Ideal) S_ .f32 0x3727C5AC#32))))))
        (broadcastInDim S50000x128 ![0, 1] bcast_S1x128_S50000x128_0_1 (broadcastInDim S1x128 ![1] bcast_S128_S1x128_1 gl)))
      (broadcastInDim S50000x128 ![0, 1] bcast_S1x128_S50000x128_0_1 (broadcastInDim S1x128 ![1] bcast_S128_S1x128_1 betal)))

/-- The reference's layer is the layer norm and the unit applied to the linear output. -/
theorem layerTerm_eq_normTerm (neigh feats : FVec Ideal S50000x128 .f32) (inv8 : FVec Ideal S50000x1 .f32)
    (Wl : FVec Ideal S128x128 .f32) (bl gl betal : FVec Ideal S128 .f32) :
    layerTerm (F := Ideal) neigh feats inv8 Wl bl gl betal = normTerm (linTerm neigh feats inv8 Wl bl) gl betal := rfl

/-- The layer norm and the unit at `(p, q)`, when row `p` of `L` is the linear map of a row `h`: the layer's output row
    at `q`. -/
theorem normTerm_apply (L : FVec Ideal S50000x128 .f32) (gl betal : FVec Ideal S128 .f32) (p : Fin 50000) (q : Fin 128)
    (h : Fin 128 → EReal) (W : Fin 128 → Fin 128 → EReal) (b : Fin 128 → EReal)
    (hL : ∀ e, L (ix2 p e) = Cert.Sage.lin h W b e) :
    normTerm L gl betal (ix2 p q)
      = Cert.Sage.rowOut h W b (fun e => gl (ix1 e)) (fun e => betal (ix1 e)) q := by
  have hmean : Ideal.div (∑ e : Fin 128, L (ix2 p e)) Cert.Sage.w128 = Cert.Sage.mean h W b := by
    unfold Cert.Sage.mean
    exact congrArg (Ideal.div · _) (Finset.sum_congr rfl fun e _ => hL e)
  have hvar : varTerm (F := Ideal) L (constantI S_ 32 0#32) (ix2 p (0 : Fin 1)) = Cert.Sage.var h W b := by
    rw [varTerm_apply, hmean]
    unfold Cert.Sage.var Cert.Sage.dev
    exact congrArg (Ideal.div · _) (Finset.sum_congr rfl fun e _ => by rw [hL e])
  unfold normTerm Cert.Sage.rowOut
  rw [eluTerm_apply]
  refine congrArg Cert.Sage.elu ?_
  unfold Cert.Sage.normed Cert.Sage.dev
  rw [addf_apply, rowBcast_apply, mulf_apply, rowBcast_apply, mulf_apply, colBcast_apply, subf_apply, colBcast_apply,
    meanCol_apply, hmean, hL q]
  show (Cert.Sage.lin h W b q - Cert.Sage.mean h W b)
      * Ideal.rsqrt (varTerm (F := Ideal) L (constantI S_ 32 0#32) (ix2 p (0 : Fin 1))
          + broadcastInDim S50000x1 ![] bcast_S_S50000x1 (constant (F := Ideal) S_ .f32 0x3727C5AC#32) (ix2 p (0 : Fin 1)))
      * gl (ix1 q) + betal (ix1 q) = _
  rw [hvar, scalarCol_apply]
  rfl

/-- The reference's layer is the row-by-row layer: at `(p, q)` it is the output row, at `q`, of the averaged row of
    node `p`. -/
theorem layerTerm_eq (neigh feats : FVec Ideal S50000x128 .f32) (inv8 : FVec Ideal S50000x1 .f32)
    (Wl : FVec Ideal S128x128 .f32) (bl gl betal : FVec Ideal S128 .f32) :
    layerTerm (F := Ideal) neigh feats inv8 Wl bl gl betal
      = Cert.Sage.layer neigh feats (fun p => inv8 (ix2 p (0 : Fin 1))) (fun e d => Wl (ix2 e d))
          (fun e => bl (ix1 e)) (fun e => gl (ix1 e)) (fun e => betal (ix1 e)) := by
  funext j
  obtain ⟨p, q, rfl⟩ : ∃ (p : Fin 50000) (q : Fin 128), j = ix2 p q := ⟨j 0, j 1, eq_ix2 j⟩
  rw [Cert.Sage.layer_ix2, layerTerm_eq_normTerm]
  exact normTerm_apply _ gl betal p q _ _ _ fun e => linTerm_apply neigh feats inv8 Wl bl p e

end Cert.ReferenceIdeal.LayerRead

end
-- ==== Proof.Bridge.lean ====
/-
  The two programs compute the same function of their arguments.

  Both apply the row-by-row layer three times and then gather the requested nodes' rows. Their host stages — the sums
  over in-edges, the inverse degrees, the slices of the weight, bias, scale and shift stacks, the final gather — are
  the same terms. They differ only in layout: the kernel keeps the inverse degrees as a column by a reshape where the
  reference broadcasts along a new unit axis (both read the inverse degree of node `p` at `(p, 0)`); the kernel
  contracts with the weight transposed on the host, so reading it back transposed gives the weight the reference
  contracts with; and the kernel lays each bias, scale and shift vector out as a `[1, 128]` row, which at `(0, e)`
  reads the vector at `e`.
-/
import proofs.«133827_j60696477827758_1_alg».proof.Proof.KerWhole
import proofs.«133827_j60696477827758_1_alg».proof.Proof.RefWhole
import proofs.«133827_j60696477827758_1_alg».proof.Proof.RefLayer
import proofs.«133827_j60696477827758_1_alg».proof.Proof.LibKeepdims
import proofs.«133827_j60696477827758_1_alg».proof.Proof.LibHostKeepdims
import Idealize.ShloMosaic.Lib.Pipeline.Value
import Idealize.ShloMosaic.Lib.ValueLayout

noncomputable section

namespace Cert.Sage.Bridge

open Idealize.ShloMosaic Idealize.ShloMosaic.ValueIdx

attribute [local irreducible] Host.gather Host.scatterAdd

/-! ## The host stages are the same terms -/

theorem neigh_eq (x : FVec Ideal Cert.KernelIdeal.S50000x128 .f32) (src dst : IVec Cert.KernelIdeal.S800000 32) :
    Cert.KernelIdeal.Stages.neigh (F := Ideal) x src dst = Cert.ReferenceIdeal.Stages.neigh (F := Ideal) x src dst := rfl

theorem invVec_eq (dst : IVec Cert.KernelIdeal.S800000 32) :
    Cert.KernelIdeal.Stages.invVec (F := Ideal) dst = Cert.ReferenceIdeal.Stages.invVec (F := Ideal) dst := rfl

theorem take_eq (x : FVec Ideal Cert.KernelIdeal.S50000x128 .f32) (uid : IVec Cert.KernelIdeal.S4096 32) :
    Cert.KernelIdeal.Stages.take (F := Ideal) x uid = Cert.ReferenceIdeal.Stages.take (F := Ideal) x uid := rfl

/-- The inverse degree of node `p`, read off either program's column at `(p, 0)`. -/
theorem invCol_apply (dst : IVec Cert.KernelIdeal.S800000 32) (p : Fin 50000) :
    Cert.KernelIdeal.Stages.invCol (F := Ideal) dst (ix2 p (0 : Fin 1)) = Cert.ReferenceIdeal.Stages.invCol (F := Ideal) dst (ix2 p (0 : Fin 1)) := by
  unfold Cert.KernelIdeal.Stages.invCol Cert.ReferenceIdeal.Stages.invCol
  rw [shapeCast_a_a1_apply, broadcastInDim_a_a1_apply _ _ rfl, invVec_eq]

/-! ## The layers -/

/-- Layer 0's weight slice, and row 0 of a stack of three vectors, are the same terms in the two programs. -/
theorem weight0_eq (W : FVec Ideal Cert.KernelIdeal.S3x128x128 .f32) :
    Cert.KernelIdeal.Stages.weight0 (F := Ideal) W = Cert.ReferenceIdeal.Stages.weight0 (F := Ideal) W := rfl

theorem vec0_eq (b : FVec Ideal Cert.KernelIdeal.S3x128 .f32) :
    Cert.KernelIdeal.Stages.vec0 (F := Ideal) b = Cert.ReferenceIdeal.Stages.vec0 (F := Ideal) b := rfl

/-- The kernel's right operand is the weight transposed: read back transposed it is the weight. -/
theorem weightT0_apply (W : FVec Ideal Cert.KernelIdeal.S3x128x128 .f32) (d e : Fin 128) :
    Cert.KernelIdeal.Stages.weightT0 (F := Ideal) W (ix2 d e) = Cert.ReferenceIdeal.Stages.weight0 (F := Ideal) W (ix2 e d) := by
  unfold Cert.KernelIdeal.Stages.weightT0
  rw [transpose_ix2_apply, weight0_eq]

/-- A vector laid out as a `[1, 128]` row reads, at `(0, e)`, the vector at `e`. -/
theorem row0_apply (b : FVec Ideal Cert.KernelIdeal.S3x128 .f32) (e : Fin 128) :
    Cert.KernelIdeal.Stages.row0 (F := Ideal) b (ix2 (0 : Fin 1) e) = Cert.ReferenceIdeal.Stages.vec0 (F := Ideal) b (ix1 e) := by
  unfold Cert.KernelIdeal.Stages.row0
  rw [shapeCast_a_1a_apply, vec0_eq]

/-- Layer 0 of the kernel is layer 0 of the reference. -/
theorem layer0_eq (x : FVec Ideal Cert.KernelIdeal.S50000x128 .f32) (W : FVec Ideal Cert.KernelIdeal.S3x128x128 .f32)
    (b g β : FVec Ideal Cert.KernelIdeal.S3x128 .f32) (src dst : IVec Cert.KernelIdeal.S800000 32) :
    Cert.KernelIdeal.Whole.layer0 x W b g β src dst = Cert.ReferenceIdeal.Whole.layer0 x W b g β src dst := by
  unfold Cert.KernelIdeal.Whole.layer0 Cert.ReferenceIdeal.Whole.layer0
  rw [Cert.ReferenceIdeal.LayerRead.layerTerm_eq, neigh_eq]
  have hi : (fun p => Cert.KernelIdeal.Stages.invCol (F := Ideal) dst (ix2 p (0 : Fin 1)))
      = fun p => Cert.ReferenceIdeal.Stages.invCol (F := Ideal) dst (ix2 p (0 : Fin 1)) := funext fun p => invCol_apply dst p
  have hw : (fun e d => Cert.KernelIdeal.Stages.weightT0 (F := Ideal) W (ix2 d e)) = fun e d => Cert.ReferenceIdeal.Stages.weight0 (F := Ideal) W (ix2 e d) :=
    funext fun e => funext fun d => weightT0_apply W d e
  have hb : ∀ v : FVec Ideal Cert.KernelIdeal.S3x128 .f32,
      (fun e => Cert.KernelIdeal.Stages.row0 (F := Ideal) v (ix2 (0 : Fin 1) e)) = fun e => Cert.ReferenceIdeal.Stages.vec0 (F := Ideal) v (ix1 e) :=
    fun v => funext fun e => row0_apply v e
  rw [hi, hw, hb b, hb g, hb β]

/-- Layer 1's weight slice, and row 1 of a stack of three vectors, are the same terms in the two programs. -/
theorem weight1_eq (W : FVec Ideal Cert.KernelIdeal.S3x128x128 .f32) :
    Cert.KernelIdeal.Stages.weight1 (F := Ideal) W = Cert.ReferenceIdeal.Stages.weight1 (F := Ideal) W := rfl

theorem vec1_eq (b : FVec Ideal Cert.KernelIdeal.S3x128 .f32) :
    Cert.KernelIdeal.Stages.vec1 (F := Ideal) b = Cert.ReferenceIdeal.Stages.vec1 (F := Ideal) b := rfl

/-- The kernel's right operand is the weight transposed: read back transposed it is the weight. -/
theorem weightT1_apply (W : FVec Ideal Cert.KernelIdeal.S3x128x128 .f32) (d e : Fin 128) :
    Cert.KernelIdeal.Stages.weightT1 (F := Ideal) W (ix2 d e) = Cert.ReferenceIdeal.Stages.weight1 (F := Ideal) W (ix2 e d) := by
  unfold Cert.KernelIdeal.Stages.weightT1
  rw [transpose_ix2_apply, weight1_eq]

/-- A vector laid out as a `[1, 128]` row reads, at `(0, e)`, the vector at `e`. -/
theorem row1_apply (b : FVec Ideal Cert.KernelIdeal.S3x128 .f32) (e : Fin 128) :
    Cert.KernelIdeal.Stages.row1 (F := Ideal) b (ix2 (0 : Fin 1) e) = Cert.ReferenceIdeal.Stages.vec1 (F := Ideal) b (ix1 e) := by
  unfold Cert.KernelIdeal.Stages.row1
  rw [shapeCast_a_1a_apply, vec1_eq]

/-- Layer 1 of the kernel is layer 1 of the reference. -/
theorem layer1_eq (x : FVec Ideal Cert.KernelIdeal.S50000x128 .f32) (W : FVec Ideal Cert.KernelIdeal.S3x128x128 .f32)
    (b g β : FVec Ideal Cert.KernelIdeal.S3x128 .f32) (src dst : IVec Cert.KernelIdeal.S800000 32) :
    Cert.KernelIdeal.Whole.layer1 x W b g β src dst = Cert.ReferenceIdeal.Whole.layer1 x W b g β src dst := by
  unfold Cert.KernelIdeal.Whole.layer1 Cert.ReferenceIdeal.Whole.layer1
  rw [Cert.ReferenceIdeal.LayerRead.layerTerm_eq, neigh_eq]
  have hi : (fun p => Cert.KernelIdeal.Stages.invCol (F := Ideal) dst (ix2 p (0 : Fin 1)))
      = fun p => Cert.ReferenceIdeal.Stages.invCol (F := Ideal) dst (ix2 p (0 : Fin 1)) := funext fun p => invCol_apply dst p
  have hw : (fun e d => Cert.KernelIdeal.Stages.weightT1 (F := Ideal) W (ix2 d e)) = fun e d => Cert.ReferenceIdeal.Stages.weight1 (F := Ideal) W (ix2 e d) :=
    funext fun e => funext fun d => weightT1_apply W d e
  have hb : ∀ v : FVec Ideal Cert.KernelIdeal.S3x128 .f32,
      (fun e => Cert.KernelIdeal.Stages.row1 (F := Ideal) v (ix2 (0 : Fin 1) e)) = fun e => Cert.ReferenceIdeal.Stages.vec1 (F := Ideal) v (ix1 e) :=
    fun v => funext fun e => row1_apply v e
  rw [hi, hw, hb b, hb g, hb β]

/-- Layer 2's weight slice, and row 2 of a stack of three vectors, are the same terms in the two programs. -/
theorem weight2_eq (W : FVec Ideal Cert.KernelIdeal.S3x128x128 .f32) :
    Cert.KernelIdeal.Stages.weight2 (F := Ideal) W = Cert.ReferenceIdeal.Stages.weight2 (F := Ideal) W := rfl

theorem vec2_eq (b : FVec Ideal Cert.KernelIdeal.S3x128 .f32) :
    Cert.KernelIdeal.Stages.vec2 (F := Ideal) b = Cert.ReferenceIdeal.Stages.vec2 (F := Ideal) b := rfl

/-- The kernel's right operand is the weight transposed: read back transposed it is the weight. -/
theorem weightT2_apply (W : FVec Ideal Cert.KernelIdeal.S3x128x128 .f32) (d e : Fin 128) :
    Cert.KernelIdeal.Stages.weightT2 (F := Ideal) W (ix2 d e) = Cert.ReferenceIdeal.Stages.weight2 (F := Ideal) W (ix2 e d) := by
  unfold Cert.KernelIdeal.Stages.weightT2
  rw [transpose_ix2_apply, weight2_eq]

/-- A vector laid out as a `[1, 128]` row reads, at `(0, e)`, the vector at `e`. -/
theorem row2_apply (b : FVec Ideal Cert.KernelIdeal.S3x128 .f32) (e : Fin 128) :
    Cert.KernelIdeal.Stages.row2 (F := Ideal) b (ix2 (0 : Fin 1) e) = Cert.ReferenceIdeal.Stages.vec2 (F := Ideal) b (ix1 e) := by
  unfold Cert.KernelIdeal.Stages.row2
  rw [shapeCast_a_1a_apply, vec2_eq]

/-- Layer 2 of the kernel is layer 2 of the reference. -/
theorem layer2_eq (x : FVec Ideal Cert.KernelIdeal.S50000x128 .f32) (W : FVec Ideal Cert.KernelIdeal.S3x128x128 .f32)
    (b g β : FVec Ideal Cert.KernelIdeal.S3x128 .f32) (src dst : IVec Cert.KernelIdeal.S800000 32) :
    Cert.KernelIdeal.Whole.layer2 x W b g β src dst = Cert.ReferenceIdeal.Whole.layer2 x W b g β src dst := by
  unfold Cert.KernelIdeal.Whole.layer2 Cert.ReferenceIdeal.Whole.layer2
  rw [Cert.ReferenceIdeal.LayerRead.layerTerm_eq, neigh_eq]
  have hi : (fun p => Cert.KernelIdeal.Stages.invCol (F := Ideal) dst (ix2 p (0 : Fin 1)))
      = fun p => Cert.ReferenceIdeal.Stages.invCol (F := Ideal) dst (ix2 p (0 : Fin 1)) := funext fun p => invCol_apply dst p
  have hw : (fun e d => Cert.KernelIdeal.Stages.weightT2 (F := Ideal) W (ix2 d e)) = fun e d => Cert.ReferenceIdeal.Stages.weight2 (F := Ideal) W (ix2 e d) :=
    funext fun e => funext fun d => weightT2_apply W d e
  have hb : ∀ v : FVec Ideal Cert.KernelIdeal.S3x128 .f32,
      (fun e => Cert.KernelIdeal.Stages.row2 (F := Ideal) v (ix2 (0 : Fin 1) e)) = fun e => Cert.ReferenceIdeal.Stages.vec2 (F := Ideal) v (ix1 e) :=
    fun v => funext fun e => row2_apply v e
  rw [hi, hw, hb b, hb g, hb β]

/-! ## The result -/

theorem out_eq (emb : FVec Ideal Cert.KernelIdeal.S50000x128 .f32) (W : FVec Ideal Cert.KernelIdeal.S3x128x128 .f32)
    (b g β : FVec Ideal Cert.KernelIdeal.S3x128 .f32) (src dst : IVec Cert.KernelIdeal.S800000 32) (uid : IVec Cert.KernelIdeal.S4096 32) :
    Cert.KernelIdeal.Whole.out emb W b g β src dst uid = Cert.ReferenceIdeal.Whole.out emb W b g β src dst uid := by
  unfold Cert.KernelIdeal.Whole.out Cert.ReferenceIdeal.Whole.out
  rw [layer0_eq, layer1_eq, layer2_eq]
  exact take_eq _ uid

end Cert.Sage.Bridge

end
-- ==== Proof.lean ====
/-
  The certificate of one three-layer graph-convolution network: the kernel program (three pipelined regions among host
  gathers and segment sums) against its plain reference, over the extended reals.

  Each layer maps a node's row `h = (Σ_in-neighbours feats + feats) · 1/(deg + 1)` through a linear map, a layer norm
  and an exponential linear unit. The two programs compute the same function: the kernel's matrix product with the
  host-transposed weight is the reference's contraction over the weight's second axis (the same terms of one finite
  sum); its lane sums are the reference's row sums (the initial value is zero); the reference's variance divides by the
  row width less zero degrees of freedom, which is the row width, and its guard is open; `expm1 x` is `exp x − 1` and
  its factor one is neutral. No law used needs finiteness, so the precondition is not opened. The gathers, the segment
  sums and the weight slices are the same host functions on both sides and are carried unopened.

  The frames of the two kernel programs are the generated ones; the reference's frame is its run with the result
  dropped; the ideal pass rewrote nothing, so `preserves` is trivial.
-/
import proofs.«133827_j60696477827758_1_alg».proof.Defs
import proofs.«133827_j60696477827758_1_alg».proof.Proof.Gen.Kernel
import proofs.«133827_j60696477827758_1_alg».proof.Proof.Gen.Kernel.Skeleton
import proofs.«133827_j60696477827758_1_alg».proof.Proof.Gen.Kernel.Launch
import proofs.«133827_j60696477827758_1_alg».proof.Proof.Gen.Kernel.Points
import proofs.«133827_j60696477827758_1_alg».proof.Proof.Gen.Kernel.Frame
import proofs.«133827_j60696477827758_1_alg».proof.Proof.Gen.KernelIdeal
import proofs.«133827_j60696477827758_1_alg».proof.Proof.Gen.KernelIdeal.Skeleton
import proofs.«133827_j60696477827758_1_alg».proof.Proof.Gen.KernelIdeal.Launch
import proofs.«133827_j60696477827758_1_alg».proof.Proof.Gen.KernelIdeal.Points
import proofs.«133827_j60696477827758_1_alg».proof.Proof.Gen.KernelIdeal.Frame
import proofs.«133827_j60696477827758_1_alg».proof.Proof.Gen.ReferenceIdeal
import proofs.«133827_j60696477827758_1_alg».proof.Proof.Gen.Pre_finite_inputs
import proofs.«133827_j60696477827758_1_alg».proof.Proof.KerRun
import proofs.«133827_j60696477827758_1_alg».proof.Proof.KerValue
import proofs.«133827_j60696477827758_1_alg».proof.Proof.RefValue
import proofs.«133827_j60696477827758_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both programs end with the result buffer at one function of the launched arguments: the kernel's by its valued run
    and the closed form of its last boundary, the reference's by its run; the two functions are equal, and the
    memories agree on the arguments. -/
theorem algebraic : Cert.algebraic_KernelIdeal_ReferenceIdeal := by
  intro m ρ m' ρ' _ hagree
  refine ⟨fun c => Cert.KernelIdeal.Whole.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KerValue.result m ρ c), (h c).2⟩)
      (Cert.KernelIdeal.ValuedRun.run m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.Sage.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
